-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v88)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v88) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v146) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S1600000 : Shape := ⟨1, ![1600000]⟩
abbrev S64x64 : Shape := ⟨2, ![64, 64]⟩
abbrev S64 : Shape := ⟨1, ![64]⟩
abbrev S256x64 : Shape := ⟨2, ![256, 64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S256x64 : S_.BroadcastsInDim S256x64 (![] : Fin 0 → Fin S256x64.rank)
  reducesTo_S256x64_S_d0_1 : S256x64.ReducesTo [0, 1] S_

variable [Facts]

def fn_part2 {F : FTy → Type} [FloatOps F] (main_arg8 : FVec F S64 .f32) (main_arg9 : FVec F S256x64 .f32) (main_arg10 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S256x64 .f32 := Host.absf main_arg9
  let main_cst_14 : FVec F S_ .f32 := constant S_ .f32 0x7F800000#32
  let main_v40 : FVec F S256x64 .f32 := broadcastInDim S256x64 ![] bcast_S_S256x64 main_cst_14
  let main_v41 : IVec S256x64 1 := cmpf .olt main_v39 main_v40
  let main_c_15 : IVec S_ 1 := constantI S_ 1 1#1
  let main_v42 : IVec S_ 1 := (fun x v => Host.reduce IntOp.andi x v reducesTo_S256x64_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  main_v48

def fn_part1 {F : FTy → Type} [FloatOps F] (main_arg5 : FVec F S64x64 .f32) (main_arg6 : FVec F S64 .f32) (main_arg7 : FVec F S64x64 .f32) (main_arg8 : FVec F S64 .f32) (main_arg9 : FVec F S256x64 .f32) (main_arg10 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg8 main_arg9 main_arg10 main_v33

def fn {F : FTy → Type} [FloatOps F] (main_arg0 : FVec F S100000x64 .f32) (main_arg1 : IVec S2x1600000 32) (main_arg2 : FVec F S1600000 .f32) (main_arg3 : FVec F S64x64 .f32) (main_arg4 : FVec F S64 .f32) (main_arg5 : FVec F S64x64 .f32) (main_arg6 : FVec F S64 .f32) (main_arg7 : FVec F S64x64 .f32) (main_arg8 : FVec F S64 .f32) (main_arg9 : FVec F S256x64 .f32) (main_arg10 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_v13 main_v16
-- ==== Kernel.lean ====
abbrev S100000x64 : Shape := ⟨2, ![100000, 64]⟩
abbrev S2x1600000 : Shape := ⟨2, ![2, 1600000]⟩
abbrev S1600000 : Shape := ⟨1, ![1600000]⟩
abbrev S64x64 : Shape := ⟨2, ![64, 64]⟩
abbrev S64 : Shape := ⟨1, ![64]⟩
abbrev S256x64 : Shape := ⟨2, ![256, 64]⟩
abbrev S1x1600000 : Shape := ⟨2, ![1, 1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1x64 : Shape := ⟨2, ![1, 64]⟩
abbrev S5000x64 : Shape := ⟨2, ![5000, 64]⟩
abbrev S1700000x64 : Shape := ⟨2, ![1700000, 64]⟩
abbrev S100000x256 : Shape := ⟨2, ![100000, 256]⟩
abbrev S5000x256 : Shape := ⟨2, ![5000, 256]⟩

abbrev nBuf : Space → Nat
  | .hbm => 122
  | .vmem => 39
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S1600000, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S256x64, .f32⟩
  | .hbm, ⟨10, _⟩ => ⟨S64, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S100000, .i32⟩
  | .hbm, ⟨16, _⟩ => ⟨S1700000, .i32⟩
  | .hbm, ⟨17, _⟩ => ⟨S1700000, .i32⟩
  | .hbm, ⟨18, _⟩ => ⟨S_, .f32⟩
  | .hbm, ⟨19, _⟩ => ⟨S100000, .f32⟩
  | .hbm, ⟨20, _⟩ => ⟨S1700000, .f32⟩
  | .hbm, ⟨21, _⟩ => ⟨S_, .f32⟩
  | .hbm, ⟨22, _⟩ => ⟨S100000, .f32⟩
  | .hbm, ⟨23, _⟩ => ⟨S1700000x1, .i32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .i1⟩
  | .hbm, ⟨28, _⟩ => ⟨S100000, .f32⟩
  | .hbm, ⟨29, _⟩ => ⟨S_, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S_, .i32⟩
  | .hbm, ⟨34, _⟩ => ⟨S1700000, .i32⟩
  | .hbm, ⟨35, _⟩ => ⟨S1700000, .i1⟩
  | .hbm, ⟨36, _⟩ => ⟨S_, .i32⟩
  | .hbm, ⟨37, _⟩ => ⟨S1700000, .i32⟩
  | .hbm, ⟨38, _⟩ => ⟨S1700000, .i32⟩
  | .hbm, ⟨39, _⟩ => ⟨S1700000, .i32⟩
  | .hbm, ⟨40, _⟩ => ⟨S1700000x1, .i32⟩
  | .hbm, ⟨41, _⟩ => ⟨S1700000, .f32⟩
  | .hbm, ⟨42, _⟩ => ⟨S1700000, .f32⟩
  | .hbm, ⟨43, _⟩ => ⟨S_, .i32⟩
  | .hbm, ⟨44, _⟩ => ⟨S1700000, .i32⟩
  | .hbm, ⟨45, _⟩ => ⟨S1700000, .i1⟩
  | .hbm, ⟨46, _⟩ => ⟨S_, .i32⟩
  | .hbm, ⟨47, _⟩ => ⟨S1700000, .i32⟩
  | .hbm, ⟨48, _⟩ => ⟨S1700000, .i32⟩
  | .hbm, ⟨49, _⟩ => ⟨S1700000, .i32⟩
  | .hbm, ⟨50, _⟩ => ⟨S1700000x1, .i32⟩
  | .hbm, ⟨51, _⟩ => ⟨S1700000, .f32⟩
  | .hbm, ⟨52, _⟩ => ⟨S1700000, .f32⟩
  | .hbm, ⟨53, _⟩ => ⟨S_, .f32⟩
  | .hbm, ⟨54, _⟩ => ⟨S64, .f32⟩
  | .hbm, ⟨55, _⟩ => ⟨S1x64, .f32⟩
  | .hbm, ⟨56, _⟩ => ⟨S100000x64, .f32⟩
  | .hbm, ⟨57, _⟩ => ⟨S_, .i32⟩
  | .hbm, ⟨58, _⟩ => ⟨S1700000, .i32⟩
  | .hbm, ⟨59, _⟩ => ⟨S1700000, .i1⟩
  | .hbm, ⟨60, _⟩ => ⟨S_, .i32⟩
  | .hbm, ⟨61, _⟩ => ⟨S1700000, .i32⟩
  | .hbm, ⟨62, _⟩ => ⟨S1700000, .i32⟩
  | .hbm, ⟨63, _⟩ => ⟨S1700000, .i32⟩
  | .hbm, ⟨64, _⟩ => ⟨S1700000x1, .i32⟩
  | .hbm, ⟨65, _⟩ => ⟨S1700000x64, .f32⟩
  | .hbm, ⟨66, _⟩ => ⟨S1700000x1, .f32⟩
  | .hbm, ⟨67, _⟩ => ⟨S1700000x64, .f32⟩
  | .hbm, ⟨68, _⟩ => ⟨S1700000x64, .f32⟩
  | .hbm, ⟨69, _⟩ => ⟨S_, .f32⟩
  | .hbm, ⟨70, _⟩ => ⟨S100000x64, .f32⟩
  | .hbm, ⟨71, _⟩ => ⟨S1700000x1, .i32⟩
  | .hbm, ⟨72, _⟩ => ⟨S100000x64, .f32⟩
  | .hbm, ⟨73, _⟩ => ⟨S1x64, .f32⟩
  | .hbm, ⟨74, _⟩ => ⟨S100000x64, .f32⟩
  | .hbm, ⟨75, _⟩ => ⟨S_, .f32⟩
  | .hbm, ⟨76, _⟩ => ⟨S64, .f32⟩
  | .hbm, ⟨77, _⟩ => ⟨S1x64, .f32⟩
  | .hbm, ⟨78, _⟩ => ⟨S100000x64, .f32⟩
  | .hbm, ⟨79, _⟩ => ⟨S_, .i32⟩
  | .hbm, ⟨80, _⟩ => ⟨S1700000, .i32⟩
  | .hbm, ⟨81, _⟩ => ⟨S1700000, .i1⟩
  | .hbm, ⟨82, _⟩ => ⟨S_, .i32⟩
  | .hbm, ⟨83, _⟩ => ⟨S1700000, .i32⟩
  | .hbm, ⟨84, _⟩ => ⟨S1700000, .i32⟩
  | .hbm, ⟨85, _⟩ => ⟨S1700000, .i32⟩
  | .hbm, ⟨86, _⟩ => ⟨S1700000x1, .i32⟩
  | .hbm, ⟨87, _⟩ => ⟨S1700000x64, .f32⟩
  | .hbm, ⟨88, _⟩ => ⟨S1700000x1, .f32⟩
  | .hbm, ⟨89, _⟩ => ⟨S1700000x64, .f32⟩
  | .hbm, ⟨90, _⟩ => ⟨S1700000x64, .f32⟩
  | .hbm, ⟨91, _⟩ => ⟨S_, .f32⟩
  | .hbm, ⟨92, _⟩ => ⟨S100000x64, .f32⟩
  | .hbm, ⟨93, _⟩ => ⟨S1700000x1, .i32⟩
  | .hbm, ⟨94, _⟩ => ⟨S100000x64, .f32⟩
  | .hbm, ⟨95, _⟩ => ⟨S1x64, .f32⟩
  | .hbm, ⟨96, _⟩ => ⟨S100000x64, .f32⟩
  | .hbm, ⟨97, _⟩ => ⟨S_, .f32⟩
  | .hbm, ⟨98, _⟩ => ⟨S64, .f32⟩
  | .hbm, ⟨99, _⟩ => ⟨S1x64, .f32⟩
  | .hbm, ⟨100, _⟩ => ⟨S100000x64, .f32⟩
  | .hbm, ⟨101, _⟩ => ⟨S_, .i32⟩
  | .hbm, ⟨102, _⟩ => ⟨S1700000, .i32⟩
  | .hbm, ⟨103, _⟩ => ⟨S1700000, .i1⟩
  | .hbm, ⟨104, _⟩ => ⟨S_, .i32⟩
  | .hbm, ⟨105, _⟩ => ⟨S1700000, .i32⟩
  | .hbm, ⟨106, _⟩ => ⟨S1700000, .i32⟩
  | .hbm, ⟨107, _⟩ => ⟨S1700000, .i32⟩
  | .hbm, ⟨108, _⟩ => ⟨S1700000x1, .i32⟩
  | .hbm, ⟨109, _⟩ => ⟨S1700000x64, .f32⟩
  | .hbm, ⟨110, _⟩ => ⟨S1700000x1, .f32⟩
  | .hbm, ⟨111, _⟩ => ⟨S1700000x64, .f32⟩
  | .hbm, ⟨112, _⟩ => ⟨S1700000x64, .f32⟩
  | .hbm, ⟨113, _⟩ => ⟨S_, .f32⟩
  | .hbm, ⟨114, _⟩ => ⟨S100000x64, .f32⟩
  | .hbm, ⟨115, _⟩ => ⟨S1700000x1, .i32⟩
  | .hbm, ⟨116, _⟩ => ⟨S100000x64, .f32⟩
  | .hbm, ⟨117, _⟩ => ⟨S1x64, .f32⟩
  | .hbm, ⟨118, _⟩ => ⟨S100000x64, .f32⟩
  | .hbm, ⟨119, _⟩ => ⟨S100000x256, .f32⟩
  | .hbm, ⟨120, _⟩ => ⟨S1x64, .f32⟩
  | .hbm, ⟨121, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S1x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S1x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S64x64, .f32⟩
  | .local _ .vmem, ⟨14, _⟩ => ⟨S1x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S1x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S64x64, .f32⟩
  | .local _ .vmem, ⟨25, _⟩ => ⟨S1x64, .f32⟩
  | .local _ .vmem, ⟨26, _⟩ => ⟨S5000x64, .f32⟩
  | .local _ .vmem, ⟨27, _⟩ => ⟨S5000x64, .f32⟩
  | .local _ .vmem, ⟨28, _⟩ => ⟨S5000x64, .f32⟩
  | .local _ .vmem, ⟨29, _⟩ => ⟨S5000x64, .f32⟩
  | .local _ .vmem, ⟨30, _⟩ => ⟨S1x64, .f32⟩
  | .local _ .vmem, ⟨31, _⟩ => ⟨S5000x64, .f32⟩
  | .local _ .vmem, ⟨32, _⟩ => ⟨S5000x64, .f32⟩
  | .local _ .vmem, ⟨33, _⟩ => ⟨S5000x256, .f32⟩
  | .local _ .vmem, ⟨34, _⟩ => ⟨S5000x256, .f32⟩
  | .local _ .vmem, ⟨35, _⟩ => ⟨S256x64, .f32⟩
  | .local _ .vmem, ⟨36, _⟩ => ⟨S1x64, .f32⟩
  | .local _ .vmem, ⟨37, _⟩ => ⟨S5000x64, .f32⟩
  | .local _ .vmem, ⟨38, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v15 : Ref sig .tc := ⟨.hbm, 32, rfl⟩
abbrev main_c : Ref sig .tc := ⟨.hbm, 33, rfl⟩
abbrev main_v16 : Ref sig .tc := ⟨.hbm, 34, rfl⟩
abbrev main_v17 : Ref sig .tc := ⟨.hbm, 35, rfl⟩
abbrev main_c_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_4 : Ref sig .tc := ⟨.hbm, 43, rfl⟩
abbrev main_v24 : Ref sig .tc := ⟨.hbm, 44, rfl⟩
abbrev main_v25 : Ref sig .tc := ⟨.hbm, 45, rfl⟩
abbrev main_c_5 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_6 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_c_7 : Ref sig .tc := ⟨.hbm, 57, rfl⟩
abbrev main_v35 : Ref sig .tc := ⟨.hbm, 58, rfl⟩
abbrev main_v36 : Ref sig .tc := ⟨.hbm, 59, rfl⟩
abbrev main_c_8 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_cst_9 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_cst_10 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_c_11 : Ref sig .tc := ⟨.hbm, 79, rfl⟩
abbrev main_v53 : Ref sig .tc := ⟨.hbm, 80, rfl⟩
abbrev main_v54 : Ref sig .tc := ⟨.hbm, 81, rfl⟩
abbrev main_c_12 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_cst_13 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_cst_14 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_c_15 : Ref sig .tc := ⟨.hbm, 101, rfl⟩
abbrev main_v71 : Ref sig .tc := ⟨.hbm, 102, rfl⟩
abbrev main_v72 : Ref sig .tc := ⟨.hbm, 103, rfl⟩
abbrev main_c_16 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_cst_17 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg2_0 : Ref sig .tc := ⟨.vmem, 25, rfl⟩
abbrev cc4_stg3_0 : Ref sig .tc := ⟨.vmem, 26, rfl⟩
abbrev cc4_stg3_1 : Ref sig .tc := ⟨.vmem, 27, rfl⟩
abbrev cc5_stg0_0 : Ref sig .tc := ⟨.vmem, 28, rfl⟩
abbrev cc5_stg0_1 : Ref sig .tc := ⟨.vmem, 29, rfl⟩
abbrev cc5_stg1_0 : Ref sig .tc := ⟨.vmem, 30, rfl⟩
abbrev cc5_stg2_0 : Ref sig .tc := ⟨.vmem, 31, rfl⟩
abbrev cc5_stg2_1 : Ref sig .tc := ⟨.vmem, 32, rfl⟩
abbrev cc6_stg0_0 : Ref sig .tc := ⟨.vmem, 33, rfl⟩
abbrev cc6_stg0_1 : Ref sig .tc := ⟨.vmem, 34, rfl⟩
abbrev cc6_stg1_0 : Ref sig .tc := ⟨.vmem, 35, rfl⟩
abbrev cc6_stg2_0 : Ref sig .tc := ⟨.vmem, 36, rfl⟩
abbrev cc6_stg3_0 : Ref sig .tc := ⟨.vmem, 37, rfl⟩
abbrev cc6_stg3_1 : Ref sig .tc := ⟨.vmem, 38, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21
abbrev cc4_sem0_0 : DmaSem sig := 22
abbrev cc4_sem0_1 : DmaSem sig := 23
abbrev cc4_sem1_0 : DmaSem sig := 24
abbrev cc4_sem2_0 : DmaSem sig := 25
abbrev cc4_sem3_0 : DmaSem sig := 26
abbrev cc4_sem3_1 : DmaSem sig := 27
abbrev cc5_sem0_0 : DmaSem sig := 28
abbrev cc5_sem0_1 : DmaSem sig := 29
abbrev cc5_sem1_0 : DmaSem sig := 30
abbrev cc5_sem2_0 : DmaSem sig := 31
abbrev cc5_sem2_1 : DmaSem sig := 32
abbrev cc6_sem0_0 : DmaSem sig := 33
abbrev cc6_sem0_1 : DmaSem sig := 34
abbrev cc6_sem1_0 : DmaSem sig := 35
abbrev cc6_sem2_0 : DmaSem sig := 36
abbrev cc6_sem3_0 : DmaSem sig := 37
abbrev cc6_sem3_1 : DmaSem sig := 38

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x256 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S256x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S5000x64 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S_S64 : S_.BroadcastsInDim S64 (![] : Fin 0 → Fin S64.rank)
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S5000x64_S5000x64 : S5000x64.ShapeCasts S5000x64
  concatenates_S100000x64_S100000x64_S100000x64_S100000x64_S100000x256_d1 : Shape.Concatenates [S100000x64, S100000x64, S100000x64, S100000x64] S100000x256 1
  inb_S5000x256_S5000x256_0_0 : ∀ a, (![0, 0] : Fin 2 → Nat) a + S5000x256.size a ≤ S5000x256.size a
  h_S5000x256 : 0 < S5000x256.numel
  shapeCasts_S5000x256_S5000x256 : S5000x256.ShapeCasts S5000x256
  inb_S256x64_S256x64_0_0 : ∀ a, (![0, 0] : Fin 2 → Nat) a + S256x64.size a ≤ S256x64.size a
  h_S256x64 : 0 < S256x64.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x64_S64x64_S5000x64_1_0_0_1_n_n_wf : DotDims.WF S5000x64 S64x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S5000x256_S256x64_S5000x64_1_0_0_1_n_n_wf : DotDims.WF S5000x256 S256x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S100000x64.size a
  hwx2_3 : ∀ i : grid2.Coords, EltTy.bits .f32 = 32 ∨ (Rect.block (s := S100000x64) S5000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S100000x64.size a
  hwx3_2 : ∀ i : grid3.Coords, EltTy.bits .f32 = 32 ∨ (Rect.block (s := S100000x64) S5000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x64.size a ≤ S100000x64.size a
  hwx4_3 : ∀ i : grid4.Coords, EltTy.bits .f32 = 32 ∨ (Rect.block (s := S100000x64) S5000x64.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S100000x64.size a
  hwx5_0 : ∀ i : grid5.Coords, EltTy.bits .f32 = 32 ∨ (Rect.block (s := S100000x64) S5000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x64.size a ≤ S100000x64.size a
  hwx5_2 : ∀ i : grid5.Coords, EltTy.bits .f32 = 32 ∨ (Rect.block (s := S100000x64) S5000x64.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x256.size a ≤ S100000x256.size a
  hwx6_0 : ∀ i : grid6.Coords, EltTy.bits .f32 = 32 ∨ (Rect.block (s := S100000x256) S5000x256.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S256x64.size a ≤ S256x64.size a
  hwx6_1 : ∀ i : grid6.Coords, EltTy.bits .f32 = 32 ∨ (Rect.block (s := S256x64) S256x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x64.size a ≤ S1x64.size a
  hwx6_2 : ∀ i : grid6.Coords, EltTy.bits .f32 = 32 ∨ (Rect.block (s := S1x64) S1x64.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S5000x64.size a ≤ S100000x64.size a
  hwx6_3 : ∀ i : grid6.Coords, EltTy.bits .f32 = 32 ∨ (Rect.block (s := S100000x64) S5000x64.size (cc6_transform_3 i) (hinb6_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S5000x256_S256x64_S5000x64_1_0_0_1_n_n : DotDims S5000x256 S256x64 S5000x64 where
  lhsContracting := [1]
  rhsContracting := [0]
  lhsNonContracting := [0]
  rhsNonContracting := [1]
  lhsBatch := []
  rhsBatch := []
  wf := dot_S5000x256_S256x64_S5000x64_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v34) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v47) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v48) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v49) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v51) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v52) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v65) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v66) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v67) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v67) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v69) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v70) S5000x64.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v83) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v84) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v85) S5000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v86) S5000x256.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg9) S256x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v87) S1x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v88) S5000x64.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S1600000 : Shape := ⟨1, ![1600000]⟩
abbrev S64x64 : Shape := ⟨2, ![64, 64]⟩
abbrev S64 : Shape := ⟨1, ![64]⟩
abbrev S256x64 : Shape := ⟨2, ![256, 64]⟩
abbrev S1x1600000 : Shape := ⟨2, ![1, 1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S100000x256 : Shape := ⟨2, ![100000, 256]⟩

abbrev nBuf : Space → Nat
  | .hbm => 203
  | .vmem => 0
  | .smem => 0
  | _ => 0

abbrev hbmTy0_0 (i : Nat) : BufTy := match i % 128 with
  | 0 => ⟨S100000x64, .f32⟩
  | 1 => ⟨S2x1600000, .i32⟩
  | 2 => ⟨S1600000, .f32⟩
  | 3 => ⟨S64x64, .f32⟩
  | 4 => ⟨S64, .f32⟩
  | 5 => ⟨S64x64, .f32⟩
  | 6 => ⟨S64, .f32⟩
  | 7 => ⟨S64x64, .f32⟩
  | 8 => ⟨S64, .f32⟩
  | 9 => ⟨S256x64, .f32⟩
  | 10 => ⟨S64, .f32⟩
  | 11 => ⟨S1x1600000, .i32⟩
  | 12 => ⟨S1600000, .i32⟩
  | 13 => ⟨S1x1600000, .i32⟩
  | 14 => ⟨S1600000, .i32⟩
  | 15 => ⟨S100000, .i32⟩
  | 16 => ⟨S1700000, .i32⟩
  | 17 => ⟨S1700000, .i32⟩
  | 18 => ⟨S_, .f32⟩
  | 19 => ⟨S100000, .f32⟩
  | 20 => ⟨S1700000, .f32⟩
  | 21 => ⟨S_, .f32⟩
  | 22 => ⟨S100000, .f32⟩
  | 23 => ⟨S1700000x1, .i32⟩
  | 24 => ⟨S100000, .f32⟩
  | 25 => ⟨S_, .f32⟩
  | 26 => ⟨S100000, .f32⟩
  | 27 => ⟨S100000, .i1⟩
  | 28 => ⟨S100000, .f32⟩
  | 29 => ⟨S_, .f32⟩
  | 30 => ⟨S_, .f32⟩
  | 31 => ⟨S100000, .f32⟩
  | 32 => ⟨S100000, .f32⟩
  | 33 => ⟨S_, .i32⟩
  | 34 => ⟨S1700000, .i32⟩
  | 35 => ⟨S1700000, .i1⟩
  | 36 => ⟨S_, .i32⟩
  | 37 => ⟨S1700000, .i32⟩
  | 38 => ⟨S1700000, .i32⟩
  | 39 => ⟨S1700000, .i32⟩
  | 40 => ⟨S1700000x1, .i32⟩
  | 41 => ⟨S1700000, .f32⟩
  | 42 => ⟨S1700000, .f32⟩
  | 43 => ⟨S_, .i32⟩
  | 44 => ⟨S1700000, .i32⟩
  | 45 => ⟨S1700000, .i1⟩
  | 46 => ⟨S_, .i32⟩
  | 47 => ⟨S1700000, .i32⟩
  | 48 => ⟨S1700000, .i32⟩
  | 49 => ⟨S1700000, .i32⟩
  | 50 => ⟨S1700000x1, .i32⟩
  | 51 => ⟨S1700000, .f32⟩
  | 52 => ⟨S1700000, .f32⟩
  | 53 => ⟨S100000x64, .f32⟩
  | 54 => ⟨S_, .i32⟩
  | 55 => ⟨S1700000, .i32⟩
  | 56 => ⟨S1700000, .i1⟩
  | 57 => ⟨S_, .i32⟩
  | 58 => ⟨S1700000, .i32⟩
  | 59 => ⟨S1700000, .i32⟩
  | 60 => ⟨S1700000, .i32⟩
  | 61 => ⟨S1700000x1, .i32⟩
  | 62 => ⟨S1700000x64, .f32⟩
  | 63 => ⟨S1700000x1, .f32⟩
  | 64 => ⟨S1700000x64, .f32⟩
  | 65 => ⟨S1700000x64, .f32⟩
  | 66 => ⟨S_, .f32⟩
  | 67 => ⟨S100000x64, .f32⟩
  | 68 => ⟨S1700000x1, .i32⟩
  | 69 => ⟨S100000x64, .f32⟩
  | 70 => ⟨S1x64, .f32⟩
  | 71 => ⟨S100000x64, .f32⟩
  | 72 => ⟨S100000x64, .f32⟩
  | 73 => ⟨S_, .f32⟩
  | 74 => ⟨S100000x64, .f32⟩
  | 75 => ⟨S100000x64, .f32⟩
  | 76 => ⟨S100000, .i32⟩
  | 77 => ⟨S1700000, .i32⟩
  | 78 => ⟨S1700000, .i32⟩
  | 79 => ⟨S_, .f32⟩
  | 80 => ⟨S100000, .f32⟩
  | 81 => ⟨S1700000, .f32⟩
  | 82 => ⟨S_, .f32⟩
  | 83 => ⟨S100000, .f32⟩
  | 84 => ⟨S1700000x1, .i32⟩
  | 85 => ⟨S100000, .f32⟩
  | 86 => ⟨S_, .f32⟩
  | 87 => ⟨S100000, .f32⟩
  | 88 => ⟨S100000, .i1⟩
  | 89 => ⟨S100000, .f32⟩
  | 90 => ⟨S_, .f32⟩
  | 91 => ⟨S_, .f32⟩
  | 92 => ⟨S100000, .f32⟩
  | 93 => ⟨S100000, .f32⟩
  | 94 => ⟨S_, .i32⟩
  | 95 => ⟨S1700000, .i32⟩
  | 96 => ⟨S1700000, .i1⟩
  | 97 => ⟨S_, .i32⟩
  | 98 => ⟨S1700000, .i32⟩
  | 99 => ⟨S1700000, .i32⟩
  | 100 => ⟨S1700000, .i32⟩
  | 101 => ⟨S1700000x1, .i32⟩
  | 102 => ⟨S1700000, .f32⟩
  | 103 => ⟨S1700000, .f32⟩
  | 104 => ⟨S_, .i32⟩
  | 105 => ⟨S1700000, .i32⟩
  | 106 => ⟨S1700000, .i1⟩
  | 107 => ⟨S_, .i32⟩
  | 108 => ⟨S1700000, .i32⟩
  | 109 => ⟨S1700000, .i32⟩
  | 110 => ⟨S1700000, .i32⟩
  | 111 => ⟨S1700000x1, .i32⟩
  | 112 => ⟨S1700000, .f32⟩
  | 113 => ⟨S1700000, .f32⟩
  | 114 => ⟨S100000x64, .f32⟩
  | 115 => ⟨S_, .i32⟩
  | 116 => ⟨S1700000, .i32⟩
  | 117 => ⟨S1700000, .i1⟩
  | 118 => ⟨S_, .i32⟩
  | 119 => ⟨S1700000, .i32⟩
  | 120 => ⟨S1700000, .i32⟩
  | 121 => ⟨S1700000, .i32⟩
  | 122 => ⟨S1700000x1, .i32⟩
  | 123 => ⟨S1700000x64, .f32⟩
  | 124 => ⟨S1700000x1, .f32⟩
  | 125 => ⟨S1700000x64, .f32⟩
  | 126 => ⟨S1700000x64, .f32⟩
  | 127 => ⟨S_, .f32⟩
  | _ => ⟨S100000x64, .f32⟩

abbrev hbmTy0_1 (i : Nat) : BufTy := match i % 128 with
  | 0 => ⟨S100000x64, .f32⟩
  | 1 => ⟨S1700000x1, .i32⟩
  | 2 => ⟨S100000x64, .f32⟩
  | 3 => ⟨S1x64, .f32⟩
  | 4 => ⟨S100000x64, .f32⟩
  | 5 => ⟨S100000x64, .f32⟩
  | 6 => ⟨S_, .f32⟩
  | 7 => ⟨S100000x64, .f32⟩
  | 8 => ⟨S100000x64, .f32⟩
  | 9 => ⟨S100000, .i32⟩
  | 10 => ⟨S1700000, .i32⟩
  | 11 => ⟨S1700000, .i32⟩
  | 12 => ⟨S_, .f32⟩
  | 13 => ⟨S100000, .f32⟩
  | 14 => ⟨S1700000, .f32⟩
  | 15 => ⟨S_, .f32⟩
  | 16 => ⟨S100000, .f32⟩
  | 17 => ⟨S1700000x1, .i32⟩
  | 18 => ⟨S100000, .f32⟩
  | 19 => ⟨S_, .f32⟩
  | 20 => ⟨S100000, .f32⟩
  | 21 => ⟨S100000, .i1⟩
  | 22 => ⟨S100000, .f32⟩
  | 23 => ⟨S_, .f32⟩
  | 24 => ⟨S_, .f32⟩
  | 25 => ⟨S100000, .f32⟩
  | 26 => ⟨S100000, .f32⟩
  | 27 => ⟨S_, .i32⟩
  | 28 => ⟨S1700000, .i32⟩
  | 29 => ⟨S1700000, .i1⟩
  | 30 => ⟨S_, .i32⟩
  | 31 => ⟨S1700000, .i32⟩
  | 32 => ⟨S1700000, .i32⟩
  | 33 => ⟨S1700000, .i32⟩
  | 34 => ⟨S1700000x1, .i32⟩
  | 35 => ⟨S1700000, .f32⟩
  | 36 => ⟨S1700000, .f32⟩
  | 37 => ⟨S_, .i32⟩
  | 38 => ⟨S1700000, .i32⟩
  | 39 => ⟨S1700000, .i1⟩
  | 40 => ⟨S_, .i32⟩
  | 41 => ⟨S1700000, .i32⟩
  | 42 => ⟨S1700000, .i32⟩
  | 43 => ⟨S1700000, .i32⟩
  | 44 => ⟨S1700000x1, .i32⟩
  | 45 => ⟨S1700000, .f32⟩
  | 46 => ⟨S1700000, .f32⟩
  | 47 => ⟨S100000x64, .f32⟩
  | 48 => ⟨S_, .i32⟩
  | 49 => ⟨S1700000, .i32⟩
  | 50 => ⟨S1700000, .i1⟩
  | 51 => ⟨S_, .i32⟩
  | 52 => ⟨S1700000, .i32⟩
  | 53 => ⟨S1700000, .i32⟩
  | 54 => ⟨S1700000, .i32⟩
  | 55 => ⟨S1700000x1, .i32⟩
  | 56 => ⟨S1700000x64, .f32⟩
  | 57 => ⟨S1700000x1, .f32⟩
  | 58 => ⟨S1700000x64, .f32⟩
  | 59 => ⟨S1700000x64, .f32⟩
  | 60 => ⟨S_, .f32⟩
  | 61 => ⟨S100000x64, .f32⟩
  | 62 => ⟨S1700000x1, .i32⟩
  | 63 => ⟨S100000x64, .f32⟩
  | 64 => ⟨S1x64, .f32⟩
  | 65 => ⟨S100000x64, .f32⟩
  | 66 => ⟨S100000x64, .f32⟩
  | 67 => ⟨S_, .f32⟩
  | 68 => ⟨S100000x64, .f32⟩
  | 69 => ⟨S100000x64, .f32⟩
  | 70 => ⟨S100000x256, .f32⟩
  | 71 => ⟨S100000x64, .f32⟩
  | 72 => ⟨S1x64, .f32⟩
  | 73 => ⟨S100000x64, .f32⟩
  | 74 => ⟨S100000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v15 : Ref sig .tc := ⟨.hbm, 32, rfl⟩
abbrev main_c : Ref sig .tc := ⟨.hbm, 33, rfl⟩
abbrev main_v16 : Ref sig .tc := ⟨.hbm, 34, rfl⟩
abbrev main_v17 : Ref sig .tc := ⟨.hbm, 35, rfl⟩
abbrev main_c_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_4 : Ref sig .tc := ⟨.hbm, 43, rfl⟩
abbrev main_v24 : Ref sig .tc := ⟨.hbm, 44, rfl⟩
abbrev main_v25 : Ref sig .tc := ⟨.hbm, 45, rfl⟩
abbrev main_c_5 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_c_6 : Ref sig .tc := ⟨.hbm, 54, rfl⟩
abbrev main_v33 : Ref sig .tc := ⟨.hbm, 55, rfl⟩
abbrev main_v34 : Ref sig .tc := ⟨.hbm, 56, rfl⟩
abbrev main_c_7 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_8 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_call1_cst : Ref sig .tc := ⟨.hbm, 73, rfl⟩
abbrev main_call1_v0 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_cst_9 : Ref sig .tc := ⟨.hbm, 79, rfl⟩
abbrev main_v53 : Ref sig .tc := ⟨.hbm, 80, rfl⟩
abbrev main_v54 : Ref sig .tc := ⟨.hbm, 81, rfl⟩
abbrev main_cst_10 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_cst_11 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_cst_12 : Ref sig .tc := ⟨.hbm, 90, rfl⟩
abbrev main_call2_v0 : Ref sig .tc := ⟨.hbm, 91, rfl⟩
abbrev main_call2_v1 : Ref sig .tc := ⟨.hbm, 92, rfl⟩
abbrev main_v61 : Ref sig .tc := ⟨.hbm, 93, rfl⟩
abbrev main_c_13 : Ref sig .tc := ⟨.hbm, 94, rfl⟩
abbrev main_v62 : Ref sig .tc := ⟨.hbm, 95, rfl⟩
abbrev main_v63 : Ref sig .tc := ⟨.hbm, 96, rfl⟩
abbrev main_c_14 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_c_15 : Ref sig .tc := ⟨.hbm, 104, rfl⟩
abbrev main_v70 : Ref sig .tc := ⟨.hbm, 105, rfl⟩
abbrev main_v71 : Ref sig .tc := ⟨.hbm, 106, rfl⟩
abbrev main_c_16 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_c_17 : Ref sig .tc := ⟨.hbm, 115, rfl⟩
abbrev main_v79 : Ref sig .tc := ⟨.hbm, 116, rfl⟩
abbrev main_v80 : Ref sig .tc := ⟨.hbm, 117, rfl⟩
abbrev main_c_18 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_cst_19 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_call3_cst : Ref sig .tc := ⟨.hbm, 134, rfl⟩
abbrev main_call3_v0 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_cst_20 : Ref sig .tc := ⟨.hbm, 140, rfl⟩
abbrev main_v99 : Ref sig .tc := ⟨.hbm, 141, rfl⟩
abbrev main_v100 : Ref sig .tc := ⟨.hbm, 142, rfl⟩
abbrev main_cst_21 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_cst_22 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_cst_23 : Ref sig .tc := ⟨.hbm, 151, rfl⟩
abbrev main_call4_v0 : Ref sig .tc := ⟨.hbm, 152, rfl⟩
abbrev main_call4_v1 : Ref sig .tc := ⟨.hbm, 153, rfl⟩
abbrev main_v107 : Ref sig .tc := ⟨.hbm, 154, rfl⟩
abbrev main_c_24 : Ref sig .tc := ⟨.hbm, 155, rfl⟩
abbrev main_v108 : Ref sig .tc := ⟨.hbm, 156, rfl⟩
abbrev main_v109 : Ref sig .tc := ⟨.hbm, 157, rfl⟩
abbrev main_c_25 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev main_c_26 : Ref sig .tc := ⟨.hbm, 165, rfl⟩
abbrev main_v116 : Ref sig .tc := ⟨.hbm, 166, rfl⟩
abbrev main_v117 : Ref sig .tc := ⟨.hbm, 167, rfl⟩
abbrev main_c_27 : Ref sig .tc := ⟨.hbm, 168, rfl⟩
abbrev main_v118 : Ref sig .tc := ⟨.hbm, 169, rfl⟩
abbrev main_v119 : Ref sig .tc := ⟨.hbm, 170, rfl⟩
abbrev main_v120 : Ref sig .tc := ⟨.hbm, 171, rfl⟩
abbrev main_v121 : Ref sig .tc := ⟨.hbm, 172, rfl⟩
abbrev main_v122 : Ref sig .tc := ⟨.hbm, 173, rfl⟩
abbrev main_v123 : Ref sig .tc := ⟨.hbm, 174, rfl⟩
abbrev main_v124 : Ref sig .tc := ⟨.hbm, 175, rfl⟩
abbrev main_c_28 : Ref sig .tc := ⟨.hbm, 176, rfl⟩
abbrev main_v125 : Ref sig .tc := ⟨.hbm, 177, rfl⟩
abbrev main_v126 : Ref sig .tc := ⟨.hbm, 178, rfl⟩
abbrev main_c_29 : Ref sig .tc := ⟨.hbm, 179, rfl⟩
abbrev main_v127 : Ref sig .tc := ⟨.hbm, 180, rfl⟩
abbrev main_v128 : Ref sig .tc := ⟨.hbm, 181, rfl⟩
abbrev main_v129 : Ref sig .tc := ⟨.hbm, 182, rfl⟩
abbrev main_v130 : Ref sig .tc := ⟨.hbm, 183, rfl⟩
abbrev main_v131 : Ref sig .tc := ⟨.hbm, 184, rfl⟩
abbrev main_v132 : Ref sig .tc := ⟨.hbm, 185, rfl⟩
abbrev main_v133 : Ref sig .tc := ⟨.hbm, 186, rfl⟩
abbrev main_v134 : Ref sig .tc := ⟨.hbm, 187, rfl⟩
abbrev main_cst_30 : Ref sig .tc := ⟨.hbm, 188, rfl⟩
abbrev main_v135 : Ref sig .tc := ⟨.hbm, 189, rfl⟩
abbrev main_v136 : Ref sig .tc := ⟨.hbm, 190, rfl⟩
abbrev main_v137 : Ref sig .tc := ⟨.hbm, 191, rfl⟩
abbrev main_v138 : Ref sig .tc := ⟨.hbm, 192, rfl⟩
abbrev main_v139 : Ref sig .tc := ⟨.hbm, 193, rfl⟩
abbrev main_v140 : Ref sig .tc := ⟨.hbm, 194, rfl⟩
abbrev main_call5_cst : Ref sig .tc := ⟨.hbm, 195, rfl⟩
abbrev main_call5_v0 : Ref sig .tc := ⟨.hbm, 196, rfl⟩
abbrev main_v141 : Ref sig .tc := ⟨.hbm, 197, rfl⟩
abbrev main_v142 : Ref sig .tc := ⟨.hbm, 198, rfl⟩
abbrev main_v143 : Ref sig .tc := ⟨.hbm, 199, rfl⟩
abbrev main_v144 : Ref sig .tc := ⟨.hbm, 200, rfl⟩
abbrev main_v145 : Ref sig .tc := ⟨.hbm, 201, rfl⟩
abbrev main_v146 : Ref sig .tc := ⟨.hbm, 202, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  concatenates_S100000x64_S100000x64_S100000x64_S100000x64_S100000x256_d1 : Shape.Concatenates [S100000x64, S100000x64, S100000x64, S100000x64] S100000x256 1
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x64_S64x64_S100000x64_1_0_0_1_n_n_wf : DotDims.WF S100000x64 S64x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x256_S256x64_S100000x64_1_0_0_1_n_n_wf : DotDims.WF S100000x256 S256x64 S100000x64 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf

class Facts : Prop extends Facts₀ where

variable [Facts]
-- ==== Proof.Spec.lean ====
/-
  The graph convolution network as ONE function of its argument arrays, on the extended reals.

  Every layer takes the node features `x` (100000 rows of 64), projects each row through a 64×64 weight matrix,
  sends each projected row along every edge (the 1600000 given edges and one self loop per node) scaled by the
  edge's symmetric normalisation `dinv[src] · w · dinv[dst]`, sums what arrives at each node, adds the bias row and
  clamps below at zero.  Three layers are stacked; the input features and the three hidden states are laid side by side
  (256 columns) and projected once more through a 256×64 matrix, plus a last bias row.

  The pieces are spelt with the very operations the reference applies (its per-operation stages), so that the
  reference is this function by unfolding names; the edge normalisation and the index vectors depend only on the
  edge list and the edge weights, and are the same in all three layers.
-/
import proofs.«163322_j18580028523179_1_alg».proof.Proof.Gen.ReferenceIdeal.Read

set_option maxRecDepth 16384

noncomputable section

namespace Cert.Gcn

open Cert.ReferenceIdeal Cert.ReferenceIdeal.Gen Idealize.ShloMosaic Idealize.ShloMosaic.TcCoe Idealize.ShloMosaic.StableHlo

/-- Node features, or a hidden state: 100000 rows of 64 extended reals. -/
abbrev Mat : Type := (⟨S100000x64, .f32⟩ : BufTy).Contents (Elt Ideal)
/-- A layer's 64×64 weight matrix. -/
abbrev Wgt : Type := (⟨S64x64, .f32⟩ : BufTy).Contents (Elt Ideal)
/-- A bias vector of 64 entries. -/
abbrev Bias : Type := (⟨S64, .f32⟩ : BufTy).Contents (Elt Ideal)
/-- The edge list: row 0 the sources, row 1 the destinations. -/
abbrev Edges : Type := (⟨S2x1600000, .i32⟩ : BufTy).Contents (Elt Ideal)
/-- One weight per edge. -/
abbrev EdgeW : Type := (⟨S1600000, .f32⟩ : BufTy).Contents (Elt Ideal)
/-- The last projection's 256×64 matrix. -/
abbrev WgtF : Type := (⟨S256x64, .f32⟩ : BufTy).Contents (Elt Ideal)

/-- Each row of `x` times the weight matrix: entry (n, j) is the sum over k of x[n, k] · W[k, j]. -/
def proj (x : Mat) (W : Wgt) : Mat :=
  Host.dotGeneral (F := Ideal) (φ₁ := .f32) (φ₂ := .f32) dot_S100000x64_S64x64_S100000x64_1_0_0_1_n_n none x W

/-- The aggregation: row `src(e)` of `h`, scaled by edge e's normalisation, summed into row `dst(e)`, over the given
    edges and the self loops; starting from zero. -/
def agg (e : Edges) (a : EdgeW) (h : Mat) : Mat :=
  Host.scatterAdd (F := Ideal) scatter_S100000x64_S1700000x1_S1700000x64_1_0_0_1 (Read.val_main_v43 (F := Ideal))
    (Read.val_main_v44 (F := Ideal) e)
    (mulf (F := Ideal) (φ := .f32) (Host.gather gather_S100000x64_S1700000x1_S1700000x64_1_0_n_n_0_1_164 h (Read.val_main_v38 (F := Ideal) e))
      (Read.val_main_v41 (F := Ideal) e a))

/-- Add the bias to every row, then clamp below at zero. -/
def act (s : Mat) (b : Bias) : Mat :=
  maximumf (F := Ideal) (φ := .f32) (addf (F := Ideal) (φ := .f32) s (Read.val_main_v47 (F := Ideal) b)) (Read.val_main_call1_v0 (F := Ideal))

/-- One layer: project, aggregate along the edges, add the bias, clamp. -/
def layer (e : Edges) (a : EdgeW) (x : Mat) (W : Wgt) (b : Bias) : Mat := act (agg e a (proj x W)) b

/-- The features and the three hidden states side by side: 256 columns. -/
def cat (x c1 c2 c3 : Mat) : (⟨S100000x256, .f32⟩ : BufTy).Contents (Elt Ideal) :=
  concatenate S100000x256 1 [⟨S100000x64, x⟩, ⟨S100000x64, c1⟩, ⟨S100000x64, c2⟩, ⟨S100000x64, c3⟩]
    concatenates_S100000x64_S100000x64_S100000x64_S100000x64_S100000x256_d1

/-- The last projection: each 256-entry row times the 256×64 matrix, plus the last bias. -/
def head (h : (⟨S100000x256, .f32⟩ : BufTy).Contents (Elt Ideal)) (Wf : WgtF) (bf : Bias) : Mat :=
  addf (F := Ideal) (φ := .f32) (Host.dotGeneral (F := Ideal) (φ₁ := .f32) (φ₂ := .f32) dot_S100000x256_S256x64_S100000x64_1_0_0_1_n_n none h Wf) (Read.val_main_v47 (F := Ideal) bf)

/-- The whole network. -/
def net (x : Mat) (e : Edges) (a : EdgeW) (W0 : Wgt) (b0 : Bias) (W1 : Wgt) (b1 : Bias) (W2 : Wgt) (b2 : Bias)
    (Wf : WgtF) (bf : Bias) : Mat :=
  head (cat x (layer e a x W0 b0) (layer e a (layer e a x W0 b0) W1 b1)
    (layer e a (layer e a (layer e a x W0 b0) W1 b1) W2 b2)) Wf bf

/-- The first layer's hidden state is the reference's stage of that name. -/
theorem layer1_eq (x : Mat) (e : Edges) (a : EdgeW) (W0 : Wgt) (b0 : Bias) :
    Read.val_main_v49 (F := Ideal) x e a W0 b0 = layer e a x W0 b0 := rfl

/-- The second layer's: the reference computes the normalisation and the index vectors again, by the same operations. -/
theorem layer2_eq (x : Mat) (e : Edges) (a : EdgeW) (W0 : Wgt) (b0 : Bias) (W1 : Wgt) (b1 : Bias) :
    Read.val_main_v95 (F := Ideal) x e a W0 b0 W1 b1 = layer e a (layer e a x W0 b0) W1 b1 := rfl

/-- The third layer's. -/
theorem layer3_eq (x : Mat) (e : Edges) (a : EdgeW) (W0 : Wgt) (b0 : Bias) (W1 : Wgt) (b1 : Bias) (W2 : Wgt) (b2 : Bias) :
    Read.val_main_v141 (F := Ideal) x e a W0 b0 W1 b1 W2 b2
      = layer e a (layer e a (layer e a x W0 b0) W1 b1) W2 b2 := rfl

/-- The reference's result is the network. -/
theorem ref_eq (x : Mat) (e : Edges) (a : EdgeW) (W0 : Wgt) (b0 : Bias) (W1 : Wgt) (b1 : Bias) (W2 : Wgt) (b2 : Bias)
    (Wf : WgtF) (bf : Bias) :
    Read.val_main_v146 (F := Ideal) x e a W0 b0 W1 b1 W2 b2 Wf bf = net x e a W0 b0 W1 b1 W2 b2 Wf bf := by
  unfold net
  rw [← layer3_eq, ← layer2_eq, ← layer1_eq]
  rfl

end Cert.Gcn

end
-- ==== Proof.Bits.Region0.lean ====
/-
  Region 0 of the program: a row-tiled linear map.  The grid has 20 points; at point t the body is handed rows
  5000·t … 5000·t + 4999 of its first operand (window 0), the whole weight matrix (window 1) and the whole bias row
  (window 2), and it stores one whole block of the result (window 3): every entry of the block is the row of the
  input block times the column of the weights, plus the bias entry of that column.

  Stated here, for any float instance and at any contents `V` of the buffers when the region is entered: what the body
  leaves in the output block as one function of the three input blocks; that the body, run on whole staging buffers
  holding those blocks, terminates without a fault and leaves exactly that; and the data the launch theorem asks for —
  the arrays as the region finds them, and after the body each input buffer still at its block, the output buffer at the
  function of the input blocks.
-/
import proofs.«163322_j18580028523179_1_alg».proof.Proof.Gen.Kernel.Launch
import proofs.«163322_j18580028523179_1_alg».proof.Proof.Gen.Kernel.Skeleton
import proofs.«163322_j18580028523179_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Regs

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-! ## The blocks -/

/-- Window `w`'s block at grid point `t`, read off its array as the region finds it. -/
def iblk0 (c : Dev nD) (w : Fin cfg0.W) (t : Fin cfg0.N) :
    ((cfg0.win w).xblock (cfg0.grid.coords t)).Idx → Elt F (cfg0.win w).elt :=
  ((cfg0.win w).blk t).view.read (Elt F) (V c (Pipeline.arrRef spec0 w))

/-- The rows' staging buffer holds the point's row block whenever the body is handed it: it is fetched at every point. -/
theorem before0_0_of {c : Dev nD} (dat : Dat τ (Elt F) Unit ℕ (UR sig nD τ) ℕ cfg0 c)
    (hA : dat.A 0 = V c (Pipeline.arrRef spec0 0)) (hafter : ∀ t, dat.after 0 t = iblk0 V c 0 t)
    (t : Fin cfg0.N) (d) : dat.before 0 t d = iblk0 V c 0 t :=
  (dat.before_in_eq_fetched 0 rfl (fun _ => rfl) (fun _ _ _ => rfl)
    (fun t => by rw [hafter]; unfold Dat.blockOf iblk0; rw [hA]; try rfl) t d).trans
    (by unfold Dat.fetched Dat.blockOf iblk0; rw [hA]; try rfl)

/-- The weights' staging buffer holds the whole matrix at every point: fetched once, and the body leaves it in place. -/
theorem before0_1_of {c : Dev nD} (dat : Dat τ (Elt F) Unit ℕ (UR sig nD τ) ℕ cfg0 c)
    (hA : dat.A 1 = V c (Pipeline.arrRef spec0 1)) (hafter : ∀ t, dat.after 1 t = iblk0 V c 1 t)
    (t : Fin cfg0.N) (d) : dat.before 1 t d = iblk0 V c 1 t :=
  (dat.before_in_eq_fetched 1 rfl (fun _ => rfl) (fun _ _ _ => rfl)
    (fun t => by rw [hafter]; unfold Dat.blockOf iblk0; rw [hA]; try rfl) t d).trans
    (by unfold Dat.fetched Dat.blockOf iblk0; rw [hA]; try rfl)

/-- The bias row's staging buffer holds the row at every point, in the same way. -/
theorem before0_2_of {c : Dev nD} (dat : Dat τ (Elt F) Unit ℕ (UR sig nD τ) ℕ cfg0 c)
    (hA : dat.A 2 = V c (Pipeline.arrRef spec0 2)) (hafter : ∀ t, dat.after 2 t = iblk0 V c 2 t)
    (t : Fin cfg0.N) (d) : dat.before 2 t d = iblk0 V c 2 t :=
  (dat.before_in_eq_fetched 2 rfl (fun _ => rfl) (fun _ _ _ => rfl)
    (fun t => by rw [hafter]; unfold Dat.blockOf iblk0; rw [hA]; try rfl) t d).trans
    (by unfold Dat.fetched Dat.blockOf iblk0; rw [hA]; try rfl)

/-! ## What the body reads and writes: each buffer whole -/

abbrev rIn0 : Rect S5000x64 := Rect.unit (s := S5000x64) ![0, 0] S5000x64.size inb_S5000x64_S5000x64_0_0
abbrev rW0 : Rect S64x64 := Rect.unit (s := S64x64) ![0, 0] S64x64.size inb_S64x64_S64x64_0_0
abbrev rB0 : Rect S1x64 := Rect.unit (s := S1x64) ![0, 0] S1x64.size inb_S1x64_S1x64_0_0
abbrev rOut0 : Rect S5000x64 := Rect.unit (s := S5000x64) ![0, 0] S5000x64.size inb_S5000x64_S5000x64_0_0

/-- The output block after the body, as a function of the three input blocks: its one store, of the whole block. -/
def out0_3 (x0 : Vec F S5000x64 .f32) (x1 : Vec F S64x64 .f32) (x2 : Vec F S1x64 .f32) : Vec F S5000x64 .f32 :=
  View.canon [⟨rOut0, k0_pay1 (View.ld x0 rIn0) (View.ld x1 rW0) (View.ld x2 rB0)⟩]

/-- The one store covers the block. -/
theorem cover0_3 (p0 : Vec F S5000x64 .f32) (y : S5000x64.Idx) :
    ∃ pc ∈ ([⟨rOut0, p0⟩] : List (View.Piece (Elt F) S5000x64 .f32)), y ∈ pc.1.set :=
  View.cover_of_tiled [⟨rOut0, p0⟩] S5000x64.size (by rfl) y

/-! ## The body runs -/

set_option maxHeartbeats 1000000 in
/-- On whole staging buffers holding the blocks `x0`, `x1`, `x2` (and anything in the output's), the body terminates
    without a fault, the inputs' buffers as they were and the output's at `out0_3 x0 x1 x2`. -/
theorem sound_kernel0 (c : Dev nD) (E : Set ℕ) (i : grid0.Coords)
    (arg1 : Memref sig .tc .vmem S5000x64 .f32) (harg1 : arg1.IsWhole) (arg2 : Memref sig .tc .vmem S64x64 .f32) (harg2 : arg2.IsWhole)
    (arg3 : Memref sig .tc .vmem S1x64 .f32) (harg3 : arg3.IsWhole) (arg4 : Memref sig .tc .vmem S5000x64 .f32) (harg4 : arg4.IsWhole)
    (x0 : Vec F S5000x64 .f32) (x1 : Vec F S64x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The data of the launch -/

/-- On core `c`: the arrays as the region finds them; after the body at point `t` each input's buffer at its block and the
    output's at the function of the input blocks; nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body at a grid point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the body's run applies; the rest passes through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The launch theorem's obligation for the body, at every point. -/
theorem body_obligation0 (c : Dev nD) : BodyObligation (dat0 (F := F) V c) (defs₀ (F := F)) Variants.none () Set.univ := fun t => by
  rw [bigSep_W0, bigSep_W0]
  exact sound_body0 V c t

end Cert.Kernel.Regs

end
-- ==== Proof.Bits.Region1.lean ====
/-
  Region 1 of the program: add a bias row to every row and clamp below at zero, row-tiled.  The grid has 20 points; at
  point t the body is handed rows 5000·t … 5000·t + 4999 of its first operand (window 0) and the whole bias row
  (window 1), and it stores one whole block of the result (window 2): every entry is the larger of zero and the input
  entry plus the bias entry of its column.

  Stated here, for any float instance and at any contents `V` of the buffers when the region is entered: what the body
  leaves in the output block as one function of the two input blocks; that the body, run on whole staging buffers
  holding those blocks, terminates without a fault and leaves exactly that; and the data the launch theorem asks for.
-/
import proofs.«163322_j18580028523179_1_alg».proof.Proof.Gen.Kernel.Launch
import proofs.«163322_j18580028523179_1_alg».proof.Proof.Gen.Kernel.Skeleton
import proofs.«163322_j18580028523179_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Regs

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-! ## The blocks -/

/-- Window `w`'s block at grid point `t`, read off its array as the region finds it. -/
def iblk1 (c : Dev nD) (w : Fin cfg1.W) (t : Fin cfg1.N) :
    ((cfg1.win w).xblock (cfg1.grid.coords t)).Idx → Elt F (cfg1.win w).elt :=
  ((cfg1.win w).blk t).view.read (Elt F) (V c (Pipeline.arrRef spec1 w))

/-- The rows' staging buffer holds the point's row block whenever the body is handed it: it is fetched at every point. -/
theorem before1_0_of {c : Dev nD} (dat : Dat τ (Elt F) Unit ℕ (UR sig nD τ) ℕ cfg1 c)
    (hA : dat.A 0 = V c (Pipeline.arrRef spec1 0)) (hafter : ∀ t, dat.after 0 t = iblk1 V c 0 t)
    (t : Fin cfg1.N) (d) : dat.before 0 t d = iblk1 V c 0 t :=
  (dat.before_in_eq_fetched 0 rfl (fun _ => rfl) (fun _ _ _ => rfl)
    (fun t => by rw [hafter]; unfold Dat.blockOf iblk1; rw [hA]; try rfl) t d).trans
    (by unfold Dat.fetched Dat.blockOf iblk1; rw [hA]; try rfl)

/-- The bias row's staging buffer holds the row at every point: fetched once, and the body leaves it in place. -/
theorem before1_1_of {c : Dev nD} (dat : Dat τ (Elt F) Unit ℕ (UR sig nD τ) ℕ cfg1 c)
    (hA : dat.A 1 = V c (Pipeline.arrRef spec1 1)) (hafter : ∀ t, dat.after 1 t = iblk1 V c 1 t)
    (t : Fin cfg1.N) (d) : dat.before 1 t d = iblk1 V c 1 t :=
  (dat.before_in_eq_fetched 1 rfl (fun _ => rfl) (fun _ _ _ => rfl)
    (fun t => by rw [hafter]; unfold Dat.blockOf iblk1; rw [hA]; try rfl) t d).trans
    (by unfold Dat.fetched Dat.blockOf iblk1; rw [hA]; try rfl)

/-! ## What the body reads and writes: each buffer whole -/

abbrev rIn1 : Rect S5000x64 := Rect.unit (s := S5000x64) ![0, 0] S5000x64.size inb_S5000x64_S5000x64_0_0
abbrev rB1 : Rect S1x64 := Rect.unit (s := S1x64) ![0, 0] S1x64.size inb_S1x64_S1x64_0_0
abbrev rOut1 : Rect S5000x64 := Rect.unit (s := S5000x64) ![0, 0] S5000x64.size inb_S5000x64_S5000x64_0_0

/-- The output block after the body, as a function of the two input blocks: its one store, of the whole block. -/
def out1_2 (x0 : Vec F S5000x64 .f32) (x1 : Vec F S1x64 .f32) : Vec F S5000x64 .f32 :=
  View.canon [⟨rOut1, k1_pay1 (View.ld x0 rIn1) (View.ld x1 rB1)⟩]

/-- The one store covers the block. -/
theorem cover1_2 (p0 : Vec F S5000x64 .f32) (y : S5000x64.Idx) :
    ∃ pc ∈ ([⟨rOut1, p0⟩] : List (View.Piece (Elt F) S5000x64 .f32)), y ∈ pc.1.set :=
  View.cover_of_tiled [⟨rOut1, p0⟩] S5000x64.size (by rfl) y

/-! ## The body runs -/

set_option maxHeartbeats 1000000 in
/-- On whole staging buffers holding the blocks `x0`, `x1` (and anything in the output's), the body terminates without
    a fault, the inputs' buffers as they were and the output's at `out1_2 x0 x1`. -/
theorem sound_kernel1 (c : Dev nD) (E : Set ℕ) (i : grid1.Coords)
    (arg1 : Memref sig .tc .vmem S5000x64 .f32) (harg1 : arg1.IsWhole) (arg2 : Memref sig .tc .vmem S1x64 .f32) (harg2 : arg2.IsWhole)
    (arg3 : Memref sig .tc .vmem S5000x64 .f32) (harg3 : arg3.IsWhole)
    (x0 : Vec F S5000x64 .f32) (x1 : Vec F S1x64 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out1_2 x0 x1)) -∗ K ⟨⟩))
      ⊢ wp frame (wpE (defs₀ (F := F)) Variants.none c none) E (cc1__bias_relu_kernel i arg1 harg1 arg2 harg2 arg3 harg3) K := by
  simp only [cc1__bias_relu_kernel_eq_skeleton]; unfold cc1__bias_relu_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The data of the launch -/

/-- On core `c`: the arrays as the region finds them; after the body at point `t` each input's buffer at its block and the
    output's at the function of the input blocks; nothing owed, full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) :
    (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body at a grid point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' buffers hold their blocks, so the body's run applies; the rest passes through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The launch theorem's obligation for the body, at every point. -/
theorem body_obligation1 (c : Dev nD) : BodyObligation (dat1 (F := F) V c) (defs₀ (F := F)) Variants.none () Set.univ := fun t => by
  rw [bigSep_W1, bigSep_W1]
  exact sound_body1 V c t

end Cert.Kernel.Regs

end
-- ==== Proof.Bits.Region2.lean ====
/-
  Region 2 of the program: a row-tiled linear map.  The grid has 20 points; at point t the body is handed rows
  5000·t … 5000·t + 4999 of its first operand (window 0), the whole weight matrix (window 1) and the whole bias row
  (window 2), and it stores one whole block of the result (window 3): every entry of the block is the row of the
  input block times the column of the weights, plus the bias entry of that column.

  Stated here, for any float instance and at any contents `V` of the buffers when the region is entered: what the body
  leaves in the output block as one function of the three input blocks; that the body, run on whole staging buffers
  holding those blocks, terminates without a fault and leaves exactly that; and the data the launch theorem asks for —
  the arrays as the region finds them, and after the body each input buffer still at its block, the output buffer at the
  function of the input blocks.
-/
import proofs.«163322_j18580028523179_1_alg».proof.Proof.Gen.Kernel.Launch
import proofs.«163322_j18580028523179_1_alg».proof.Proof.Gen.Kernel.Skeleton
import proofs.«163322_j18580028523179_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Regs

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-! ## The blocks -/

/-- Window `w`'s block at grid point `t`, read off its array as the region finds it. -/
def iblk2 (c : Dev nD) (w : Fin cfg2.W) (t : Fin cfg2.N) :
    ((cfg2.win w).xblock (cfg2.grid.coords t)).Idx → Elt F (cfg2.win w).elt :=
  ((cfg2.win w).blk t).view.read (Elt F) (V c (Pipeline.arrRef spec2 w))

/-- The rows' staging buffer holds the point's row block whenever the body is handed it: it is fetched at every point. -/
theorem before2_0_of {c : Dev nD} (dat : Dat τ (Elt F) Unit ℕ (UR sig nD τ) ℕ cfg2 c)
    (hA : dat.A 0 = V c (Pipeline.arrRef spec2 0)) (hafter : ∀ t, dat.after 0 t = iblk2 V c 0 t)
    (t : Fin cfg2.N) (d) : dat.before 0 t d = iblk2 V c 0 t :=
  (dat.before_in_eq_fetched 0 rfl (fun _ => rfl) (fun _ _ _ => rfl)
    (fun t => by rw [hafter]; unfold Dat.blockOf iblk2; rw [hA]; try rfl) t d).trans
    (by unfold Dat.fetched Dat.blockOf iblk2; rw [hA]; try rfl)

/-- The weights' staging buffer holds the whole matrix at every point: fetched once, and the body leaves it in place. -/
theorem before2_1_of {c : Dev nD} (dat : Dat τ (Elt F) Unit ℕ (UR sig nD τ) ℕ cfg2 c)
    (hA : dat.A 1 = V c (Pipeline.arrRef spec2 1)) (hafter : ∀ t, dat.after 1 t = iblk2 V c 1 t)
    (t : Fin cfg2.N) (d) : dat.before 1 t d = iblk2 V c 1 t :=
  (dat.before_in_eq_fetched 1 rfl (fun _ => rfl) (fun _ _ _ => rfl)
    (fun t => by rw [hafter]; unfold Dat.blockOf iblk2; rw [hA]; try rfl) t d).trans
    (by unfold Dat.fetched Dat.blockOf iblk2; rw [hA]; try rfl)

/-- The bias row's staging buffer holds the row at every point, in the same way. -/
theorem before2_2_of {c : Dev nD} (dat : Dat τ (Elt F) Unit ℕ (UR sig nD τ) ℕ cfg2 c)
    (hA : dat.A 2 = V c (Pipeline.arrRef spec2 2)) (hafter : ∀ t, dat.after 2 t = iblk2 V c 2 t)
    (t : Fin cfg2.N) (d) : dat.before 2 t d = iblk2 V c 2 t :=
  (dat.before_in_eq_fetched 2 rfl (fun _ => rfl) (fun _ _ _ => rfl)
    (fun t => by rw [hafter]; unfold Dat.blockOf iblk2; rw [hA]; try rfl) t d).trans
    (by unfold Dat.fetched Dat.blockOf iblk2; rw [hA]; try rfl)

/-! ## What the body reads and writes: each buffer whole -/

abbrev rIn2 : Rect S5000x64 := Rect.unit (s := S5000x64) ![0, 0] S5000x64.size inb_S5000x64_S5000x64_0_0
abbrev rW2 : Rect S64x64 := Rect.unit (s := S64x64) ![0, 0] S64x64.size inb_S64x64_S64x64_0_0
abbrev rB2 : Rect S1x64 := Rect.unit (s := S1x64) ![0, 0] S1x64.size inb_S1x64_S1x64_0_0
abbrev rOut2 : Rect S5000x64 := Rect.unit (s := S5000x64) ![0, 0] S5000x64.size inb_S5000x64_S5000x64_0_0

/-- The output block after the body, as a function of the three input blocks: its one store, of the whole block. -/
def out2_3 (x0 : Vec F S5000x64 .f32) (x1 : Vec F S64x64 .f32) (x2 : Vec F S1x64 .f32) : Vec F S5000x64 .f32 :=
  View.canon [⟨rOut2, k2_pay1 (View.ld x0 rIn2) (View.ld x1 rW2) (View.ld x2 rB2)⟩]

/-- The one store covers the block. -/
theorem cover2_3 (p0 : Vec F S5000x64 .f32) (y : S5000x64.Idx) :
    ∃ pc ∈ ([⟨rOut2, p0⟩] : List (View.Piece (Elt F) S5000x64 .f32)), y ∈ pc.1.set :=
  View.cover_of_tiled [⟨rOut2, p0⟩] S5000x64.size (by rfl) y

/-! ## The body runs -/

set_option maxHeartbeats 1000000 in
/-- On whole staging buffers holding the blocks `x0`, `x1`, `x2` (and anything in the output's), the body terminates
    without a fault, the inputs' buffers as they were and the output's at `out2_3 x0 x1 x2`. -/
theorem sound_kernel2 (c : Dev nD) (E : Set ℕ) (i : grid2.Coords)
    (arg1 : Memref sig .tc .vmem S5000x64 .f32) (harg1 : arg1.IsWhole) (arg2 : Memref sig .tc .vmem S64x64 .f32) (harg2 : arg2.IsWhole)
    (arg3 : Memref sig .tc .vmem S1x64 .f32) (harg3 : arg3.IsWhole) (arg4 : Memref sig .tc .vmem S5000x64 .f32) (harg4 : arg4.IsWhole)
    (x0 : Vec F S5000x64 .f32) (x1 : Vec F S64x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__linear_kernel i arg1 harg1 arg2 harg2 arg3 harg3 arg4 harg4) K := by
  simp only [cc2__linear_kernel_eq_skeleton]; unfold cc2__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The data of the launch -/

/-- On core `c`: the arrays as the region finds them; after the body at point `t` each input's buffer at its block and the
    output's at the function of the input blocks; nothing owed, full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body at a grid point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' buffers hold their blocks, so the body's run applies; the rest passes through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The launch theorem's obligation for the body, at every point. -/
theorem body_obligation2 (c : Dev nD) : BodyObligation (dat2 (F := F) V c) (defs₀ (F := F)) Variants.none () Set.univ := fun t => by
  rw [bigSep_W2, bigSep_W2]
  exact sound_body2 V c t

end Cert.Kernel.Regs

end
-- ==== Proof.Bits.Region3.lean ====
/-
  Region 3 of the program: add a bias row to every row and clamp below at zero, row-tiled.  The grid has 20 points; at
  point t the body is handed rows 5000·t … 5000·t + 4999 of its first operand (window 0) and the whole bias row
  (window 1), and it stores one whole block of the result (window 2): every entry is the larger of zero and the input
  entry plus the bias entry of its column.

  Stated here, for any float instance and at any contents `V` of the buffers when the region is entered: what the body
  leaves in the output block as one function of the two input blocks; that the body, run on whole staging buffers
  holding those blocks, terminates without a fault and leaves exactly that; and the data the launch theorem asks for.
-/
import proofs.«163322_j18580028523179_1_alg».proof.Proof.Gen.Kernel.Launch
import proofs.«163322_j18580028523179_1_alg».proof.Proof.Gen.Kernel.Skeleton
import proofs.«163322_j18580028523179_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Regs

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-! ## The blocks -/

/-- Window `w`'s block at grid point `t`, read off its array as the region finds it. -/
def iblk3 (c : Dev nD) (w : Fin cfg3.W) (t : Fin cfg3.N) :
    ((cfg3.win w).xblock (cfg3.grid.coords t)).Idx → Elt F (cfg3.win w).elt :=
  ((cfg3.win w).blk t).view.read (Elt F) (V c (Pipeline.arrRef spec3 w))

/-- The rows' staging buffer holds the point's row block whenever the body is handed it: it is fetched at every point. -/
theorem before3_0_of {c : Dev nD} (dat : Dat τ (Elt F) Unit ℕ (UR sig nD τ) ℕ cfg3 c)
    (hA : dat.A 0 = V c (Pipeline.arrRef spec3 0)) (hafter : ∀ t, dat.after 0 t = iblk3 V c 0 t)
    (t : Fin cfg3.N) (d) : dat.before 0 t d = iblk3 V c 0 t :=
  (dat.before_in_eq_fetched 0 rfl (fun _ => rfl) (fun _ _ _ => rfl)
    (fun t => by rw [hafter]; unfold Dat.blockOf iblk3; rw [hA]; try rfl) t d).trans
    (by unfold Dat.fetched Dat.blockOf iblk3; rw [hA]; try rfl)

/-- The bias row's staging buffer holds the row at every point: fetched once, and the body leaves it in place. -/
theorem before3_1_of {c : Dev nD} (dat : Dat τ (Elt F) Unit ℕ (UR sig nD τ) ℕ cfg3 c)
    (hA : dat.A 1 = V c (Pipeline.arrRef spec3 1)) (hafter : ∀ t, dat.after 1 t = iblk3 V c 1 t)
    (t : Fin cfg3.N) (d) : dat.before 1 t d = iblk3 V c 1 t :=
  (dat.before_in_eq_fetched 1 rfl (fun _ => rfl) (fun _ _ _ => rfl)
    (fun t => by rw [hafter]; unfold Dat.blockOf iblk3; rw [hA]; try rfl) t d).trans
    (by unfold Dat.fetched Dat.blockOf iblk3; rw [hA]; try rfl)

/-! ## What the body reads and writes: each buffer whole -/

abbrev rIn3 : Rect S5000x64 := Rect.unit (s := S5000x64) ![0, 0] S5000x64.size inb_S5000x64_S5000x64_0_0
abbrev rB3 : Rect S1x64 := Rect.unit (s := S1x64) ![0, 0] S1x64.size inb_S1x64_S1x64_0_0
abbrev rOut3 : Rect S5000x64 := Rect.unit (s := S5000x64) ![0, 0] S5000x64.size inb_S5000x64_S5000x64_0_0

/-- The output block after the body, as a function of the two input blocks: its one store, of the whole block. -/
def out3_2 (x0 : Vec F S5000x64 .f32) (x1 : Vec F S1x64 .f32) : Vec F S5000x64 .f32 :=
  View.canon [⟨rOut3, k3_pay1 (View.ld x0 rIn3) (View.ld x1 rB3)⟩]

/-- The one store covers the block. -/
theorem cover3_2 (p0 : Vec F S5000x64 .f32) (y : S5000x64.Idx) :
    ∃ pc ∈ ([⟨rOut3, p0⟩] : List (View.Piece (Elt F) S5000x64 .f32)), y ∈ pc.1.set :=
  View.cover_of_tiled [⟨rOut3, p0⟩] S5000x64.size (by rfl) y

/-! ## The body runs -/

set_option maxHeartbeats 1000000 in
/-- On whole staging buffers holding the blocks `x0`, `x1` (and anything in the output's), the body terminates without
    a fault, the inputs' buffers as they were and the output's at `out3_2 x0 x1`. -/
theorem sound_kernel3 (c : Dev nD) (E : Set ℕ) (i : grid3.Coords)
    (arg1 : Memref sig .tc .vmem S5000x64 .f32) (harg1 : arg1.IsWhole) (arg2 : Memref sig .tc .vmem S1x64 .f32) (harg2 : arg2.IsWhole)
    (arg3 : Memref sig .tc .vmem S5000x64 .f32) (harg3 : arg3.IsWhole)
    (x0 : Vec F S5000x64 .f32) (x1 : Vec F S1x64 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out3_2 x0 x1)) -∗ K ⟨⟩))
      ⊢ wp frame (wpE (defs₀ (F := F)) Variants.none c none) E (cc3__bias_relu_kernel i arg1 harg1 arg2 harg2 arg3 harg3) K := by
  simp only [cc3__bias_relu_kernel_eq_skeleton]; unfold cc3__bias_relu_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-! ## The data of the launch -/

/-- On core `c`: the arrays as the region finds them; after the body at point `t` each input's buffer at its block and the
    output's at the function of the input blocks; nothing owed, full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) :
    (dat3 V c).after 2 t = out3_2 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body at a grid point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' buffers hold their blocks, so the body's run applies; the rest passes through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The launch theorem's obligation for the body, at every point. -/
theorem body_obligation3 (c : Dev nD) : BodyObligation (dat3 (F := F) V c) (defs₀ (F := F)) Variants.none () Set.univ := fun t => by
  rw [bigSep_W3, bigSep_W3]
  exact sound_body3 V c t

end Cert.Kernel.Regs

end
-- ==== Proof.Bits.Region4.lean ====
/-
  Region 4 of the program: a row-tiled linear map.  The grid has 20 points; at point t the body is handed rows
  5000·t … 5000·t + 4999 of its first operand (window 0), the whole weight matrix (window 1) and the whole bias row
  (window 2), and it stores one whole block of the result (window 3): every entry of the block is the row of the
  input block times the column of the weights, plus the bias entry of that column.

  Stated here, for any float instance and at any contents `V` of the buffers when the region is entered: what the body
  leaves in the output block as one function of the three input blocks; that the body, run on whole staging buffers
  holding those blocks, terminates without a fault and leaves exactly that; and the data the launch theorem asks for —
  the arrays as the region finds them, and after the body each input buffer still at its block, the output buffer at the
  function of the input blocks.
-/
import proofs.«163322_j18580028523179_1_alg».proof.Proof.Gen.Kernel.Launch
import proofs.«163322_j18580028523179_1_alg».proof.Proof.Gen.Kernel.Skeleton
import proofs.«163322_j18580028523179_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Regs

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-! ## The blocks -/

/-- Window `w`'s block at grid point `t`, read off its array as the region finds it. -/
def iblk4 (c : Dev nD) (w : Fin cfg4.W) (t : Fin cfg4.N) :
    ((cfg4.win w).xblock (cfg4.grid.coords t)).Idx → Elt F (cfg4.win w).elt :=
  ((cfg4.win w).blk t).view.read (Elt F) (V c (Pipeline.arrRef spec4 w))

/-- The rows' staging buffer holds the point's row block whenever the body is handed it: it is fetched at every point. -/
theorem before4_0_of {c : Dev nD} (dat : Dat τ (Elt F) Unit ℕ (UR sig nD τ) ℕ cfg4 c)
    (hA : dat.A 0 = V c (Pipeline.arrRef spec4 0)) (hafter : ∀ t, dat.after 0 t = iblk4 V c 0 t)
    (t : Fin cfg4.N) (d) : dat.before 0 t d = iblk4 V c 0 t :=
  (dat.before_in_eq_fetched 0 rfl (fun _ => rfl) (fun _ _ _ => rfl)
    (fun t => by rw [hafter]; unfold Dat.blockOf iblk4; rw [hA]; try rfl) t d).trans
    (by unfold Dat.fetched Dat.blockOf iblk4; rw [hA]; try rfl)

/-- The weights' staging buffer holds the whole matrix at every point: fetched once, and the body leaves it in place. -/
theorem before4_1_of {c : Dev nD} (dat : Dat τ (Elt F) Unit ℕ (UR sig nD τ) ℕ cfg4 c)
    (hA : dat.A 1 = V c (Pipeline.arrRef spec4 1)) (hafter : ∀ t, dat.after 1 t = iblk4 V c 1 t)
    (t : Fin cfg4.N) (d) : dat.before 1 t d = iblk4 V c 1 t :=
  (dat.before_in_eq_fetched 1 rfl (fun _ => rfl) (fun _ _ _ => rfl)
    (fun t => by rw [hafter]; unfold Dat.blockOf iblk4; rw [hA]; try rfl) t d).trans
    (by unfold Dat.fetched Dat.blockOf iblk4; rw [hA]; try rfl)

/-- The bias row's staging buffer holds the row at every point, in the same way. -/
theorem before4_2_of {c : Dev nD} (dat : Dat τ (Elt F) Unit ℕ (UR sig nD τ) ℕ cfg4 c)
    (hA : dat.A 2 = V c (Pipeline.arrRef spec4 2)) (hafter : ∀ t, dat.after 2 t = iblk4 V c 2 t)
    (t : Fin cfg4.N) (d) : dat.before 2 t d = iblk4 V c 2 t :=
  (dat.before_in_eq_fetched 2 rfl (fun _ => rfl) (fun _ _ _ => rfl)
    (fun t => by rw [hafter]; unfold Dat.blockOf iblk4; rw [hA]; try rfl) t d).trans
    (by unfold Dat.fetched Dat.blockOf iblk4; rw [hA]; try rfl)

/-! ## What the body reads and writes: each buffer whole -/

abbrev rIn4 : Rect S5000x64 := Rect.unit (s := S5000x64) ![0, 0] S5000x64.size inb_S5000x64_S5000x64_0_0
abbrev rW4 : Rect S64x64 := Rect.unit (s := S64x64) ![0, 0] S64x64.size inb_S64x64_S64x64_0_0
abbrev rB4 : Rect S1x64 := Rect.unit (s := S1x64) ![0, 0] S1x64.size inb_S1x64_S1x64_0_0
abbrev rOut4 : Rect S5000x64 := Rect.unit (s := S5000x64) ![0, 0] S5000x64.size inb_S5000x64_S5000x64_0_0

/-- The output block after the body, as a function of the three input blocks: its one store, of the whole block. -/
def out4_3 (x0 : Vec F S5000x64 .f32) (x1 : Vec F S64x64 .f32) (x2 : Vec F S1x64 .f32) : Vec F S5000x64 .f32 :=
  View.canon [⟨rOut4, k4_pay1 (View.ld x0 rIn4) (View.ld x1 rW4) (View.ld x2 rB4)⟩]

/-- The one store covers the block. -/
theorem cover4_3 (p0 : Vec F S5000x64 .f32) (y : S5000x64.Idx) :
    ∃ pc ∈ ([⟨rOut4, p0⟩] : List (View.Piece (Elt F) S5000x64 .f32)), y ∈ pc.1.set :=
  View.cover_of_tiled [⟨rOut4, p0⟩] S5000x64.size (by rfl) y

/-! ## The body runs -/

set_option maxHeartbeats 1000000 in
/-- On whole staging buffers holding the blocks `x0`, `x1`, `x2` (and anything in the output's), the body terminates
    without a fault, the inputs' buffers as they were and the output's at `out4_3 x0 x1 x2`. -/
theorem sound_kernel4 (c : Dev nD) (E : Set ℕ) (i : grid4.Coords)
    (arg1 : Memref sig .tc .vmem S5000x64 .f32) (harg1 : arg1.IsWhole) (arg2 : Memref sig .tc .vmem S64x64 .f32) (harg2 : arg2.IsWhole)
    (arg3 : Memref sig .tc .vmem S1x64 .f32) (harg3 : arg3.IsWhole) (arg4 : Memref sig .tc .vmem S5000x64 .f32) (harg4 : arg4.IsWhole)
    (x0 : Vec F S5000x64 .f32) (x1 : Vec F S64x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out4_3 x0 x1 x2)) -∗ K ⟨⟩))
      ⊢ wp frame (wpE (defs₀ (F := F)) Variants.none c none) E (cc4__linear_kernel i arg1 harg1 arg2 harg2 arg3 harg3 arg4 harg4) K := by
  simp only [cc4__linear_kernel_eq_skeleton]; unfold cc4__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover4_3 _)

/-! ## The data of the launch -/

/-- On core `c`: the arrays as the region finds them; after the body at point `t` each input's buffer at its block and the
    output's at the function of the input blocks; nothing owed, full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) :
    (dat4 V c).after 3 t = out4_3 (iblk4 V c 0 t) (iblk4 V c 1 t) (iblk4 V c 2 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-! ## The body at a grid point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

/-- The body at any point: the inputs' buffers hold their blocks, so the body's run applies; the rest passes through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (sound_kernel4 c Set.univ _ _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The launch theorem's obligation for the body, at every point. -/
theorem body_obligation4 (c : Dev nD) : BodyObligation (dat4 (F := F) V c) (defs₀ (F := F)) Variants.none () Set.univ := fun t => by
  rw [bigSep_W4, bigSep_W4]
  exact sound_body4 V c t

end Cert.Kernel.Regs

end
-- ==== Proof.Bits.Region5.lean ====
/-
  Region 5 of the program: add a bias row to every row and clamp below at zero, row-tiled.  The grid has 20 points; at
  point t the body is handed rows 5000·t … 5000·t + 4999 of its first operand (window 0) and the whole bias row
  (window 1), and it stores one whole block of the result (window 2): every entry is the larger of zero and the input
  entry plus the bias entry of its column.

  Stated here, for any float instance and at any contents `V` of the buffers when the region is entered: what the body
  leaves in the output block as one function of the two input blocks; that the body, run on whole staging buffers
  holding those blocks, terminates without a fault and leaves exactly that; and the data the launch theorem asks for.
-/
import proofs.«163322_j18580028523179_1_alg».proof.Proof.Gen.Kernel.Launch
import proofs.«163322_j18580028523179_1_alg».proof.Proof.Gen.Kernel.Skeleton
import proofs.«163322_j18580028523179_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Regs

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-! ## The blocks -/

/-- Window `w`'s block at grid point `t`, read off its array as the region finds it. -/
def iblk5 (c : Dev nD) (w : Fin cfg5.W) (t : Fin cfg5.N) :
    ((cfg5.win w).xblock (cfg5.grid.coords t)).Idx → Elt F (cfg5.win w).elt :=
  ((cfg5.win w).blk t).view.read (Elt F) (V c (Pipeline.arrRef spec5 w))

/-- The rows' staging buffer holds the point's row block whenever the body is handed it: it is fetched at every point. -/
theorem before5_0_of {c : Dev nD} (dat : Dat τ (Elt F) Unit ℕ (UR sig nD τ) ℕ cfg5 c)
    (hA : dat.A 0 = V c (Pipeline.arrRef spec5 0)) (hafter : ∀ t, dat.after 0 t = iblk5 V c 0 t)
    (t : Fin cfg5.N) (d) : dat.before 0 t d = iblk5 V c 0 t :=
  (dat.before_in_eq_fetched 0 rfl (fun _ => rfl) (fun _ _ _ => rfl)
    (fun t => by rw [hafter]; unfold Dat.blockOf iblk5; rw [hA]; try rfl) t d).trans
    (by unfold Dat.fetched Dat.blockOf iblk5; rw [hA]; try rfl)

/-- The bias row's staging buffer holds the row at every point: fetched once, and the body leaves it in place. -/
theorem before5_1_of {c : Dev nD} (dat : Dat τ (Elt F) Unit ℕ (UR sig nD τ) ℕ cfg5 c)
    (hA : dat.A 1 = V c (Pipeline.arrRef spec5 1)) (hafter : ∀ t, dat.after 1 t = iblk5 V c 1 t)
    (t : Fin cfg5.N) (d) : dat.before 1 t d = iblk5 V c 1 t :=
  (dat.before_in_eq_fetched 1 rfl (fun _ => rfl) (fun _ _ _ => rfl)
    (fun t => by rw [hafter]; unfold Dat.blockOf iblk5; rw [hA]; try rfl) t d).trans
    (by unfold Dat.fetched Dat.blockOf iblk5; rw [hA]; try rfl)

/-! ## What the body reads and writes: each buffer whole -/

abbrev rIn5 : Rect S5000x64 := Rect.unit (s := S5000x64) ![0, 0] S5000x64.size inb_S5000x64_S5000x64_0_0
abbrev rB5 : Rect S1x64 := Rect.unit (s := S1x64) ![0, 0] S1x64.size inb_S1x64_S1x64_0_0
abbrev rOut5 : Rect S5000x64 := Rect.unit (s := S5000x64) ![0, 0] S5000x64.size inb_S5000x64_S5000x64_0_0

/-- The output block after the body, as a function of the two input blocks: its one store, of the whole block. -/
def out5_2 (x0 : Vec F S5000x64 .f32) (x1 : Vec F S1x64 .f32) : Vec F S5000x64 .f32 :=
  View.canon [⟨rOut5, k5_pay1 (View.ld x0 rIn5) (View.ld x1 rB5)⟩]

/-- The one store covers the block. -/
theorem cover5_2 (p0 : Vec F S5000x64 .f32) (y : S5000x64.Idx) :
    ∃ pc ∈ ([⟨rOut5, p0⟩] : List (View.Piece (Elt F) S5000x64 .f32)), y ∈ pc.1.set :=
  View.cover_of_tiled [⟨rOut5, p0⟩] S5000x64.size (by rfl) y

/-! ## The body runs -/

set_option maxHeartbeats 1000000 in
/-- On whole staging buffers holding the blocks `x0`, `x1` (and anything in the output's), the body terminates without
    a fault, the inputs' buffers as they were and the output's at `out5_2 x0 x1`. -/
theorem sound_kernel5 (c : Dev nD) (E : Set ℕ) (i : grid5.Coords)
    (arg1 : Memref sig .tc .vmem S5000x64 .f32) (harg1 : arg1.IsWhole) (arg2 : Memref sig .tc .vmem S1x64 .f32) (harg2 : arg2.IsWhole)
    (arg3 : Memref sig .tc .vmem S5000x64 .f32) (harg3 : arg3.IsWhole)
    (x0 : Vec F S5000x64 .f32) (x1 : Vec F S1x64 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out5_2 x0 x1)) -∗ K ⟨⟩))
      ⊢ wp frame (wpE (defs₀ (F := F)) Variants.none c none) E (cc5__bias_relu_kernel i arg1 harg1 arg2 harg2 arg3 harg3) K := by
  simp only [cc5__bias_relu_kernel_eq_skeleton]; unfold cc5__bias_relu_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover5_2 _)

/-! ## The data of the launch -/

/-- On core `c`: the arrays as the region finds them; after the body at point `t` each input's buffer at its block and the
    output's at the function of the input blocks; nothing owed, full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => out5_2 (iblk5 V c 0 t) (iblk5 V c 1 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) :
    (dat5 V c).after 2 t = out5_2 (iblk5 V c 0 t) (iblk5 V c 1 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d

/-! ## The body at a grid point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t))

/-- The body at any point: the inputs' buffers hold their blocks, so the body's run applies; the rest passes through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).Φ t.succ = (dat5 V c).Φ t.castSucc from rfl,
    show (dat5 V c).owesAt () t.succ = (dat5 V c).owesAt () t.castSucc from rfl,
    after5_0, after5_1, after5_2]
  iintro ⟨HΦ, Ho, ⟨%d0, H0⟩, ⟨%d1, H1⟩, ⟨%d2, H2⟩⟩
  iapply (sound_kernel5 c Set.univ _ _ _ _ _ _ _ (iblk5 V c 0 t) (iblk5 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The launch theorem's obligation for the body, at every point. -/
theorem body_obligation5 (c : Dev nD) : BodyObligation (dat5 (F := F) V c) (defs₀ (F := F)) Variants.none () Set.univ := fun t => by
  rw [bigSep_W5, bigSep_W5]
  exact sound_body5 V c t

end Cert.Kernel.Regs

end
-- ==== Proof.Bits.Region6.lean ====
/-
  Region 6 of the program: a row-tiled linear map.  The grid has 20 points; at point t the body is handed rows
  5000·t … 5000·t + 4999 of its first operand (window 0), the whole weight matrix (window 1) and the whole bias row
  (window 2), and it stores one whole block of the result (window 3): every entry of the block is the row of the
  input block times the column of the weights, plus the bias entry of that column.

  Stated here, for any float instance and at any contents `V` of the buffers when the region is entered: what the body
  leaves in the output block as one function of the three input blocks; that the body, run on whole staging buffers
  holding those blocks, terminates without a fault and leaves exactly that; and the data the launch theorem asks for —
  the arrays as the region finds them, and after the body each input buffer still at its block, the output buffer at the
  function of the input blocks.
-/
import proofs.«163322_j18580028523179_1_alg».proof.Proof.Gen.Kernel.Launch
import proofs.«163322_j18580028523179_1_alg».proof.Proof.Gen.Kernel.Skeleton
import proofs.«163322_j18580028523179_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Regs

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-! ## The blocks -/

/-- Window `w`'s block at grid point `t`, read off its array as the region finds it. -/
def iblk6 (c : Dev nD) (w : Fin cfg6.W) (t : Fin cfg6.N) :
    ((cfg6.win w).xblock (cfg6.grid.coords t)).Idx → Elt F (cfg6.win w).elt :=
  ((cfg6.win w).blk t).view.read (Elt F) (V c (Pipeline.arrRef spec6 w))

/-- The rows' staging buffer holds the point's row block whenever the body is handed it: it is fetched at every point. -/
theorem before6_0_of {c : Dev nD} (dat : Dat τ (Elt F) Unit ℕ (UR sig nD τ) ℕ cfg6 c)
    (hA : dat.A 0 = V c (Pipeline.arrRef spec6 0)) (hafter : ∀ t, dat.after 0 t = iblk6 V c 0 t)
    (t : Fin cfg6.N) (d) : dat.before 0 t d = iblk6 V c 0 t :=
  (dat.before_in_eq_fetched 0 rfl (fun _ => rfl) (fun _ _ _ => rfl)
    (fun t => by rw [hafter]; unfold Dat.blockOf iblk6; rw [hA]; try rfl) t d).trans
    (by unfold Dat.fetched Dat.blockOf iblk6; rw [hA]; try rfl)

/-- The weights' staging buffer holds the whole matrix at every point: fetched once, and the body leaves it in place. -/
theorem before6_1_of {c : Dev nD} (dat : Dat τ (Elt F) Unit ℕ (UR sig nD τ) ℕ cfg6 c)
    (hA : dat.A 1 = V c (Pipeline.arrRef spec6 1)) (hafter : ∀ t, dat.after 1 t = iblk6 V c 1 t)
    (t : Fin cfg6.N) (d) : dat.before 1 t d = iblk6 V c 1 t :=
  (dat.before_in_eq_fetched 1 rfl (fun _ => rfl) (fun _ _ _ => rfl)
    (fun t => by rw [hafter]; unfold Dat.blockOf iblk6; rw [hA]; try rfl) t d).trans
    (by unfold Dat.fetched Dat.blockOf iblk6; rw [hA]; try rfl)

/-- The bias row's staging buffer holds the row at every point, in the same way. -/
theorem before6_2_of {c : Dev nD} (dat : Dat τ (Elt F) Unit ℕ (UR sig nD τ) ℕ cfg6 c)
    (hA : dat.A 2 = V c (Pipeline.arrRef spec6 2)) (hafter : ∀ t, dat.after 2 t = iblk6 V c 2 t)
    (t : Fin cfg6.N) (d) : dat.before 2 t d = iblk6 V c 2 t :=
  (dat.before_in_eq_fetched 2 rfl (fun _ => rfl) (fun _ _ _ => rfl)
    (fun t => by rw [hafter]; unfold Dat.blockOf iblk6; rw [hA]; try rfl) t d).trans
    (by unfold Dat.fetched Dat.blockOf iblk6; rw [hA]; try rfl)

/-! ## What the body reads and writes: each buffer whole -/

abbrev rIn6 : Rect S5000x256 := Rect.unit (s := S5000x256) ![0, 0] S5000x256.size inb_S5000x256_S5000x256_0_0
abbrev rW6 : Rect S256x64 := Rect.unit (s := S256x64) ![0, 0] S256x64.size inb_S256x64_S256x64_0_0
abbrev rB6 : Rect S1x64 := Rect.unit (s := S1x64) ![0, 0] S1x64.size inb_S1x64_S1x64_0_0
abbrev rOut6 : Rect S5000x64 := Rect.unit (s := S5000x64) ![0, 0] S5000x64.size inb_S5000x64_S5000x64_0_0

/-- The output block after the body, as a function of the three input blocks: its one store, of the whole block. -/
def out6_3 (x0 : Vec F S5000x256 .f32) (x1 : Vec F S256x64 .f32) (x2 : Vec F S1x64 .f32) : Vec F S5000x64 .f32 :=
  View.canon [⟨rOut6, k6_pay1 (View.ld x0 rIn6) (View.ld x1 rW6) (View.ld x2 rB6)⟩]

/-- The one store covers the block. -/
theorem cover6_3 (p0 : Vec F S5000x64 .f32) (y : S5000x64.Idx) :
    ∃ pc ∈ ([⟨rOut6, p0⟩] : List (View.Piece (Elt F) S5000x64 .f32)), y ∈ pc.1.set :=
  View.cover_of_tiled [⟨rOut6, p0⟩] S5000x64.size (by rfl) y

/-! ## The body runs -/

set_option maxHeartbeats 1000000 in
/-- On whole staging buffers holding the blocks `x0`, `x1`, `x2` (and anything in the output's), the body terminates
    without a fault, the inputs' buffers as they were and the output's at `out6_3 x0 x1 x2`. -/
theorem sound_kernel6 (c : Dev nD) (E : Set ℕ) (i : grid6.Coords)
    (arg1 : Memref sig .tc .vmem S5000x256 .f32) (harg1 : arg1.IsWhole) (arg2 : Memref sig .tc .vmem S256x64 .f32) (harg2 : arg2.IsWhole)
    (arg3 : Memref sig .tc .vmem S1x64 .f32) (harg3 : arg3.IsWhole) (arg4 : Memref sig .tc .vmem S5000x64 .f32) (harg4 : arg4.IsWhole)
    (x0 : Vec F S5000x256 .f32) (x1 : Vec F S256x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out6_3 x0 x1 x2)) -∗ K ⟨⟩))
      ⊢ wp frame (wpE (defs₀ (F := F)) Variants.none c none) E (cc6__linear_kernel i arg1 harg1 arg2 harg2 arg3 harg3 arg4 harg4) K := by
  simp only [cc6__linear_kernel_eq_skeleton]; unfold cc6__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover6_3 _)

/-! ## The data of the launch -/

/-- On core `c`: the arrays as the region finds them; after the body at point `t` each input's buffer at its block and the
    output's at the function of the input blocks; nothing owed, full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6_3 (iblk6 V c 0 t) (iblk6 V c 1 t) (iblk6 V c 2 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) :
    (dat6 V c).after 3 t = out6_3 (iblk6 V c 0 t) (iblk6 V c 1 t) (iblk6 V c 2 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d

/-! ## The body at a grid point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t))

/-- The body at any point: the inputs' buffers hold their blocks, so the body's run applies; the rest passes through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).Φ t.succ = (dat6 V c).Φ t.castSucc from rfl,
    show (dat6 V c).owesAt () t.succ = (dat6 V c).owesAt () t.castSucc from rfl,
    after6_0, after6_1, after6_2, after6_3]
  iintro ⟨HΦ, Ho, ⟨%d0, H0⟩, ⟨%d1, H1⟩, ⟨%d2, H2⟩, ⟨%d3, H3⟩⟩
  iapply (sound_kernel6 c Set.univ _ _ _ _ _ _ _ _ _ (iblk6 V c 0 t) (iblk6 V c 1 t) (iblk6 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The launch theorem's obligation for the body, at every point. -/
theorem body_obligation6 (c : Dev nD) : BodyObligation (dat6 (F := F) V c) (defs₀ (F := F)) Variants.none () Set.univ := fun t => by
  rw [bigSep_W6, bigSep_W6]
  exact sound_body6 V c t

end Cert.Kernel.Regs

end
-- ==== Proof.Bits.Run.lean ====
/-
  The whole program as a run.  @main is sixteen items: three stretches of host operations, then seven kernel regions
  with a stretch of host operations between consecutive ones.  The contents of the unscoped buffers are followed from
  the launch memory through the items: a host stretch applies its operations; a region leaves every buffer as it found
  it except its output array, which ends at what the grid's write-backs leave.

  Proved here, for any float instance: every weakly fair execution of @main from any memory with zero counters
  terminates, nothing faulting, and every unscoped buffer ends at the last contents of that chain.  No host operation
  and no region writes an argument array, so each argument is read back through the chain to its launch contents:
  that is the frame claim; the result array's last contents are what the value claim reads.
-/
import proofs.«163322_j18580028523179_1_alg».proof.Proof.Bits.Region0
import proofs.«163322_j18580028523179_1_alg».proof.Proof.Bits.Region1
import proofs.«163322_j18580028523179_1_alg».proof.Proof.Bits.Region2
import proofs.«163322_j18580028523179_1_alg».proof.Proof.Bits.Region3
import proofs.«163322_j18580028523179_1_alg».proof.Proof.Bits.Region4
import proofs.«163322_j18580028523179_1_alg».proof.Proof.Bits.Region5
import proofs.«163322_j18580028523179_1_alg».proof.Proof.Bits.Region6
import proofs.«163322_j18580028523179_1_alg».proof.Proof.Gen.Kernel.Regions

set_option maxRecDepth 16384

noncomputable section

namespace Cert.Kernel.Regs

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffer contents at each boundary between items -/

/-- The buffers when region 0 is entered: the launch memory after the three host stretches before it. -/
abbrev Wi0 : Dev nD → Valuation τ sig (Elt F) := fun c => Gen.V3 m c
/-- The same, read at the TensorCore's references. -/
abbrev Ri0 : (c : Dev nD) → (b : Ref sig .tc) → Buf (Elt F) ((c : Thread nD τ).loc b) := fun c b => Wi0 m c b
/-- The buffers when region 0 is left: its arrays at what the write-backs leave (the inputs as entered, the output's blocks
    folded over the grid), every other buffer as entered. -/
def Wo0 (c : Dev nD) : Valuation τ sig (Elt F) :=
  Pipeline.withArrays spec0 c (Wi0 m c) fun w => (dat0 (Ri0 m) c).arrAt w cfg0.N
theorem Wo0_arr (c : Dev nD) (w : Fin cfg0.W) :
    Wo0 m c (Proc.devRef .tc (Pipeline.arrRef spec0 w)) = (dat0 (Ri0 m) c).arrAt w cfg0.N := by
  unfold Wo0; exact Pipeline.withArrays_arr spec0 launch0.win.arr_inj c _ _ w
theorem Wo0_of_ne (c : Dev nD) (b : Ref sig .tc) (hb : ∀ w, Pipeline.arrRef spec0 w ≠ b) :
    Wo0 m c (Proc.devRef .tc b) = Wi0 m c (Proc.devRef .tc b) := by
  unfold Wo0; exact Pipeline.withArrays_of_ne spec0 c _ _ b hb
/-- An input window's array is left as entered. -/
theorem Wo0_in (c : Dev nD) (w : Fin cfg0.W) (hw : (cfg0.win w).isOut = false) :
    Wo0 m c (Proc.devRef .tc (Pipeline.arrRef spec0 w)) = Wi0 m c (Proc.devRef .tc (Pipeline.arrRef spec0 w)) :=
  (Wo0_arr m c w).trans (((dat0 (Ri0 m) c).arrAt_in w hw _).trans (A_eq0 (Ri0 m) c w))
abbrev Ro0 : (c : Dev nD) → (b : Ref sig .tc) → Buf (Elt F) ((c : Thread nD τ).loc b) := fun c b => Wo0 m c b
theorem hF0 (c : Dev nD) (w : Fin cfg0.W) : (dat0 (Ri0 m) c).arrAt w cfg0.N = Ro0 m c (Pipeline.arrRef spec0 w) :=
  (Wo0_arr m c w).symm
theorem hrest0 (c : Dev nD) : ∀ b, b ∉ Finset.univ.image (Pipeline.arrRef spec0) → Ro0 m c b = Ri0 m c b :=
  fun b hb => Wo0_of_ne m c b fun w e => hb (Finset.mem_image.mpr ⟨w, Finset.mem_univ _, e⟩)
/-- The buffers when region 1 is entered: the host stretch between the two regions applied. -/
abbrev Wi1 : Dev nD → Valuation τ sig (Elt F) := fun c => StableHlo.after hostOps1 (Wo0 m c)
/-- The same, read at the TensorCore's references. -/
abbrev Ri1 : (c : Dev nD) → (b : Ref sig .tc) → Buf (Elt F) ((c : Thread nD τ).loc b) := fun c b => Wi1 m c b
/-- The buffers when region 1 is left: its arrays at what the write-backs leave (the inputs as entered, the output's blocks
    folded over the grid), every other buffer as entered. -/
def Wo1 (c : Dev nD) : Valuation τ sig (Elt F) :=
  Pipeline.withArrays spec1 c (Wi1 m c) fun w => (dat1 (Ri1 m) c).arrAt w cfg1.N
theorem Wo1_arr (c : Dev nD) (w : Fin cfg1.W) :
    Wo1 m c (Proc.devRef .tc (Pipeline.arrRef spec1 w)) = (dat1 (Ri1 m) c).arrAt w cfg1.N := by
  unfold Wo1; exact Pipeline.withArrays_arr spec1 launch1.win.arr_inj c _ _ w
theorem Wo1_of_ne (c : Dev nD) (b : Ref sig .tc) (hb : ∀ w, Pipeline.arrRef spec1 w ≠ b) :
    Wo1 m c (Proc.devRef .tc b) = Wi1 m c (Proc.devRef .tc b) := by
  unfold Wo1; exact Pipeline.withArrays_of_ne spec1 c _ _ b hb
/-- An input window's array is left as entered. -/
theorem Wo1_in (c : Dev nD) (w : Fin cfg1.W) (hw : (cfg1.win w).isOut = false) :
    Wo1 m c (Proc.devRef .tc (Pipeline.arrRef spec1 w)) = Wi1 m c (Proc.devRef .tc (Pipeline.arrRef spec1 w)) :=
  (Wo1_arr m c w).trans (((dat1 (Ri1 m) c).arrAt_in w hw _).trans (A_eq1 (Ri1 m) c w))
abbrev Ro1 : (c : Dev nD) → (b : Ref sig .tc) → Buf (Elt F) ((c : Thread nD τ).loc b) := fun c b => Wo1 m c b
theorem hF1 (c : Dev nD) (w : Fin cfg1.W) : (dat1 (Ri1 m) c).arrAt w cfg1.N = Ro1 m c (Pipeline.arrRef spec1 w) :=
  (Wo1_arr m c w).symm
theorem hrest1 (c : Dev nD) : ∀ b, b ∉ Finset.univ.image (Pipeline.arrRef spec1) → Ro1 m c b = Ri1 m c b :=
  fun b hb => Wo1_of_ne m c b fun w e => hb (Finset.mem_image.mpr ⟨w, Finset.mem_univ _, e⟩)
/-- The buffers when region 2 is entered: the host stretch between the two regions applied. -/
abbrev Wi2 : Dev nD → Valuation τ sig (Elt F) := fun c => StableHlo.after hostOps2 (Wo1 m c)
/-- The same, read at the TensorCore's references. -/
abbrev Ri2 : (c : Dev nD) → (b : Ref sig .tc) → Buf (Elt F) ((c : Thread nD τ).loc b) := fun c b => Wi2 m c b
/-- The buffers when region 2 is left: its arrays at what the write-backs leave (the inputs as entered, the output's blocks
    folded over the grid), every other buffer as entered. -/
def Wo2 (c : Dev nD) : Valuation τ sig (Elt F) :=
  Pipeline.withArrays spec2 c (Wi2 m c) fun w => (dat2 (Ri2 m) c).arrAt w cfg2.N
theorem Wo2_arr (c : Dev nD) (w : Fin cfg2.W) :
    Wo2 m c (Proc.devRef .tc (Pipeline.arrRef spec2 w)) = (dat2 (Ri2 m) c).arrAt w cfg2.N := by
  unfold Wo2; exact Pipeline.withArrays_arr spec2 launch2.win.arr_inj c _ _ w
theorem Wo2_of_ne (c : Dev nD) (b : Ref sig .tc) (hb : ∀ w, Pipeline.arrRef spec2 w ≠ b) :
    Wo2 m c (Proc.devRef .tc b) = Wi2 m c (Proc.devRef .tc b) := by
  unfold Wo2; exact Pipeline.withArrays_of_ne spec2 c _ _ b hb
/-- An input window's array is left as entered. -/
theorem Wo2_in (c : Dev nD) (w : Fin cfg2.W) (hw : (cfg2.win w).isOut = false) :
    Wo2 m c (Proc.devRef .tc (Pipeline.arrRef spec2 w)) = Wi2 m c (Proc.devRef .tc (Pipeline.arrRef spec2 w)) :=
  (Wo2_arr m c w).trans (((dat2 (Ri2 m) c).arrAt_in w hw _).trans (A_eq2 (Ri2 m) c w))
abbrev Ro2 : (c : Dev nD) → (b : Ref sig .tc) → Buf (Elt F) ((c : Thread nD τ).loc b) := fun c b => Wo2 m c b
theorem hF2 (c : Dev nD) (w : Fin cfg2.W) : (dat2 (Ri2 m) c).arrAt w cfg2.N = Ro2 m c (Pipeline.arrRef spec2 w) :=
  (Wo2_arr m c w).symm
theorem hrest2 (c : Dev nD) : ∀ b, b ∉ Finset.univ.image (Pipeline.arrRef spec2) → Ro2 m c b = Ri2 m c b :=
  fun b hb => Wo2_of_ne m c b fun w e => hb (Finset.mem_image.mpr ⟨w, Finset.mem_univ _, e⟩)
/-- The buffers when region 3 is entered: the host stretch between the two regions applied. -/
abbrev Wi3 : Dev nD → Valuation τ sig (Elt F) := fun c => StableHlo.after hostOps3 (Wo2 m c)
/-- The same, read at the TensorCore's references. -/
abbrev Ri3 : (c : Dev nD) → (b : Ref sig .tc) → Buf (Elt F) ((c : Thread nD τ).loc b) := fun c b => Wi3 m c b
/-- The buffers when region 3 is left: its arrays at what the write-backs leave (the inputs as entered, the output's blocks
    folded over the grid), every other buffer as entered. -/
def Wo3 (c : Dev nD) : Valuation τ sig (Elt F) :=
  Pipeline.withArrays spec3 c (Wi3 m c) fun w => (dat3 (Ri3 m) c).arrAt w cfg3.N
theorem Wo3_arr (c : Dev nD) (w : Fin cfg3.W) :
    Wo3 m c (Proc.devRef .tc (Pipeline.arrRef spec3 w)) = (dat3 (Ri3 m) c).arrAt w cfg3.N := by
  unfold Wo3; exact Pipeline.withArrays_arr spec3 launch3.win.arr_inj c _ _ w
theorem Wo3_of_ne (c : Dev nD) (b : Ref sig .tc) (hb : ∀ w, Pipeline.arrRef spec3 w ≠ b) :
    Wo3 m c (Proc.devRef .tc b) = Wi3 m c (Proc.devRef .tc b) := by
  unfold Wo3; exact Pipeline.withArrays_of_ne spec3 c _ _ b hb
/-- An input window's array is left as entered. -/
theorem Wo3_in (c : Dev nD) (w : Fin cfg3.W) (hw : (cfg3.win w).isOut = false) :
    Wo3 m c (Proc.devRef .tc (Pipeline.arrRef spec3 w)) = Wi3 m c (Proc.devRef .tc (Pipeline.arrRef spec3 w)) :=
  (Wo3_arr m c w).trans (((dat3 (Ri3 m) c).arrAt_in w hw _).trans (A_eq3 (Ri3 m) c w))
abbrev Ro3 : (c : Dev nD) → (b : Ref sig .tc) → Buf (Elt F) ((c : Thread nD τ).loc b) := fun c b => Wo3 m c b
theorem hF3 (c : Dev nD) (w : Fin cfg3.W) : (dat3 (Ri3 m) c).arrAt w cfg3.N = Ro3 m c (Pipeline.arrRef spec3 w) :=
  (Wo3_arr m c w).symm
theorem hrest3 (c : Dev nD) : ∀ b, b ∉ Finset.univ.image (Pipeline.arrRef spec3) → Ro3 m c b = Ri3 m c b :=
  fun b hb => Wo3_of_ne m c b fun w e => hb (Finset.mem_image.mpr ⟨w, Finset.mem_univ _, e⟩)
/-- The buffers when region 4 is entered: the host stretch between the two regions applied. -/
abbrev Wi4 : Dev nD → Valuation τ sig (Elt F) := fun c => StableHlo.after hostOps4 (Wo3 m c)
/-- The same, read at the TensorCore's references. -/
abbrev Ri4 : (c : Dev nD) → (b : Ref sig .tc) → Buf (Elt F) ((c : Thread nD τ).loc b) := fun c b => Wi4 m c b
/-- The buffers when region 4 is left: its arrays at what the write-backs leave (the inputs as entered, the output's blocks
    folded over the grid), every other buffer as entered. -/
def Wo4 (c : Dev nD) : Valuation τ sig (Elt F) :=
  Pipeline.withArrays spec4 c (Wi4 m c) fun w => (dat4 (Ri4 m) c).arrAt w cfg4.N
theorem Wo4_arr (c : Dev nD) (w : Fin cfg4.W) :
    Wo4 m c (Proc.devRef .tc (Pipeline.arrRef spec4 w)) = (dat4 (Ri4 m) c).arrAt w cfg4.N := by
  unfold Wo4; exact Pipeline.withArrays_arr spec4 launch4.win.arr_inj c _ _ w
theorem Wo4_of_ne (c : Dev nD) (b : Ref sig .tc) (hb : ∀ w, Pipeline.arrRef spec4 w ≠ b) :
    Wo4 m c (Proc.devRef .tc b) = Wi4 m c (Proc.devRef .tc b) := by
  unfold Wo4; exact Pipeline.withArrays_of_ne spec4 c _ _ b hb
/-- An input window's array is left as entered. -/
theorem Wo4_in (c : Dev nD) (w : Fin cfg4.W) (hw : (cfg4.win w).isOut = false) :
    Wo4 m c (Proc.devRef .tc (Pipeline.arrRef spec4 w)) = Wi4 m c (Proc.devRef .tc (Pipeline.arrRef spec4 w)) :=
  (Wo4_arr m c w).trans (((dat4 (Ri4 m) c).arrAt_in w hw _).trans (A_eq4 (Ri4 m) c w))
abbrev Ro4 : (c : Dev nD) → (b : Ref sig .tc) → Buf (Elt F) ((c : Thread nD τ).loc b) := fun c b => Wo4 m c b
theorem hF4 (c : Dev nD) (w : Fin cfg4.W) : (dat4 (Ri4 m) c).arrAt w cfg4.N = Ro4 m c (Pipeline.arrRef spec4 w) :=
  (Wo4_arr m c w).symm
theorem hrest4 (c : Dev nD) : ∀ b, b ∉ Finset.univ.image (Pipeline.arrRef spec4) → Ro4 m c b = Ri4 m c b :=
  fun b hb => Wo4_of_ne m c b fun w e => hb (Finset.mem_image.mpr ⟨w, Finset.mem_univ _, e⟩)
/-- The buffers when region 5 is entered: the host stretch between the two regions applied. -/
abbrev Wi5 : Dev nD → Valuation τ sig (Elt F) := fun c => StableHlo.after hostOps5 (Wo4 m c)
/-- The same, read at the TensorCore's references. -/
abbrev Ri5 : (c : Dev nD) → (b : Ref sig .tc) → Buf (Elt F) ((c : Thread nD τ).loc b) := fun c b => Wi5 m c b
/-- The buffers when region 5 is left: its arrays at what the write-backs leave (the inputs as entered, the output's blocks
    folded over the grid), every other buffer as entered. -/
def Wo5 (c : Dev nD) : Valuation τ sig (Elt F) :=
  Pipeline.withArrays spec5 c (Wi5 m c) fun w => (dat5 (Ri5 m) c).arrAt w cfg5.N
theorem Wo5_arr (c : Dev nD) (w : Fin cfg5.W) :
    Wo5 m c (Proc.devRef .tc (Pipeline.arrRef spec5 w)) = (dat5 (Ri5 m) c).arrAt w cfg5.N := by
  unfold Wo5; exact Pipeline.withArrays_arr spec5 launch5.win.arr_inj c _ _ w
theorem Wo5_of_ne (c : Dev nD) (b : Ref sig .tc) (hb : ∀ w, Pipeline.arrRef spec5 w ≠ b) :
    Wo5 m c (Proc.devRef .tc b) = Wi5 m c (Proc.devRef .tc b) := by
  unfold Wo5; exact Pipeline.withArrays_of_ne spec5 c _ _ b hb
/-- An input window's array is left as entered. -/
theorem Wo5_in (c : Dev nD) (w : Fin cfg5.W) (hw : (cfg5.win w).isOut = false) :
    Wo5 m c (Proc.devRef .tc (Pipeline.arrRef spec5 w)) = Wi5 m c (Proc.devRef .tc (Pipeline.arrRef spec5 w)) :=
  (Wo5_arr m c w).trans (((dat5 (Ri5 m) c).arrAt_in w hw _).trans (A_eq5 (Ri5 m) c w))
abbrev Ro5 : (c : Dev nD) → (b : Ref sig .tc) → Buf (Elt F) ((c : Thread nD τ).loc b) := fun c b => Wo5 m c b
theorem hF5 (c : Dev nD) (w : Fin cfg5.W) : (dat5 (Ri5 m) c).arrAt w cfg5.N = Ro5 m c (Pipeline.arrRef spec5 w) :=
  (Wo5_arr m c w).symm
theorem hrest5 (c : Dev nD) : ∀ b, b ∉ Finset.univ.image (Pipeline.arrRef spec5) → Ro5 m c b = Ri5 m c b :=
  fun b hb => Wo5_of_ne m c b fun w e => hb (Finset.mem_image.mpr ⟨w, Finset.mem_univ _, e⟩)
/-- The buffers when region 6 is entered: the host stretch between the two regions applied. -/
abbrev Wi6 : Dev nD → Valuation τ sig (Elt F) := fun c => StableHlo.after hostOps6 (Wo5 m c)
/-- The same, read at the TensorCore's references. -/
abbrev Ri6 : (c : Dev nD) → (b : Ref sig .tc) → Buf (Elt F) ((c : Thread nD τ).loc b) := fun c b => Wi6 m c b
/-- The buffers when region 6 is left: its arrays at what the write-backs leave (the inputs as entered, the output's blocks
    folded over the grid), every other buffer as entered. -/
def Wo6 (c : Dev nD) : Valuation τ sig (Elt F) :=
  Pipeline.withArrays spec6 c (Wi6 m c) fun w => (dat6 (Ri6 m) c).arrAt w cfg6.N
theorem Wo6_arr (c : Dev nD) (w : Fin cfg6.W) :
    Wo6 m c (Proc.devRef .tc (Pipeline.arrRef spec6 w)) = (dat6 (Ri6 m) c).arrAt w cfg6.N := by
  unfold Wo6; exact Pipeline.withArrays_arr spec6 launch6.win.arr_inj c _ _ w
theorem Wo6_of_ne (c : Dev nD) (b : Ref sig .tc) (hb : ∀ w, Pipeline.arrRef spec6 w ≠ b) :
    Wo6 m c (Proc.devRef .tc b) = Wi6 m c (Proc.devRef .tc b) := by
  unfold Wo6; exact Pipeline.withArrays_of_ne spec6 c _ _ b hb
/-- An input window's array is left as entered. -/
theorem Wo6_in (c : Dev nD) (w : Fin cfg6.W) (hw : (cfg6.win w).isOut = false) :
    Wo6 m c (Proc.devRef .tc (Pipeline.arrRef spec6 w)) = Wi6 m c (Proc.devRef .tc (Pipeline.arrRef spec6 w)) :=
  (Wo6_arr m c w).trans (((dat6 (Ri6 m) c).arrAt_in w hw _).trans (A_eq6 (Ri6 m) c w))
abbrev Ro6 : (c : Dev nD) → (b : Ref sig .tc) → Buf (Elt F) ((c : Thread nD τ).loc b) := fun c b => Wo6 m c b
theorem hF6 (c : Dev nD) (w : Fin cfg6.W) : (dat6 (Ri6 m) c).arrAt w cfg6.N = Ro6 m c (Pipeline.arrRef spec6 w) :=
  (Wo6_arr m c w).symm
theorem hrest6 (c : Dev nD) : ∀ b, b ∉ Finset.univ.image (Pipeline.arrRef spec6) → Ro6 m c b = Ri6 m c b :=
  fun b hb => Wo6_of_ne m c b fun w e => hb (Finset.mem_image.mpr ⟨w, Finset.mem_univ _, e⟩)

/-! ## No item writes an argument -/

theorem Wo6_main_arg0 (c : Dev nD) : Wo6 m c (Proc.devRef .tc main_arg0) = m ((c : Thread nD τ).loc main_arg0) :=
  calc Wo6 m c (Proc.devRef .tc main_arg0)
    _ = Wi6 m c (Proc.devRef .tc main_arg0) := Wo6_of_ne m c main_arg0 (by decide)
    _ = Wo5 m c (Proc.devRef .tc main_arg0) := StableHlo.after_of_writes_sub hostOps6 _ Gen.hostOps6_writes (by decide)
    _ = Wi5 m c (Proc.devRef .tc main_arg0) := Wo5_of_ne m c main_arg0 (by decide)
    _ = Wo4 m c (Proc.devRef .tc main_arg0) := StableHlo.after_of_writes_sub hostOps5 _ Gen.hostOps5_writes (by decide)
    _ = Wi4 m c (Proc.devRef .tc main_arg0) := Wo4_of_ne m c main_arg0 (by decide)
    _ = Wo3 m c (Proc.devRef .tc main_arg0) := StableHlo.after_of_writes_sub hostOps4 _ Gen.hostOps4_writes (by decide)
    _ = Wi3 m c (Proc.devRef .tc main_arg0) := Wo3_of_ne m c main_arg0 (by decide)
    _ = Wo2 m c (Proc.devRef .tc main_arg0) := StableHlo.after_of_writes_sub hostOps3 _ Gen.hostOps3_writes (by decide)
    _ = Wi2 m c (Proc.devRef .tc main_arg0) := Wo2_of_ne m c main_arg0 (by decide)
    _ = Wo1 m c (Proc.devRef .tc main_arg0) := StableHlo.after_of_writes_sub hostOps2 _ Gen.hostOps2_writes (by decide)
    _ = Wi1 m c (Proc.devRef .tc main_arg0) := Wo1_of_ne m c main_arg0 (by decide)
    _ = Wo0 m c (Proc.devRef .tc main_arg0) := StableHlo.after_of_writes_sub hostOps1 _ Gen.hostOps1_writes (by decide)
    _ = Wi0 m c (Proc.devRef .tc main_arg0) := Wo0_in m c 0 rfl
    _ = Gen.V2 m c (Proc.devRef .tc main_arg0) := Gen.V3_of m c main_arg0 (by decide)
    _ = Gen.V1 m c (Proc.devRef .tc main_arg0) := Gen.V2_of m c main_arg0 (by decide)
    _ = Gen.V0 m c (Proc.devRef .tc main_arg0) := Gen.V1_of m c main_arg0 (by decide)
    _ = m ((c : Thread nD τ).loc main_arg0) := rfl

theorem Wo6_main_arg1 (c : Dev nD) : Wo6 m c (Proc.devRef .tc main_arg1) = m ((c : Thread nD τ).loc main_arg1) :=
  calc Wo6 m c (Proc.devRef .tc main_arg1)
    _ = Wi6 m c (Proc.devRef .tc main_arg1) := Wo6_of_ne m c main_arg1 (by decide)
    _ = Wo5 m c (Proc.devRef .tc main_arg1) := StableHlo.after_of_writes_sub hostOps6 _ Gen.hostOps6_writes (by decide)
    _ = Wi5 m c (Proc.devRef .tc main_arg1) := Wo5_of_ne m c main_arg1 (by decide)
    _ = Wo4 m c (Proc.devRef .tc main_arg1) := StableHlo.after_of_writes_sub hostOps5 _ Gen.hostOps5_writes (by decide)
    _ = Wi4 m c (Proc.devRef .tc main_arg1) := Wo4_of_ne m c main_arg1 (by decide)
    _ = Wo3 m c (Proc.devRef .tc main_arg1) := StableHlo.after_of_writes_sub hostOps4 _ Gen.hostOps4_writes (by decide)
    _ = Wi3 m c (Proc.devRef .tc main_arg1) := Wo3_of_ne m c main_arg1 (by decide)
    _ = Wo2 m c (Proc.devRef .tc main_arg1) := StableHlo.after_of_writes_sub hostOps3 _ Gen.hostOps3_writes (by decide)
    _ = Wi2 m c (Proc.devRef .tc main_arg1) := Wo2_of_ne m c main_arg1 (by decide)
    _ = Wo1 m c (Proc.devRef .tc main_arg1) := StableHlo.after_of_writes_sub hostOps2 _ Gen.hostOps2_writes (by decide)
    _ = Wi1 m c (Proc.devRef .tc main_arg1) := Wo1_of_ne m c main_arg1 (by decide)
    _ = Wo0 m c (Proc.devRef .tc main_arg1) := StableHlo.after_of_writes_sub hostOps1 _ Gen.hostOps1_writes (by decide)
    _ = Wi0 m c (Proc.devRef .tc main_arg1) := Wo0_of_ne m c main_arg1 (by decide)
    _ = Gen.V2 m c (Proc.devRef .tc main_arg1) := Gen.V3_of m c main_arg1 (by decide)
    _ = Gen.V1 m c (Proc.devRef .tc main_arg1) := Gen.V2_of m c main_arg1 (by decide)
    _ = Gen.V0 m c (Proc.devRef .tc main_arg1) := Gen.V1_of m c main_arg1 (by decide)
    _ = m ((c : Thread nD τ).loc main_arg1) := rfl

theorem Wo6_main_arg2 (c : Dev nD) : Wo6 m c (Proc.devRef .tc main_arg2) = m ((c : Thread nD τ).loc main_arg2) :=
  calc Wo6 m c (Proc.devRef .tc main_arg2)
    _ = Wi6 m c (Proc.devRef .tc main_arg2) := Wo6_of_ne m c main_arg2 (by decide)
    _ = Wo5 m c (Proc.devRef .tc main_arg2) := StableHlo.after_of_writes_sub hostOps6 _ Gen.hostOps6_writes (by decide)
    _ = Wi5 m c (Proc.devRef .tc main_arg2) := Wo5_of_ne m c main_arg2 (by decide)
    _ = Wo4 m c (Proc.devRef .tc main_arg2) := StableHlo.after_of_writes_sub hostOps5 _ Gen.hostOps5_writes (by decide)
    _ = Wi4 m c (Proc.devRef .tc main_arg2) := Wo4_of_ne m c main_arg2 (by decide)
    _ = Wo3 m c (Proc.devRef .tc main_arg2) := StableHlo.after_of_writes_sub hostOps4 _ Gen.hostOps4_writes (by decide)
    _ = Wi3 m c (Proc.devRef .tc main_arg2) := Wo3_of_ne m c main_arg2 (by decide)
    _ = Wo2 m c (Proc.devRef .tc main_arg2) := StableHlo.after_of_writes_sub hostOps3 _ Gen.hostOps3_writes (by decide)
    _ = Wi2 m c (Proc.devRef .tc main_arg2) := Wo2_of_ne m c main_arg2 (by decide)
    _ = Wo1 m c (Proc.devRef .tc main_arg2) := StableHlo.after_of_writes_sub hostOps2 _ Gen.hostOps2_writes (by decide)
    _ = Wi1 m c (Proc.devRef .tc main_arg2) := Wo1_of_ne m c main_arg2 (by decide)
    _ = Wo0 m c (Proc.devRef .tc main_arg2) := StableHlo.after_of_writes_sub hostOps1 _ Gen.hostOps1_writes (by decide)
    _ = Wi0 m c (Proc.devRef .tc main_arg2) := Wo0_of_ne m c main_arg2 (by decide)
    _ = Gen.V2 m c (Proc.devRef .tc main_arg2) := Gen.V3_of m c main_arg2 (by decide)
    _ = Gen.V1 m c (Proc.devRef .tc main_arg2) := Gen.V2_of m c main_arg2 (by decide)
    _ = Gen.V0 m c (Proc.devRef .tc main_arg2) := Gen.V1_of m c main_arg2 (by decide)
    _ = m ((c : Thread nD τ).loc main_arg2) := rfl

theorem Wo6_main_arg3 (c : Dev nD) : Wo6 m c (Proc.devRef .tc main_arg3) = m ((c : Thread nD τ).loc main_arg3) :=
  calc Wo6 m c (Proc.devRef .tc main_arg3)
    _ = Wi6 m c (Proc.devRef .tc main_arg3) := Wo6_of_ne m c main_arg3 (by decide)
    _ = Wo5 m c (Proc.devRef .tc main_arg3) := StableHlo.after_of_writes_sub hostOps6 _ Gen.hostOps6_writes (by decide)
    _ = Wi5 m c (Proc.devRef .tc main_arg3) := Wo5_of_ne m c main_arg3 (by decide)
    _ = Wo4 m c (Proc.devRef .tc main_arg3) := StableHlo.after_of_writes_sub hostOps5 _ Gen.hostOps5_writes (by decide)
    _ = Wi4 m c (Proc.devRef .tc main_arg3) := Wo4_of_ne m c main_arg3 (by decide)
    _ = Wo3 m c (Proc.devRef .tc main_arg3) := StableHlo.after_of_writes_sub hostOps4 _ Gen.hostOps4_writes (by decide)
    _ = Wi3 m c (Proc.devRef .tc main_arg3) := Wo3_of_ne m c main_arg3 (by decide)
    _ = Wo2 m c (Proc.devRef .tc main_arg3) := StableHlo.after_of_writes_sub hostOps3 _ Gen.hostOps3_writes (by decide)
    _ = Wi2 m c (Proc.devRef .tc main_arg3) := Wo2_of_ne m c main_arg3 (by decide)
    _ = Wo1 m c (Proc.devRef .tc main_arg3) := StableHlo.after_of_writes_sub hostOps2 _ Gen.hostOps2_writes (by decide)
    _ = Wi1 m c (Proc.devRef .tc main_arg3) := Wo1_of_ne m c main_arg3 (by decide)
    _ = Wo0 m c (Proc.devRef .tc main_arg3) := StableHlo.after_of_writes_sub hostOps1 _ Gen.hostOps1_writes (by decide)
    _ = Wi0 m c (Proc.devRef .tc main_arg3) := Wo0_in m c 1 rfl
    _ = Gen.V2 m c (Proc.devRef .tc main_arg3) := Gen.V3_of m c main_arg3 (by decide)
    _ = Gen.V1 m c (Proc.devRef .tc main_arg3) := Gen.V2_of m c main_arg3 (by decide)
    _ = Gen.V0 m c (Proc.devRef .tc main_arg3) := Gen.V1_of m c main_arg3 (by decide)
    _ = m ((c : Thread nD τ).loc main_arg3) := rfl

theorem Wo6_main_arg4 (c : Dev nD) : Wo6 m c (Proc.devRef .tc main_arg4) = m ((c : Thread nD τ).loc main_arg4) :=
  calc Wo6 m c (Proc.devRef .tc main_arg4)
    _ = Wi6 m c (Proc.devRef .tc main_arg4) := Wo6_of_ne m c main_arg4 (by decide)
    _ = Wo5 m c (Proc.devRef .tc main_arg4) := StableHlo.after_of_writes_sub hostOps6 _ Gen.hostOps6_writes (by decide)
    _ = Wi5 m c (Proc.devRef .tc main_arg4) := Wo5_of_ne m c main_arg4 (by decide)
    _ = Wo4 m c (Proc.devRef .tc main_arg4) := StableHlo.after_of_writes_sub hostOps5 _ Gen.hostOps5_writes (by decide)
    _ = Wi4 m c (Proc.devRef .tc main_arg4) := Wo4_of_ne m c main_arg4 (by decide)
    _ = Wo3 m c (Proc.devRef .tc main_arg4) := StableHlo.after_of_writes_sub hostOps4 _ Gen.hostOps4_writes (by decide)
    _ = Wi3 m c (Proc.devRef .tc main_arg4) := Wo3_of_ne m c main_arg4 (by decide)
    _ = Wo2 m c (Proc.devRef .tc main_arg4) := StableHlo.after_of_writes_sub hostOps3 _ Gen.hostOps3_writes (by decide)
    _ = Wi2 m c (Proc.devRef .tc main_arg4) := Wo2_of_ne m c main_arg4 (by decide)
    _ = Wo1 m c (Proc.devRef .tc main_arg4) := StableHlo.after_of_writes_sub hostOps2 _ Gen.hostOps2_writes (by decide)
    _ = Wi1 m c (Proc.devRef .tc main_arg4) := Wo1_of_ne m c main_arg4 (by decide)
    _ = Wo0 m c (Proc.devRef .tc main_arg4) := StableHlo.after_of_writes_sub hostOps1 _ Gen.hostOps1_writes (by decide)
    _ = Wi0 m c (Proc.devRef .tc main_arg4) := Wo0_of_ne m c main_arg4 (by decide)
    _ = Gen.V2 m c (Proc.devRef .tc main_arg4) := Gen.V3_of m c main_arg4 (by decide)
    _ = Gen.V1 m c (Proc.devRef .tc main_arg4) := Gen.V2_of m c main_arg4 (by decide)
    _ = Gen.V0 m c (Proc.devRef .tc main_arg4) := Gen.V1_of m c main_arg4 (by decide)
    _ = m ((c : Thread nD τ).loc main_arg4) := rfl

theorem Wo6_main_arg5 (c : Dev nD) : Wo6 m c (Proc.devRef .tc main_arg5) = m ((c : Thread nD τ).loc main_arg5) :=
  calc Wo6 m c (Proc.devRef .tc main_arg5)
    _ = Wi6 m c (Proc.devRef .tc main_arg5) := Wo6_of_ne m c main_arg5 (by decide)
    _ = Wo5 m c (Proc.devRef .tc main_arg5) := StableHlo.after_of_writes_sub hostOps6 _ Gen.hostOps6_writes (by decide)
    _ = Wi5 m c (Proc.devRef .tc main_arg5) := Wo5_of_ne m c main_arg5 (by decide)
    _ = Wo4 m c (Proc.devRef .tc main_arg5) := StableHlo.after_of_writes_sub hostOps5 _ Gen.hostOps5_writes (by decide)
    _ = Wi4 m c (Proc.devRef .tc main_arg5) := Wo4_of_ne m c main_arg5 (by decide)
    _ = Wo3 m c (Proc.devRef .tc main_arg5) := StableHlo.after_of_writes_sub hostOps4 _ Gen.hostOps4_writes (by decide)
    _ = Wi3 m c (Proc.devRef .tc main_arg5) := Wo3_of_ne m c main_arg5 (by decide)
    _ = Wo2 m c (Proc.devRef .tc main_arg5) := StableHlo.after_of_writes_sub hostOps3 _ Gen.hostOps3_writes (by decide)
    _ = Wi2 m c (Proc.devRef .tc main_arg5) := Wo2_in m c 1 rfl
    _ = Wo1 m c (Proc.devRef .tc main_arg5) := StableHlo.after_of_writes_sub hostOps2 _ Gen.hostOps2_writes (by decide)
    _ = Wi1 m c (Proc.devRef .tc main_arg5) := Wo1_of_ne m c main_arg5 (by decide)
    _ = Wo0 m c (Proc.devRef .tc main_arg5) := StableHlo.after_of_writes_sub hostOps1 _ Gen.hostOps1_writes (by decide)
    _ = Wi0 m c (Proc.devRef .tc main_arg5) := Wo0_of_ne m c main_arg5 (by decide)
    _ = Gen.V2 m c (Proc.devRef .tc main_arg5) := Gen.V3_of m c main_arg5 (by decide)
    _ = Gen.V1 m c (Proc.devRef .tc main_arg5) := Gen.V2_of m c main_arg5 (by decide)
    _ = Gen.V0 m c (Proc.devRef .tc main_arg5) := Gen.V1_of m c main_arg5 (by decide)
    _ = m ((c : Thread nD τ).loc main_arg5) := rfl

theorem Wo6_main_arg6 (c : Dev nD) : Wo6 m c (Proc.devRef .tc main_arg6) = m ((c : Thread nD τ).loc main_arg6) :=
  calc Wo6 m c (Proc.devRef .tc main_arg6)
    _ = Wi6 m c (Proc.devRef .tc main_arg6) := Wo6_of_ne m c main_arg6 (by decide)
    _ = Wo5 m c (Proc.devRef .tc main_arg6) := StableHlo.after_of_writes_sub hostOps6 _ Gen.hostOps6_writes (by decide)
    _ = Wi5 m c (Proc.devRef .tc main_arg6) := Wo5_of_ne m c main_arg6 (by decide)
    _ = Wo4 m c (Proc.devRef .tc main_arg6) := StableHlo.after_of_writes_sub hostOps5 _ Gen.hostOps5_writes (by decide)
    _ = Wi4 m c (Proc.devRef .tc main_arg6) := Wo4_of_ne m c main_arg6 (by decide)
    _ = Wo3 m c (Proc.devRef .tc main_arg6) := StableHlo.after_of_writes_sub hostOps4 _ Gen.hostOps4_writes (by decide)
    _ = Wi3 m c (Proc.devRef .tc main_arg6) := Wo3_of_ne m c main_arg6 (by decide)
    _ = Wo2 m c (Proc.devRef .tc main_arg6) := StableHlo.after_of_writes_sub hostOps3 _ Gen.hostOps3_writes (by decide)
    _ = Wi2 m c (Proc.devRef .tc main_arg6) := Wo2_of_ne m c main_arg6 (by decide)
    _ = Wo1 m c (Proc.devRef .tc main_arg6) := StableHlo.after_of_writes_sub hostOps2 _ Gen.hostOps2_writes (by decide)
    _ = Wi1 m c (Proc.devRef .tc main_arg6) := Wo1_of_ne m c main_arg6 (by decide)
    _ = Wo0 m c (Proc.devRef .tc main_arg6) := StableHlo.after_of_writes_sub hostOps1 _ Gen.hostOps1_writes (by decide)
    _ = Wi0 m c (Proc.devRef .tc main_arg6) := Wo0_of_ne m c main_arg6 (by decide)
    _ = Gen.V2 m c (Proc.devRef .tc main_arg6) := Gen.V3_of m c main_arg6 (by decide)
    _ = Gen.V1 m c (Proc.devRef .tc main_arg6) := Gen.V2_of m c main_arg6 (by decide)
    _ = Gen.V0 m c (Proc.devRef .tc main_arg6) := Gen.V1_of m c main_arg6 (by decide)
    _ = m ((c : Thread nD τ).loc main_arg6) := rfl

theorem Wo6_main_arg7 (c : Dev nD) : Wo6 m c (Proc.devRef .tc main_arg7) = m ((c : Thread nD τ).loc main_arg7) :=
  calc Wo6 m c (Proc.devRef .tc main_arg7)
    _ = Wi6 m c (Proc.devRef .tc main_arg7) := Wo6_of_ne m c main_arg7 (by decide)
    _ = Wo5 m c (Proc.devRef .tc main_arg7) := StableHlo.after_of_writes_sub hostOps6 _ Gen.hostOps6_writes (by decide)
    _ = Wi5 m c (Proc.devRef .tc main_arg7) := Wo5_of_ne m c main_arg7 (by decide)
    _ = Wo4 m c (Proc.devRef .tc main_arg7) := StableHlo.after_of_writes_sub hostOps5 _ Gen.hostOps5_writes (by decide)
    _ = Wi4 m c (Proc.devRef .tc main_arg7) := Wo4_in m c 1 rfl
    _ = Wo3 m c (Proc.devRef .tc main_arg7) := StableHlo.after_of_writes_sub hostOps4 _ Gen.hostOps4_writes (by decide)
    _ = Wi3 m c (Proc.devRef .tc main_arg7) := Wo3_of_ne m c main_arg7 (by decide)
    _ = Wo2 m c (Proc.devRef .tc main_arg7) := StableHlo.after_of_writes_sub hostOps3 _ Gen.hostOps3_writes (by decide)
    _ = Wi2 m c (Proc.devRef .tc main_arg7) := Wo2_of_ne m c main_arg7 (by decide)
    _ = Wo1 m c (Proc.devRef .tc main_arg7) := StableHlo.after_of_writes_sub hostOps2 _ Gen.hostOps2_writes (by decide)
    _ = Wi1 m c (Proc.devRef .tc main_arg7) := Wo1_of_ne m c main_arg7 (by decide)
    _ = Wo0 m c (Proc.devRef .tc main_arg7) := StableHlo.after_of_writes_sub hostOps1 _ Gen.hostOps1_writes (by decide)
    _ = Wi0 m c (Proc.devRef .tc main_arg7) := Wo0_of_ne m c main_arg7 (by decide)
    _ = Gen.V2 m c (Proc.devRef .tc main_arg7) := Gen.V3_of m c main_arg7 (by decide)
    _ = Gen.V1 m c (Proc.devRef .tc main_arg7) := Gen.V2_of m c main_arg7 (by decide)
    _ = Gen.V0 m c (Proc.devRef .tc main_arg7) := Gen.V1_of m c main_arg7 (by decide)
    _ = m ((c : Thread nD τ).loc main_arg7) := rfl

theorem Wo6_main_arg8 (c : Dev nD) : Wo6 m c (Proc.devRef .tc main_arg8) = m ((c : Thread nD τ).loc main_arg8) :=
  calc Wo6 m c (Proc.devRef .tc main_arg8)
    _ = Wi6 m c (Proc.devRef .tc main_arg8) := Wo6_of_ne m c main_arg8 (by decide)
    _ = Wo5 m c (Proc.devRef .tc main_arg8) := StableHlo.after_of_writes_sub hostOps6 _ Gen.hostOps6_writes (by decide)
    _ = Wi5 m c (Proc.devRef .tc main_arg8) := Wo5_of_ne m c main_arg8 (by decide)
    _ = Wo4 m c (Proc.devRef .tc main_arg8) := StableHlo.after_of_writes_sub hostOps5 _ Gen.hostOps5_writes (by decide)
    _ = Wi4 m c (Proc.devRef .tc main_arg8) := Wo4_of_ne m c main_arg8 (by decide)
    _ = Wo3 m c (Proc.devRef .tc main_arg8) := StableHlo.after_of_writes_sub hostOps4 _ Gen.hostOps4_writes (by decide)
    _ = Wi3 m c (Proc.devRef .tc main_arg8) := Wo3_of_ne m c main_arg8 (by decide)
    _ = Wo2 m c (Proc.devRef .tc main_arg8) := StableHlo.after_of_writes_sub hostOps3 _ Gen.hostOps3_writes (by decide)
    _ = Wi2 m c (Proc.devRef .tc main_arg8) := Wo2_of_ne m c main_arg8 (by decide)
    _ = Wo1 m c (Proc.devRef .tc main_arg8) := StableHlo.after_of_writes_sub hostOps2 _ Gen.hostOps2_writes (by decide)
    _ = Wi1 m c (Proc.devRef .tc main_arg8) := Wo1_of_ne m c main_arg8 (by decide)
    _ = Wo0 m c (Proc.devRef .tc main_arg8) := StableHlo.after_of_writes_sub hostOps1 _ Gen.hostOps1_writes (by decide)
    _ = Wi0 m c (Proc.devRef .tc main_arg8) := Wo0_of_ne m c main_arg8 (by decide)
    _ = Gen.V2 m c (Proc.devRef .tc main_arg8) := Gen.V3_of m c main_arg8 (by decide)
    _ = Gen.V1 m c (Proc.devRef .tc main_arg8) := Gen.V2_of m c main_arg8 (by decide)
    _ = Gen.V0 m c (Proc.devRef .tc main_arg8) := Gen.V1_of m c main_arg8 (by decide)
    _ = m ((c : Thread nD τ).loc main_arg8) := rfl

theorem Wo6_main_arg9 (c : Dev nD) : Wo6 m c (Proc.devRef .tc main_arg9) = m ((c : Thread nD τ).loc main_arg9) :=
  calc Wo6 m c (Proc.devRef .tc main_arg9)
    _ = Wi6 m c (Proc.devRef .tc main_arg9) := Wo6_in m c 1 rfl
    _ = Wo5 m c (Proc.devRef .tc main_arg9) := StableHlo.after_of_writes_sub hostOps6 _ Gen.hostOps6_writes (by decide)
    _ = Wi5 m c (Proc.devRef .tc main_arg9) := Wo5_of_ne m c main_arg9 (by decide)
    _ = Wo4 m c (Proc.devRef .tc main_arg9) := StableHlo.after_of_writes_sub hostOps5 _ Gen.hostOps5_writes (by decide)
    _ = Wi4 m c (Proc.devRef .tc main_arg9) := Wo4_of_ne m c main_arg9 (by decide)
    _ = Wo3 m c (Proc.devRef .tc main_arg9) := StableHlo.after_of_writes_sub hostOps4 _ Gen.hostOps4_writes (by decide)
    _ = Wi3 m c (Proc.devRef .tc main_arg9) := Wo3_of_ne m c main_arg9 (by decide)
    _ = Wo2 m c (Proc.devRef .tc main_arg9) := StableHlo.after_of_writes_sub hostOps3 _ Gen.hostOps3_writes (by decide)
    _ = Wi2 m c (Proc.devRef .tc main_arg9) := Wo2_of_ne m c main_arg9 (by decide)
    _ = Wo1 m c (Proc.devRef .tc main_arg9) := StableHlo.after_of_writes_sub hostOps2 _ Gen.hostOps2_writes (by decide)
    _ = Wi1 m c (Proc.devRef .tc main_arg9) := Wo1_of_ne m c main_arg9 (by decide)
    _ = Wo0 m c (Proc.devRef .tc main_arg9) := StableHlo.after_of_writes_sub hostOps1 _ Gen.hostOps1_writes (by decide)
    _ = Wi0 m c (Proc.devRef .tc main_arg9) := Wo0_of_ne m c main_arg9 (by decide)
    _ = Gen.V2 m c (Proc.devRef .tc main_arg9) := Gen.V3_of m c main_arg9 (by decide)
    _ = Gen.V1 m c (Proc.devRef .tc main_arg9) := Gen.V2_of m c main_arg9 (by decide)
    _ = Gen.V0 m c (Proc.devRef .tc main_arg9) := Gen.V1_of m c main_arg9 (by decide)
    _ = m ((c : Thread nD τ).loc main_arg9) := rfl

theorem Wo6_main_arg10 (c : Dev nD) : Wo6 m c (Proc.devRef .tc main_arg10) = m ((c : Thread nD τ).loc main_arg10) :=
  calc Wo6 m c (Proc.devRef .tc main_arg10)
    _ = Wi6 m c (Proc.devRef .tc main_arg10) := Wo6_of_ne m c main_arg10 (by decide)
    _ = Wo5 m c (Proc.devRef .tc main_arg10) := StableHlo.after_of_writes_sub hostOps6 _ Gen.hostOps6_writes (by decide)
    _ = Wi5 m c (Proc.devRef .tc main_arg10) := Wo5_of_ne m c main_arg10 (by decide)
    _ = Wo4 m c (Proc.devRef .tc main_arg10) := StableHlo.after_of_writes_sub hostOps5 _ Gen.hostOps5_writes (by decide)
    _ = Wi4 m c (Proc.devRef .tc main_arg10) := Wo4_of_ne m c main_arg10 (by decide)
    _ = Wo3 m c (Proc.devRef .tc main_arg10) := StableHlo.after_of_writes_sub hostOps4 _ Gen.hostOps4_writes (by decide)
    _ = Wi3 m c (Proc.devRef .tc main_arg10) := Wo3_of_ne m c main_arg10 (by decide)
    _ = Wo2 m c (Proc.devRef .tc main_arg10) := StableHlo.after_of_writes_sub hostOps3 _ Gen.hostOps3_writes (by decide)
    _ = Wi2 m c (Proc.devRef .tc main_arg10) := Wo2_of_ne m c main_arg10 (by decide)
    _ = Wo1 m c (Proc.devRef .tc main_arg10) := StableHlo.after_of_writes_sub hostOps2 _ Gen.hostOps2_writes (by decide)
    _ = Wi1 m c (Proc.devRef .tc main_arg10) := Wo1_of_ne m c main_arg10 (by decide)
    _ = Wo0 m c (Proc.devRef .tc main_arg10) := StableHlo.after_of_writes_sub hostOps1 _ Gen.hostOps1_writes (by decide)
    _ = Wi0 m c (Proc.devRef .tc main_arg10) := Wo0_of_ne m c main_arg10 (by decide)
    _ = Gen.V2 m c (Proc.devRef .tc main_arg10) := Gen.V3_of m c main_arg10 (by decide)
    _ = Gen.V1 m c (Proc.devRef .tc main_arg10) := Gen.V2_of m c main_arg10 (by decide)
    _ = Gen.V0 m c (Proc.devRef .tc main_arg10) := Gen.V1_of m c main_arg10 (by decide)
    _ = m ((c : Thread nD τ).loc main_arg10) := rfl

/-! ## The proof data of all seven regions, and the thread state -/

/-- No region has a prefetched table. -/
abbrev admR : (p : Fin 7) → (pcfgs (F := F) p).Adm := fun p => (cfgs p).toPCfg_adm
/-- Each region's data at its own entry contents. -/
def pdats : (p : Fin 7) → (c : Dev nD) → Dat τ (Elt F) Unit ℕ (UR sig nD τ) ℕ (Pipeline.pin (pcfgs (F := F)) admR p) c
  | ⟨0, _⟩ => fun c => dat0 (Ri0 m) c
  | ⟨1, _⟩ => fun c => dat1 (Ri1 m) c
  | ⟨2, _⟩ => fun c => dat2 (Ri2 m) c
  | ⟨3, _⟩ => fun c => dat3 (Ri3 m) c
  | ⟨4, _⟩ => fun c => dat4 (Ri4 m) c
  | ⟨5, _⟩ => fun c => dat5 (Ri5 m) c
  | ⟨6, _⟩ => fun c => dat6 (Ri6 m) c
abbrev 𝒱₀ : Variants := Variants.none
/-- No core owes another anything. -/
abbrev L : GSem nD τ sig → Finset Unit := fun _ => ∅
abbrev lv : GSem nD τ sig → Unit → ℕ := fun _ _ => 0
/-- What rides beside the buffers through every item: the core's generator register at some state, and the core owing nothing. -/
abbrev Rest (c : Dev nD) : sProp 𝕄 := iprop((∃ r, prngReg c r) ∗ ∃ W, owes (c : Thread nD τ) (0 : CellTallies nD τ sig Unit) W)
/-- A host stretch as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rest
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last contents, the generator register at some state. -/
abbrev Tₙ (c : Dev nD) : sProp 𝕄 := iprop(StableHlo.held (c : Thread nD τ) (Pipeline.ucRefs τ sig) (Wo6 m c) ∗ ∃ r, prngReg c r)

/-! ## The regions as segments -/

set_option backward.isDefEq.respectTransparency.types false in
/-- Region 0 over the thread state: entered with every unscoped buffer at `Wi0`, left with them at `Wo0`.  Its arrays
    are split out of the unscoped buffers at entry and put back at the exit contents; the generator register goes into the
    pipeline's invariant and comes out; nothing is owed; the kernel has no semaphore of its own. -/
def reg0 : Pipeline.RegionSeg (pcfgs (F := F)) admR (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Ri0 m) c).loose
  hwaits := Pipeline.hwaits_of_owed_zero _ _ _ _ L lv 0 fun _ _ => rfl
  pre c := iprop(StableHlo.held (c : Thread nD τ) (Pipeline.ucRefs τ sig) (Wi0 m c) ∗ Rest c)
  post c := iprop(StableHlo.held (c : Thread nD τ) (Pipeline.ucRefs τ sig) (Wo0 m c) ∗ Rest c)
  X c := iprop(∃ r, prngReg c r)
  Y c := iprop(∃ r, prngReg c r)
  Z c := Pipeline.unscopedRest (Ix := Unit) (Name := ℕ) (U := UR sig nD τ) (Lvl := ℕ) spec0 c (Ri0 m c)
  hentry c := by
    rw [Pipeline.ownSems0_none]
    have hsplit := Pipeline.arrays_of_unscopedBufs (p := 0) (pcfgs (F := F)) admR (pdats m) launch0.win launch0.arr_whole c
      ((pdats m 0 c).share_full fun _ => rfl) (Ri0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admR (Ix := Unit) (Name := ℕ) (U := UR sig nD τ) (Lvl := ℕ)
      launch0.win launch0.arr_whole c (pdats m) ((pdats m 0 c).share_full fun _ => rfl)
      (Ri0 m c) (Ro0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `Wi1`, left with them at `Wo1`.  Its arrays
    are split out of the unscoped buffers at entry and put back at the exit contents; the generator register goes into the
    pipeline's invariant and comes out; nothing is owed; the kernel has no semaphore of its own. -/
def reg1 : Pipeline.RegionSeg (pcfgs (F := F)) admR (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Ri1 m) c).loose
  hwaits := Pipeline.hwaits_of_owed_zero _ _ _ _ L lv 1 fun _ _ => rfl
  pre c := iprop(StableHlo.held (c : Thread nD τ) (Pipeline.ucRefs τ sig) (Wi1 m c) ∗ Rest c)
  post c := iprop(StableHlo.held (c : Thread nD τ) (Pipeline.ucRefs τ sig) (Wo1 m c) ∗ Rest c)
  X c := iprop(∃ r, prngReg c r)
  Y c := iprop(∃ r, prngReg c r)
  Z c := Pipeline.unscopedRest (Ix := Unit) (Name := ℕ) (U := UR sig nD τ) (Lvl := ℕ) spec1 c (Ri1 m c)
  hentry c := by
    rw [Pipeline.ownSems0_none]
    have hsplit := Pipeline.arrays_of_unscopedBufs (p := 1) (pcfgs (F := F)) admR (pdats m) launch1.win launch1.arr_whole c
      ((pdats m 1 c).share_full fun _ => rfl) (Ri1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admR (Ix := Unit) (Name := ℕ) (U := UR sig nD τ) (Lvl := ℕ)
      launch1.win launch1.arr_whole c (pdats m) ((pdats m 1 c).share_full fun _ => rfl)
      (Ri1 m c) (Ro1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at `Wi2`, left with them at `Wo2`.  Its arrays
    are split out of the unscoped buffers at entry and put back at the exit contents; the generator register goes into the
    pipeline's invariant and comes out; nothing is owed; the kernel has no semaphore of its own. -/
def reg2 : Pipeline.RegionSeg (pcfgs (F := F)) admR (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Ri2 m) c).loose
  hwaits := Pipeline.hwaits_of_owed_zero _ _ _ _ L lv 2 fun _ _ => rfl
  pre c := iprop(StableHlo.held (c : Thread nD τ) (Pipeline.ucRefs τ sig) (Wi2 m c) ∗ Rest c)
  post c := iprop(StableHlo.held (c : Thread nD τ) (Pipeline.ucRefs τ sig) (Wo2 m c) ∗ Rest c)
  X c := iprop(∃ r, prngReg c r)
  Y c := iprop(∃ r, prngReg c r)
  Z c := Pipeline.unscopedRest (Ix := Unit) (Name := ℕ) (U := UR sig nD τ) (Lvl := ℕ) spec2 c (Ri2 m c)
  hentry c := by
    rw [Pipeline.ownSems0_none]
    have hsplit := Pipeline.arrays_of_unscopedBufs (p := 2) (pcfgs (F := F)) admR (pdats m) launch2.win launch2.arr_whole c
      ((pdats m 2 c).share_full fun _ => rfl) (Ri2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admR (Ix := Unit) (Name := ℕ) (U := UR sig nD τ) (Lvl := ℕ)
      launch2.win launch2.arr_whole c (pdats m) ((pdats m 2 c).share_full fun _ => rfl)
      (Ri2 m c) (Ro2 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered with every unscoped buffer at `Wi3`, left with them at `Wo3`.  Its arrays
    are split out of the unscoped buffers at entry and put back at the exit contents; the generator register goes into the
    pipeline's invariant and comes out; nothing is owed; the kernel has no semaphore of its own. -/
def reg3 : Pipeline.RegionSeg (pcfgs (F := F)) admR (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (Ri3 m) c).loose
  hwaits := Pipeline.hwaits_of_owed_zero _ _ _ _ L lv 3 fun _ _ => rfl
  pre c := iprop(StableHlo.held (c : Thread nD τ) (Pipeline.ucRefs τ sig) (Wi3 m c) ∗ Rest c)
  post c := iprop(StableHlo.held (c : Thread nD τ) (Pipeline.ucRefs τ sig) (Wo3 m c) ∗ Rest c)
  X c := iprop(∃ r, prngReg c r)
  Y c := iprop(∃ r, prngReg c r)
  Z c := Pipeline.unscopedRest (Ix := Unit) (Name := ℕ) (U := UR sig nD τ) (Lvl := ℕ) spec3 c (Ri3 m c)
  hentry c := by
    rw [Pipeline.ownSems0_none]
    have hsplit := Pipeline.arrays_of_unscopedBufs (p := 3) (pcfgs (F := F)) admR (pdats m) launch3.win launch3.arr_whole c
      ((pdats m 3 c).share_full fun _ => rfl) (Ri3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) admR (Ix := Unit) (Name := ℕ) (U := UR sig nD τ) (Lvl := ℕ)
      launch3.win launch3.arr_whole c (pdats m) ((pdats m 3 c).share_full fun _ => rfl)
      (Ri3 m c) (Ro3 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered with every unscoped buffer at `Wi4`, left with them at `Wo4`.  Its arrays
    are split out of the unscoped buffers at entry and put back at the exit contents; the generator register goes into the
    pipeline's invariant and comes out; nothing is owed; the kernel has no semaphore of its own. -/
def reg4 : Pipeline.RegionSeg (pcfgs (F := F)) admR (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (Ri4 m) c).loose
  hwaits := Pipeline.hwaits_of_owed_zero _ _ _ _ L lv 4 fun _ _ => rfl
  pre c := iprop(StableHlo.held (c : Thread nD τ) (Pipeline.ucRefs τ sig) (Wi4 m c) ∗ Rest c)
  post c := iprop(StableHlo.held (c : Thread nD τ) (Pipeline.ucRefs τ sig) (Wo4 m c) ∗ Rest c)
  X c := iprop(∃ r, prngReg c r)
  Y c := iprop(∃ r, prngReg c r)
  Z c := Pipeline.unscopedRest (Ix := Unit) (Name := ℕ) (U := UR sig nD τ) (Lvl := ℕ) spec4 c (Ri4 m c)
  hentry c := by
    rw [Pipeline.ownSems0_none]
    have hsplit := Pipeline.arrays_of_unscopedBufs (p := 4) (pcfgs (F := F)) admR (pdats m) launch4.win launch4.arr_whole c
      ((pdats m 4 c).share_full fun _ => rfl) (Ri4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) admR (Ix := Unit) (Name := ℕ) (U := UR sig nD τ) (Lvl := ℕ)
      launch4.win launch4.arr_whole c (pdats m) ((pdats m 4 c).share_full fun _ => rfl)
      (Ri4 m c) (Ro4 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered with every unscoped buffer at `Wi5`, left with them at `Wo5`.  Its arrays
    are split out of the unscoped buffers at entry and put back at the exit contents; the generator register goes into the
    pipeline's invariant and comes out; nothing is owed; the kernel has no semaphore of its own. -/
def reg5 : Pipeline.RegionSeg (pcfgs (F := F)) admR (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (Ri5 m) c).loose
  hwaits := Pipeline.hwaits_of_owed_zero _ _ _ _ L lv 5 fun _ _ => rfl
  pre c := iprop(StableHlo.held (c : Thread nD τ) (Pipeline.ucRefs τ sig) (Wi5 m c) ∗ Rest c)
  post c := iprop(StableHlo.held (c : Thread nD τ) (Pipeline.ucRefs τ sig) (Wo5 m c) ∗ Rest c)
  X c := iprop(∃ r, prngReg c r)
  Y c := iprop(∃ r, prngReg c r)
  Z c := Pipeline.unscopedRest (Ix := Unit) (Name := ℕ) (U := UR sig nD τ) (Lvl := ℕ) spec5 c (Ri5 m c)
  hentry c := by
    rw [Pipeline.ownSems0_none]
    have hsplit := Pipeline.arrays_of_unscopedBufs (p := 5) (pcfgs (F := F)) admR (pdats m) launch5.win launch5.arr_whole c
      ((pdats m 5 c).share_full fun _ => rfl) (Ri5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) admR (Ix := Unit) (Name := ℕ) (U := UR sig nD τ) (Lvl := ℕ)
      launch5.win launch5.arr_whole c (pdats m) ((pdats m 5 c).share_full fun _ => rfl)
      (Ri5 m c) (Ro5 m c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6 over the thread state: entered with every unscoped buffer at `Wi6`, left with them at `Wo6`.  Its arrays
    are split out of the unscoped buffers at entry and put back at the exit contents; the generator register goes into the
    pipeline's invariant and comes out; nothing is owed; the kernel has no semaphore of its own. -/
def reg6 : Pipeline.RegionSeg (pcfgs (F := F)) admR (pdats m) () defs₀ 𝒱₀ L lv 6 where
  win := launch6.win.to₀
  block_pos := launch6.block_pos
  stage_whole := launch6.stage_whole
  K := PEmpty
  osem k := k.elim
  ho := Pipeline.OwnSemFacts.none _
  hbody c := (body_obligation6 (Ri6 m) c).loose
  hwaits := Pipeline.hwaits_of_owed_zero _ _ _ _ L lv 6 fun _ _ => rfl
  pre c := iprop(StableHlo.held (c : Thread nD τ) (Pipeline.ucRefs τ sig) (Wi6 m c) ∗ Rest c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec6 c (Ri6 m c)
  hentry c := by
    rw [Pipeline.ownSems0_none]
    have hsplit := Pipeline.arrays_of_unscopedBufs (p := 6) (pcfgs (F := F)) admR (pdats m) launch6.win launch6.arr_whole c
      ((pdats m 6 c).share_full fun _ => rfl) (Ri6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) admR (Ix := Unit) (Name := ℕ) (U := UR sig nD τ) (Lvl := ℕ)
      launch6.win launch6.arr_whole c (pdats m) ((pdats m 6 c).share_full fun _ => rfl)
      (Ri6 m c) (Ro6 m c) ((pdats m 6 c).arrAt · cfg6.N) (hF6 m c) (hrest6 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev segsR : List (Pipeline.Seg (pcfgs (F := F)) admR (pdats m) () defs₀ 𝒱₀ L lv) :=
  [ .host (hseg hostOps0 hostOps0_sub Gen.hostOps0_fresh (Gen.V0 m)),
    .host (hseg hostOps0_1 hostOps0_1_sub Gen.hostOps0_1_fresh (Gen.V1 m)),
    .host (hseg hostOps0_2 hostOps0_2_sub Gen.hostOps0_2_fresh (Gen.V2 m)),
    .region (reg0 m),
    .host (hseg hostOps1 hostOps1_sub Gen.hostOps1_fresh (Wo0 m)),
    .region (reg1 m),
    .host (hseg hostOps2 hostOps2_sub Gen.hostOps2_fresh (Wo1 m)),
    .region (reg2 m),
    .host (hseg hostOps3 hostOps3_sub Gen.hostOps3_fresh (Wo2 m)),
    .region (reg3 m),
    .host (hseg hostOps4 hostOps4_sub Gen.hostOps4_fresh (Wo3 m)),
    .region (reg4 m),
    .host (hseg hostOps5 hostOps5_sub Gen.hostOps5_fresh (Wo4 m)),
    .region (reg5 m),
    .host (hseg hostOps6 hostOps6_sub Gen.hostOps6_fresh (Wo5 m)),
    .region (reg6 m) ]

/-- @main is the run of the segments. -/
theorem main_run (c : Dev nD) : main (F := F) c = Pipeline.Seg.run (segsR m) := (main_chain c).trans (by chain_rfl)

set_option backward.isDefEq.respectTransparency.types false in
/-- THE RUN: from any memory with zero counters every weakly fair execution of @main terminates, nothing faulting, and
    every unscoped buffer ends at the last contents of the chain. -/
theorem run (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = Wo6 m c b) :=
  Pipeline.θ_run_regions_kit (pcfgs (F := F)) admR (pdats m) () cellOf_inj emb₁ defs₀ 𝒱₀ L lv m ρ main (segsR m)
    (fun c Q => by rw [main_run m c])
    (by simp only [segsR, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ Rest c)) (Tₙ := Tₙ m)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wo6 m c b)
    (hfin := fun c s' => by
      iintro ⟨⟨Hh, -⟩, HSI⟩
      unfold StableHlo.held
      imodintro
      iapply (pointsTo_read_all (Pipeline.ucRefs τ sig) (fun b => (((c : Thread nD τ)).1, b)) (Wo6 m c) s')
      isplitl [Hh] <;> iassumption)
    (hQ := fun s h => h)

/-- THE FRAME: every argument array ends as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c _ (mem_uc main_arg0 (by decide))).trans (Wo6_main_arg0 m c),
      (h c _ (mem_uc main_arg1 (by decide))).trans (Wo6_main_arg1 m c),
      (h c _ (mem_uc main_arg2 (by decide))).trans (Wo6_main_arg2 m c),
      (h c _ (mem_uc main_arg3 (by decide))).trans (Wo6_main_arg3 m c),
      (h c _ (mem_uc main_arg4 (by decide))).trans (Wo6_main_arg4 m c),
      (h c _ (mem_uc main_arg5 (by decide))).trans (Wo6_main_arg5 m c),
      (h c _ (mem_uc main_arg6 (by decide))).trans (Wo6_main_arg6 m c),
      (h c _ (mem_uc main_arg7 (by decide))).trans (Wo6_main_arg7 m c),
      (h c _ (mem_uc main_arg8 (by decide))).trans (Wo6_main_arg8 m c),
      (h c _ (mem_uc main_arg9 (by decide))).trans (Wo6_main_arg9 m c),
      (h c _ (mem_uc main_arg10 (by decide))).trans (Wo6_main_arg10 m c)⟩)
    (run m ρ)

end Cert.Kernel.Regs

end
-- ==== Proof.Ideal.Region0.lean ====
/-
  Region 0 of the program: a row-tiled linear map.  The grid has 20 points; at point t the body is handed rows
  5000·t … 5000·t + 4999 of its first operand (window 0), the whole weight matrix (window 1) and the whole bias row
  (window 2), and it stores one whole block of the result (window 3): every entry of the block is the row of the
  input block times the column of the weights, plus the bias entry of that column.

  Stated here, for any float instance and at any contents `V` of the buffers when the region is entered: what the body
  leaves in the output block as one function of the three input blocks; that the body, run on whole staging buffers
  holding those blocks, terminates without a fault and leaves exactly that; and the data the launch theorem asks for —
  the arrays as the region finds them, and after the body each input buffer still at its block, the output buffer at the
  function of the input blocks.
-/
import proofs.«163322_j18580028523179_1_alg».proof.Proof.Gen.KernelIdeal.Launch
import proofs.«163322_j18580028523179_1_alg».proof.Proof.Gen.KernelIdeal.Skeleton
import proofs.«163322_j18580028523179_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Regs

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-! ## The blocks -/

/-- Window `w`'s block at grid point `t`, read off its array as the region finds it. -/
def iblk0 (c : Dev nD) (w : Fin cfg0.W) (t : Fin cfg0.N) :
    ((cfg0.win w).xblock (cfg0.grid.coords t)).Idx → Elt F (cfg0.win w).elt :=
  ((cfg0.win w).blk t).view.read (Elt F) (V c (Pipeline.arrRef spec0 w))

/-- The rows' staging buffer holds the point's row block whenever the body is handed it: it is fetched at every point. -/
theorem before0_0_of {c : Dev nD} (dat : Dat τ (Elt F) Unit ℕ (UR sig nD τ) ℕ cfg0 c)
    (hA : dat.A 0 = V c (Pipeline.arrRef spec0 0)) (hafter : ∀ t, dat.after 0 t = iblk0 V c 0 t)
    (t : Fin cfg0.N) (d) : dat.before 0 t d = iblk0 V c 0 t :=
  (dat.before_in_eq_fetched 0 rfl (fun _ => rfl) (fun _ _ _ => rfl)
    (fun t => by rw [hafter]; unfold Dat.blockOf iblk0; rw [hA]; try rfl) t d).trans
    (by unfold Dat.fetched Dat.blockOf iblk0; rw [hA]; try rfl)

/-- The weights' staging buffer holds the whole matrix at every point: fetched once, and the body leaves it in place. -/
theorem before0_1_of {c : Dev nD} (dat : Dat τ (Elt F) Unit ℕ (UR sig nD τ) ℕ cfg0 c)
    (hA : dat.A 1 = V c (Pipeline.arrRef spec0 1)) (hafter : ∀ t, dat.after 1 t = iblk0 V c 1 t)
    (t : Fin cfg0.N) (d) : dat.before 1 t d = iblk0 V c 1 t :=
  (dat.before_in_eq_fetched 1 rfl (fun _ => rfl) (fun _ _ _ => rfl)
    (fun t => by rw [hafter]; unfold Dat.blockOf iblk0; rw [hA]; try rfl) t d).trans
    (by unfold Dat.fetched Dat.blockOf iblk0; rw [hA]; try rfl)

/-- The bias row's staging buffer holds the row at every point, in the same way. -/
theorem before0_2_of {c : Dev nD} (dat : Dat τ (Elt F) Unit ℕ (UR sig nD τ) ℕ cfg0 c)
    (hA : dat.A 2 = V c (Pipeline.arrRef spec0 2)) (hafter : ∀ t, dat.after 2 t = iblk0 V c 2 t)
    (t : Fin cfg0.N) (d) : dat.before 2 t d = iblk0 V c 2 t :=
  (dat.before_in_eq_fetched 2 rfl (fun _ => rfl) (fun _ _ _ => rfl)
    (fun t => by rw [hafter]; unfold Dat.blockOf iblk0; rw [hA]; try rfl) t d).trans
    (by unfold Dat.fetched Dat.blockOf iblk0; rw [hA]; try rfl)

/-! ## What the body reads and writes: each buffer whole -/

abbrev rIn0 : Rect S5000x64 := Rect.unit (s := S5000x64) ![0, 0] S5000x64.size inb_S5000x64_S5000x64_0_0
abbrev rW0 : Rect S64x64 := Rect.unit (s := S64x64) ![0, 0] S64x64.size inb_S64x64_S64x64_0_0
abbrev rB0 : Rect S1x64 := Rect.unit (s := S1x64) ![0, 0] S1x64.size inb_S1x64_S1x64_0_0
abbrev rOut0 : Rect S5000x64 := Rect.unit (s := S5000x64) ![0, 0] S5000x64.size inb_S5000x64_S5000x64_0_0

/-- The output block after the body, as a function of the three input blocks: its one store, of the whole block. -/
def out0_3 (x0 : Vec F S5000x64 .f32) (x1 : Vec F S64x64 .f32) (x2 : Vec F S1x64 .f32) : Vec F S5000x64 .f32 :=
  View.canon [⟨rOut0, k0_pay1 (View.ld x0 rIn0) (View.ld x1 rW0) (View.ld x2 rB0)⟩]

/-- The one store covers the block. -/
theorem cover0_3 (p0 : Vec F S5000x64 .f32) (y : S5000x64.Idx) :
    ∃ pc ∈ ([⟨rOut0, p0⟩] : List (View.Piece (Elt F) S5000x64 .f32)), y ∈ pc.1.set :=
  View.cover_of_tiled [⟨rOut0, p0⟩] S5000x64.size (by rfl) y

/-! ## The body runs -/

set_option maxHeartbeats 1000000 in
/-- On whole staging buffers holding the blocks `x0`, `x1`, `x2` (and anything in the output's), the body terminates
    without a fault, the inputs' buffers as they were and the output's at `out0_3 x0 x1 x2`. -/
theorem sound_kernel0 (c : Dev nD) (E : Set ℕ) (i : grid0.Coords)
    (arg1 : Memref sig .tc .vmem S5000x64 .f32) (harg1 : arg1.IsWhole) (arg2 : Memref sig .tc .vmem S64x64 .f32) (harg2 : arg2.IsWhole)
    (arg3 : Memref sig .tc .vmem S1x64 .f32) (harg3 : arg3.IsWhole) (arg4 : Memref sig .tc .vmem S5000x64 .f32) (harg4 : arg4.IsWhole)
    (x0 : Vec F S5000x64 .f32) (x1 : Vec F S64x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The data of the launch -/

/-- On core `c`: the arrays as the region finds them; after the body at point `t` each input's buffer at its block and the
    output's at the function of the input blocks; nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body at a grid point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the body's run applies; the rest passes through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The launch theorem's obligation for the body, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Regs

end
-- ==== Proof.Ideal.Region1.lean ====
/-
  Region 1 of the program: add a bias row to every row and clamp below at zero, row-tiled.  The grid has 20 points; at
  point t the body is handed rows 5000·t … 5000·t + 4999 of its first operand (window 0) and the whole bias row
  (window 1), and it stores one whole block of the result (window 2): every entry is the larger of zero and the input
  entry plus the bias entry of its column.

  Stated here, for any float instance and at any contents `V` of the buffers when the region is entered: what the body
  leaves in the output block as one function of the two input blocks; that the body, run on whole staging buffers
  holding those blocks, terminates without a fault and leaves exactly that; and the data the launch theorem asks for.
-/
import proofs.«163322_j18580028523179_1_alg».proof.Proof.Gen.KernelIdeal.Launch
import proofs.«163322_j18580028523179_1_alg».proof.Proof.Gen.KernelIdeal.Skeleton
import proofs.«163322_j18580028523179_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Regs

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-! ## The blocks -/

/-- Window `w`'s block at grid point `t`, read off its array as the region finds it. -/
def iblk1 (c : Dev nD) (w : Fin cfg1.W) (t : Fin cfg1.N) :
    ((cfg1.win w).xblock (cfg1.grid.coords t)).Idx → Elt F (cfg1.win w).elt :=
  ((cfg1.win w).blk t).view.read (Elt F) (V c (Pipeline.arrRef spec1 w))

/-- The rows' staging buffer holds the point's row block whenever the body is handed it: it is fetched at every point. -/
theorem before1_0_of {c : Dev nD} (dat : Dat τ (Elt F) Unit ℕ (UR sig nD τ) ℕ cfg1 c)
    (hA : dat.A 0 = V c (Pipeline.arrRef spec1 0)) (hafter : ∀ t, dat.after 0 t = iblk1 V c 0 t)
    (t : Fin cfg1.N) (d) : dat.before 0 t d = iblk1 V c 0 t :=
  (dat.before_in_eq_fetched 0 rfl (fun _ => rfl) (fun _ _ _ => rfl)
    (fun t => by rw [hafter]; unfold Dat.blockOf iblk1; rw [hA]; try rfl) t d).trans
    (by unfold Dat.fetched Dat.blockOf iblk1; rw [hA]; try rfl)

/-- The bias row's staging buffer holds the row at every point: fetched once, and the body leaves it in place. -/
theorem before1_1_of {c : Dev nD} (dat : Dat τ (Elt F) Unit ℕ (UR sig nD τ) ℕ cfg1 c)
    (hA : dat.A 1 = V c (Pipeline.arrRef spec1 1)) (hafter : ∀ t, dat.after 1 t = iblk1 V c 1 t)
    (t : Fin cfg1.N) (d) : dat.before 1 t d = iblk1 V c 1 t :=
  (dat.before_in_eq_fetched 1 rfl (fun _ => rfl) (fun _ _ _ => rfl)
    (fun t => by rw [hafter]; unfold Dat.blockOf iblk1; rw [hA]; try rfl) t d).trans
    (by unfold Dat.fetched Dat.blockOf iblk1; rw [hA]; try rfl)

/-! ## What the body reads and writes: each buffer whole -/

abbrev rIn1 : Rect S5000x64 := Rect.unit (s := S5000x64) ![0, 0] S5000x64.size inb_S5000x64_S5000x64_0_0
abbrev rB1 : Rect S1x64 := Rect.unit (s := S1x64) ![0, 0] S1x64.size inb_S1x64_S1x64_0_0
abbrev rOut1 : Rect S5000x64 := Rect.unit (s := S5000x64) ![0, 0] S5000x64.size inb_S5000x64_S5000x64_0_0

/-- The output block after the body, as a function of the two input blocks: its one store, of the whole block. -/
def out1_2 (x0 : Vec F S5000x64 .f32) (x1 : Vec F S1x64 .f32) : Vec F S5000x64 .f32 :=
  View.canon [⟨rOut1, k1_pay1 (View.ld x0 rIn1) (View.ld x1 rB1)⟩]

/-- The one store covers the block. -/
theorem cover1_2 (p0 : Vec F S5000x64 .f32) (y : S5000x64.Idx) :
    ∃ pc ∈ ([⟨rOut1, p0⟩] : List (View.Piece (Elt F) S5000x64 .f32)), y ∈ pc.1.set :=
  View.cover_of_tiled [⟨rOut1, p0⟩] S5000x64.size (by rfl) y

/-! ## The body runs -/

set_option maxHeartbeats 1000000 in
/-- On whole staging buffers holding the blocks `x0`, `x1` (and anything in the output's), the body terminates without
    a fault, the inputs' buffers as they were and the output's at `out1_2 x0 x1`. -/
theorem sound_kernel1 (c : Dev nD) (E : Set ℕ) (i : grid1.Coords)
    (arg1 : Memref sig .tc .vmem S5000x64 .f32) (harg1 : arg1.IsWhole) (arg2 : Memref sig .tc .vmem S1x64 .f32) (harg2 : arg2.IsWhole)
    (arg3 : Memref sig .tc .vmem S5000x64 .f32) (harg3 : arg3.IsWhole)
    (x0 : Vec F S5000x64 .f32) (x1 : Vec F S1x64 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out1_2 x0 x1)) -∗ K ⟨⟩))
      ⊢ wp frame (wpE (defs₀ (F := F)) Variants.none c none) E (cc1__bias_relu_kernel i arg1 harg1 arg2 harg2 arg3 harg3) K := by
  simp only [cc1__bias_relu_kernel_eq_skeleton]; unfold cc1__bias_relu_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The data of the launch -/

/-- On core `c`: the arrays as the region finds them; after the body at point `t` each input's buffer at its block and the
    output's at the function of the input blocks; nothing owed, full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) :
    (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body at a grid point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' buffers hold their blocks, so the body's run applies; the rest passes through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The launch theorem's obligation for the body, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Regs

end
-- ==== Proof.Ideal.Region2.lean ====
/-
  Region 2 of the program: a row-tiled linear map.  The grid has 20 points; at point t the body is handed rows
  5000·t … 5000·t + 4999 of its first operand (window 0), the whole weight matrix (window 1) and the whole bias row
  (window 2), and it stores one whole block of the result (window 3): every entry of the block is the row of the
  input block times the column of the weights, plus the bias entry of that column.

  Stated here, for any float instance and at any contents `V` of the buffers when the region is entered: what the body
  leaves in the output block as one function of the three input blocks; that the body, run on whole staging buffers
  holding those blocks, terminates without a fault and leaves exactly that; and the data the launch theorem asks for —
  the arrays as the region finds them, and after the body each input buffer still at its block, the output buffer at the
  function of the input blocks.
-/
import proofs.«163322_j18580028523179_1_alg».proof.Proof.Gen.KernelIdeal.Launch
import proofs.«163322_j18580028523179_1_alg».proof.Proof.Gen.KernelIdeal.Skeleton
import proofs.«163322_j18580028523179_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Regs

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-! ## The blocks -/

/-- Window `w`'s block at grid point `t`, read off its array as the region finds it. -/
def iblk2 (c : Dev nD) (w : Fin cfg2.W) (t : Fin cfg2.N) :
    ((cfg2.win w).xblock (cfg2.grid.coords t)).Idx → Elt F (cfg2.win w).elt :=
  ((cfg2.win w).blk t).view.read (Elt F) (V c (Pipeline.arrRef spec2 w))

/-- The rows' staging buffer holds the point's row block whenever the body is handed it: it is fetched at every point. -/
theorem before2_0_of {c : Dev nD} (dat : Dat τ (Elt F) Unit ℕ (UR sig nD τ) ℕ cfg2 c)
    (hA : dat.A 0 = V c (Pipeline.arrRef spec2 0)) (hafter : ∀ t, dat.after 0 t = iblk2 V c 0 t)
    (t : Fin cfg2.N) (d) : dat.before 0 t d = iblk2 V c 0 t :=
  (dat.before_in_eq_fetched 0 rfl (fun _ => rfl) (fun _ _ _ => rfl)
    (fun t => by rw [hafter]; unfold Dat.blockOf iblk2; rw [hA]; try rfl) t d).trans
    (by unfold Dat.fetched Dat.blockOf iblk2; rw [hA]; try rfl)

/-- The weights' staging buffer holds the whole matrix at every point: fetched once, and the body leaves it in place. -/
theorem before2_1_of {c : Dev nD} (dat : Dat τ (Elt F) Unit ℕ (UR sig nD τ) ℕ cfg2 c)
    (hA : dat.A 1 = V c (Pipeline.arrRef spec2 1)) (hafter : ∀ t, dat.after 1 t = iblk2 V c 1 t)
    (t : Fin cfg2.N) (d) : dat.before 1 t d = iblk2 V c 1 t :=
  (dat.before_in_eq_fetched 1 rfl (fun _ => rfl) (fun _ _ _ => rfl)
    (fun t => by rw [hafter]; unfold Dat.blockOf iblk2; rw [hA]; try rfl) t d).trans
    (by unfold Dat.fetched Dat.blockOf iblk2; rw [hA]; try rfl)

/-- The bias row's staging buffer holds the row at every point, in the same way. -/
theorem before2_2_of {c : Dev nD} (dat : Dat τ (Elt F) Unit ℕ (UR sig nD τ) ℕ cfg2 c)
    (hA : dat.A 2 = V c (Pipeline.arrRef spec2 2)) (hafter : ∀ t, dat.after 2 t = iblk2 V c 2 t)
    (t : Fin cfg2.N) (d) : dat.before 2 t d = iblk2 V c 2 t :=
  (dat.before_in_eq_fetched 2 rfl (fun _ => rfl) (fun _ _ _ => rfl)
    (fun t => by rw [hafter]; unfold Dat.blockOf iblk2; rw [hA]; try rfl) t d).trans
    (by unfold Dat.fetched Dat.blockOf iblk2; rw [hA]; try rfl)

/-! ## What the body reads and writes: each buffer whole -/

abbrev rIn2 : Rect S5000x64 := Rect.unit (s := S5000x64) ![0, 0] S5000x64.size inb_S5000x64_S5000x64_0_0
abbrev rW2 : Rect S64x64 := Rect.unit (s := S64x64) ![0, 0] S64x64.size inb_S64x64_S64x64_0_0
abbrev rB2 : Rect S1x64 := Rect.unit (s := S1x64) ![0, 0] S1x64.size inb_S1x64_S1x64_0_0
abbrev rOut2 : Rect S5000x64 := Rect.unit (s := S5000x64) ![0, 0] S5000x64.size inb_S5000x64_S5000x64_0_0

/-- The output block after the body, as a function of the three input blocks: its one store, of the whole block. -/
def out2_3 (x0 : Vec F S5000x64 .f32) (x1 : Vec F S64x64 .f32) (x2 : Vec F S1x64 .f32) : Vec F S5000x64 .f32 :=
  View.canon [⟨rOut2, k2_pay1 (View.ld x0 rIn2) (View.ld x1 rW2) (View.ld x2 rB2)⟩]

/-- The one store covers the block. -/
theorem cover2_3 (p0 : Vec F S5000x64 .f32) (y : S5000x64.Idx) :
    ∃ pc ∈ ([⟨rOut2, p0⟩] : List (View.Piece (Elt F) S5000x64 .f32)), y ∈ pc.1.set :=
  View.cover_of_tiled [⟨rOut2, p0⟩] S5000x64.size (by rfl) y

/-! ## The body runs -/

set_option maxHeartbeats 1000000 in
/-- On whole staging buffers holding the blocks `x0`, `x1`, `x2` (and anything in the output's), the body terminates
    without a fault, the inputs' buffers as they were and the output's at `out2_3 x0 x1 x2`. -/
theorem sound_kernel2 (c : Dev nD) (E : Set ℕ) (i : grid2.Coords)
    (arg1 : Memref sig .tc .vmem S5000x64 .f32) (harg1 : arg1.IsWhole) (arg2 : Memref sig .tc .vmem S64x64 .f32) (harg2 : arg2.IsWhole)
    (arg3 : Memref sig .tc .vmem S1x64 .f32) (harg3 : arg3.IsWhole) (arg4 : Memref sig .tc .vmem S5000x64 .f32) (harg4 : arg4.IsWhole)
    (x0 : Vec F S5000x64 .f32) (x1 : Vec F S64x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__linear_kernel i arg1 harg1 arg2 harg2 arg3 harg3 arg4 harg4) K := by
  simp only [cc2__linear_kernel_eq_skeleton]; unfold cc2__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The data of the launch -/

/-- On core `c`: the arrays as the region finds them; after the body at point `t` each input's buffer at its block and the
    output's at the function of the input blocks; nothing owed, full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body at a grid point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' buffers hold their blocks, so the body's run applies; the rest passes through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The launch theorem's obligation for the body, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Regs

end
-- ==== Proof.Ideal.Region3.lean ====
/-
  Region 3 of the program: add a bias row to every row and clamp below at zero, row-tiled.  The grid has 20 points; at
  point t the body is handed rows 5000·t … 5000·t + 4999 of its first operand (window 0) and the whole bias row
  (window 1), and it stores one whole block of the result (window 2): every entry is the larger of zero and the input
  entry plus the bias entry of its column.

  Stated here, for any float instance and at any contents `V` of the buffers when the region is entered: what the body
  leaves in the output block as one function of the two input blocks; that the body, run on whole staging buffers
  holding those blocks, terminates without a fault and leaves exactly that; and the data the launch theorem asks for.
-/
import proofs.«163322_j18580028523179_1_alg».proof.Proof.Gen.KernelIdeal.Launch
import proofs.«163322_j18580028523179_1_alg».proof.Proof.Gen.KernelIdeal.Skeleton
import proofs.«163322_j18580028523179_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Regs

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-! ## The blocks -/

/-- Window `w`'s block at grid point `t`, read off its array as the region finds it. -/
def iblk3 (c : Dev nD) (w : Fin cfg3.W) (t : Fin cfg3.N) :
    ((cfg3.win w).xblock (cfg3.grid.coords t)).Idx → Elt F (cfg3.win w).elt :=
  ((cfg3.win w).blk t).view.read (Elt F) (V c (Pipeline.arrRef spec3 w))

/-- The rows' staging buffer holds the point's row block whenever the body is handed it: it is fetched at every point. -/
theorem before3_0_of {c : Dev nD} (dat : Dat τ (Elt F) Unit ℕ (UR sig nD τ) ℕ cfg3 c)
    (hA : dat.A 0 = V c (Pipeline.arrRef spec3 0)) (hafter : ∀ t, dat.after 0 t = iblk3 V c 0 t)
    (t : Fin cfg3.N) (d) : dat.before 0 t d = iblk3 V c 0 t :=
  (dat.before_in_eq_fetched 0 rfl (fun _ => rfl) (fun _ _ _ => rfl)
    (fun t => by rw [hafter]; unfold Dat.blockOf iblk3; rw [hA]; try rfl) t d).trans
    (by unfold Dat.fetched Dat.blockOf iblk3; rw [hA]; try rfl)

/-- The bias row's staging buffer holds the row at every point: fetched once, and the body leaves it in place. -/
theorem before3_1_of {c : Dev nD} (dat : Dat τ (Elt F) Unit ℕ (UR sig nD τ) ℕ cfg3 c)
    (hA : dat.A 1 = V c (Pipeline.arrRef spec3 1)) (hafter : ∀ t, dat.after 1 t = iblk3 V c 1 t)
    (t : Fin cfg3.N) (d) : dat.before 1 t d = iblk3 V c 1 t :=
  (dat.before_in_eq_fetched 1 rfl (fun _ => rfl) (fun _ _ _ => rfl)
    (fun t => by rw [hafter]; unfold Dat.blockOf iblk3; rw [hA]; try rfl) t d).trans
    (by unfold Dat.fetched Dat.blockOf iblk3; rw [hA]; try rfl)

/-! ## What the body reads and writes: each buffer whole -/

abbrev rIn3 : Rect S5000x64 := Rect.unit (s := S5000x64) ![0, 0] S5000x64.size inb_S5000x64_S5000x64_0_0
abbrev rB3 : Rect S1x64 := Rect.unit (s := S1x64) ![0, 0] S1x64.size inb_S1x64_S1x64_0_0
abbrev rOut3 : Rect S5000x64 := Rect.unit (s := S5000x64) ![0, 0] S5000x64.size inb_S5000x64_S5000x64_0_0

/-- The output block after the body, as a function of the two input blocks: its one store, of the whole block. -/
def out3_2 (x0 : Vec F S5000x64 .f32) (x1 : Vec F S1x64 .f32) : Vec F S5000x64 .f32 :=
  View.canon [⟨rOut3, k3_pay1 (View.ld x0 rIn3) (View.ld x1 rB3)⟩]

/-- The one store covers the block. -/
theorem cover3_2 (p0 : Vec F S5000x64 .f32) (y : S5000x64.Idx) :
    ∃ pc ∈ ([⟨rOut3, p0⟩] : List (View.Piece (Elt F) S5000x64 .f32)), y ∈ pc.1.set :=
  View.cover_of_tiled [⟨rOut3, p0⟩] S5000x64.size (by rfl) y

/-! ## The body runs -/

set_option maxHeartbeats 1000000 in
/-- On whole staging buffers holding the blocks `x0`, `x1` (and anything in the output's), the body terminates without
    a fault, the inputs' buffers as they were and the output's at `out3_2 x0 x1`. -/
theorem sound_kernel3 (c : Dev nD) (E : Set ℕ) (i : grid3.Coords)
    (arg1 : Memref sig .tc .vmem S5000x64 .f32) (harg1 : arg1.IsWhole) (arg2 : Memref sig .tc .vmem S1x64 .f32) (harg2 : arg2.IsWhole)
    (arg3 : Memref sig .tc .vmem S5000x64 .f32) (harg3 : arg3.IsWhole)
    (x0 : Vec F S5000x64 .f32) (x1 : Vec F S1x64 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out3_2 x0 x1)) -∗ K ⟨⟩))
      ⊢ wp frame (wpE (defs₀ (F := F)) Variants.none c none) E (cc3__bias_relu_kernel i arg1 harg1 arg2 harg2 arg3 harg3) K := by
  simp only [cc3__bias_relu_kernel_eq_skeleton]; unfold cc3__bias_relu_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-! ## The data of the launch -/

/-- On core `c`: the arrays as the region finds them; after the body at point `t` each input's buffer at its block and the
    output's at the function of the input blocks; nothing owed, full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) :
    (dat3 V c).after 2 t = out3_2 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body at a grid point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' buffers hold their blocks, so the body's run applies; the rest passes through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The launch theorem's obligation for the body, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Regs

end
-- ==== Proof.Ideal.Region4.lean ====
/-
  Region 4 of the program: a row-tiled linear map.  The grid has 20 points; at point t the body is handed rows
  5000·t … 5000·t + 4999 of its first operand (window 0), the whole weight matrix (window 1) and the whole bias row
  (window 2), and it stores one whole block of the result (window 3): every entry of the block is the row of the
  input block times the column of the weights, plus the bias entry of that column.

  Stated here, for any float instance and at any contents `V` of the buffers when the region is entered: what the body
  leaves in the output block as one function of the three input blocks; that the body, run on whole staging buffers
  holding those blocks, terminates without a fault and leaves exactly that; and the data the launch theorem asks for —
  the arrays as the region finds them, and after the body each input buffer still at its block, the output buffer at the
  function of the input blocks.
-/
import proofs.«163322_j18580028523179_1_alg».proof.Proof.Gen.KernelIdeal.Launch
import proofs.«163322_j18580028523179_1_alg».proof.Proof.Gen.KernelIdeal.Skeleton
import proofs.«163322_j18580028523179_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Regs

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-! ## The blocks -/

/-- Window `w`'s block at grid point `t`, read off its array as the region finds it. -/
def iblk4 (c : Dev nD) (w : Fin cfg4.W) (t : Fin cfg4.N) :
    ((cfg4.win w).xblock (cfg4.grid.coords t)).Idx → Elt F (cfg4.win w).elt :=
  ((cfg4.win w).blk t).view.read (Elt F) (V c (Pipeline.arrRef spec4 w))

/-- The rows' staging buffer holds the point's row block whenever the body is handed it: it is fetched at every point. -/
theorem before4_0_of {c : Dev nD} (dat : Dat τ (Elt F) Unit ℕ (UR sig nD τ) ℕ cfg4 c)
    (hA : dat.A 0 = V c (Pipeline.arrRef spec4 0)) (hafter : ∀ t, dat.after 0 t = iblk4 V c 0 t)
    (t : Fin cfg4.N) (d) : dat.before 0 t d = iblk4 V c 0 t :=
  (dat.before_in_eq_fetched 0 rfl (fun _ => rfl) (fun _ _ _ => rfl)
    (fun t => by rw [hafter]; unfold Dat.blockOf iblk4; rw [hA]; try rfl) t d).trans
    (by unfold Dat.fetched Dat.blockOf iblk4; rw [hA]; try rfl)

/-- The weights' staging buffer holds the whole matrix at every point: fetched once, and the body leaves it in place. -/
theorem before4_1_of {c : Dev nD} (dat : Dat τ (Elt F) Unit ℕ (UR sig nD τ) ℕ cfg4 c)
    (hA : dat.A 1 = V c (Pipeline.arrRef spec4 1)) (hafter : ∀ t, dat.after 1 t = iblk4 V c 1 t)
    (t : Fin cfg4.N) (d) : dat.before 1 t d = iblk4 V c 1 t :=
  (dat.before_in_eq_fetched 1 rfl (fun _ => rfl) (fun _ _ _ => rfl)
    (fun t => by rw [hafter]; unfold Dat.blockOf iblk4; rw [hA]; try rfl) t d).trans
    (by unfold Dat.fetched Dat.blockOf iblk4; rw [hA]; try rfl)

/-- The bias row's staging buffer holds the row at every point, in the same way. -/
theorem before4_2_of {c : Dev nD} (dat : Dat τ (Elt F) Unit ℕ (UR sig nD τ) ℕ cfg4 c)
    (hA : dat.A 2 = V c (Pipeline.arrRef spec4 2)) (hafter : ∀ t, dat.after 2 t = iblk4 V c 2 t)
    (t : Fin cfg4.N) (d) : dat.before 2 t d = iblk4 V c 2 t :=
  (dat.before_in_eq_fetched 2 rfl (fun _ => rfl) (fun _ _ _ => rfl)
    (fun t => by rw [hafter]; unfold Dat.blockOf iblk4; rw [hA]; try rfl) t d).trans
    (by unfold Dat.fetched Dat.blockOf iblk4; rw [hA]; try rfl)

/-! ## What the body reads and writes: each buffer whole -/

abbrev rIn4 : Rect S5000x64 := Rect.unit (s := S5000x64) ![0, 0] S5000x64.size inb_S5000x64_S5000x64_0_0
abbrev rW4 : Rect S64x64 := Rect.unit (s := S64x64) ![0, 0] S64x64.size inb_S64x64_S64x64_0_0
abbrev rB4 : Rect S1x64 := Rect.unit (s := S1x64) ![0, 0] S1x64.size inb_S1x64_S1x64_0_0
abbrev rOut4 : Rect S5000x64 := Rect.unit (s := S5000x64) ![0, 0] S5000x64.size inb_S5000x64_S5000x64_0_0

/-- The output block after the body, as a function of the three input blocks: its one store, of the whole block. -/
def out4_3 (x0 : Vec F S5000x64 .f32) (x1 : Vec F S64x64 .f32) (x2 : Vec F S1x64 .f32) : Vec F S5000x64 .f32 :=
  View.canon [⟨rOut4, k4_pay1 (View.ld x0 rIn4) (View.ld x1 rW4) (View.ld x2 rB4)⟩]

/-- The one store covers the block. -/
theorem cover4_3 (p0 : Vec F S5000x64 .f32) (y : S5000x64.Idx) :
    ∃ pc ∈ ([⟨rOut4, p0⟩] : List (View.Piece (Elt F) S5000x64 .f32)), y ∈ pc.1.set :=
  View.cover_of_tiled [⟨rOut4, p0⟩] S5000x64.size (by rfl) y

/-! ## The body runs -/

set_option maxHeartbeats 1000000 in
/-- On whole staging buffers holding the blocks `x0`, `x1`, `x2` (and anything in the output's), the body terminates
    without a fault, the inputs' buffers as they were and the output's at `out4_3 x0 x1 x2`. -/
theorem sound_kernel4 (c : Dev nD) (E : Set ℕ) (i : grid4.Coords)
    (arg1 : Memref sig .tc .vmem S5000x64 .f32) (harg1 : arg1.IsWhole) (arg2 : Memref sig .tc .vmem S64x64 .f32) (harg2 : arg2.IsWhole)
    (arg3 : Memref sig .tc .vmem S1x64 .f32) (harg3 : arg3.IsWhole) (arg4 : Memref sig .tc .vmem S5000x64 .f32) (harg4 : arg4.IsWhole)
    (x0 : Vec F S5000x64 .f32) (x1 : Vec F S64x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out4_3 x0 x1 x2)) -∗ K ⟨⟩))
      ⊢ wp frame (wpE (defs₀ (F := F)) Variants.none c none) E (cc4__linear_kernel i arg1 harg1 arg2 harg2 arg3 harg3 arg4 harg4) K := by
  simp only [cc4__linear_kernel_eq_skeleton]; unfold cc4__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover4_3 _)

/-! ## The data of the launch -/

/-- On core `c`: the arrays as the region finds them; after the body at point `t` each input's buffer at its block and the
    output's at the function of the input blocks; nothing owed, full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) :
    (dat4 V c).after 3 t = out4_3 (iblk4 V c 0 t) (iblk4 V c 1 t) (iblk4 V c 2 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-! ## The body at a grid point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

/-- The body at any point: the inputs' buffers hold their blocks, so the body's run applies; the rest passes through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (sound_kernel4 c Set.univ _ _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The launch theorem's obligation for the body, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Regs

end
-- ==== Proof.Ideal.Region5.lean ====
/-
  Region 5 of the program: add a bias row to every row and clamp below at zero, row-tiled.  The grid has 20 points; at
  point t the body is handed rows 5000·t … 5000·t + 4999 of its first operand (window 0) and the whole bias row
  (window 1), and it stores one whole block of the result (window 2): every entry is the larger of zero and the input
  entry plus the bias entry of its column.

  Stated here, for any float instance and at any contents `V` of the buffers when the region is entered: what the body
  leaves in the output block as one function of the two input blocks; that the body, run on whole staging buffers
  holding those blocks, terminates without a fault and leaves exactly that; and the data the launch theorem asks for.
-/
import proofs.«163322_j18580028523179_1_alg».proof.Proof.Gen.KernelIdeal.Launch
import proofs.«163322_j18580028523179_1_alg».proof.Proof.Gen.KernelIdeal.Skeleton
import proofs.«163322_j18580028523179_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Regs

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-! ## The blocks -/

/-- Window `w`'s block at grid point `t`, read off its array as the region finds it. -/
def iblk5 (c : Dev nD) (w : Fin cfg5.W) (t : Fin cfg5.N) :
    ((cfg5.win w).xblock (cfg5.grid.coords t)).Idx → Elt F (cfg5.win w).elt :=
  ((cfg5.win w).blk t).view.read (Elt F) (V c (Pipeline.arrRef spec5 w))

/-- The rows' staging buffer holds the point's row block whenever the body is handed it: it is fetched at every point. -/
theorem before5_0_of {c : Dev nD} (dat : Dat τ (Elt F) Unit ℕ (UR sig nD τ) ℕ cfg5 c)
    (hA : dat.A 0 = V c (Pipeline.arrRef spec5 0)) (hafter : ∀ t, dat.after 0 t = iblk5 V c 0 t)
    (t : Fin cfg5.N) (d) : dat.before 0 t d = iblk5 V c 0 t :=
  (dat.before_in_eq_fetched 0 rfl (fun _ => rfl) (fun _ _ _ => rfl)
    (fun t => by rw [hafter]; unfold Dat.blockOf iblk5; rw [hA]; try rfl) t d).trans
    (by unfold Dat.fetched Dat.blockOf iblk5; rw [hA]; try rfl)

/-- The bias row's staging buffer holds the row at every point: fetched once, and the body leaves it in place. -/
theorem before5_1_of {c : Dev nD} (dat : Dat τ (Elt F) Unit ℕ (UR sig nD τ) ℕ cfg5 c)
    (hA : dat.A 1 = V c (Pipeline.arrRef spec5 1)) (hafter : ∀ t, dat.after 1 t = iblk5 V c 1 t)
    (t : Fin cfg5.N) (d) : dat.before 1 t d = iblk5 V c 1 t :=
  (dat.before_in_eq_fetched 1 rfl (fun _ => rfl) (fun _ _ _ => rfl)
    (fun t => by rw [hafter]; unfold Dat.blockOf iblk5; rw [hA]; try rfl) t d).trans
    (by unfold Dat.fetched Dat.blockOf iblk5; rw [hA]; try rfl)

/-! ## What the body reads and writes: each buffer whole -/

abbrev rIn5 : Rect S5000x64 := Rect.unit (s := S5000x64) ![0, 0] S5000x64.size inb_S5000x64_S5000x64_0_0
abbrev rB5 : Rect S1x64 := Rect.unit (s := S1x64) ![0, 0] S1x64.size inb_S1x64_S1x64_0_0
abbrev rOut5 : Rect S5000x64 := Rect.unit (s := S5000x64) ![0, 0] S5000x64.size inb_S5000x64_S5000x64_0_0

/-- The output block after the body, as a function of the two input blocks: its one store, of the whole block. -/
def out5_2 (x0 : Vec F S5000x64 .f32) (x1 : Vec F S1x64 .f32) : Vec F S5000x64 .f32 :=
  View.canon [⟨rOut5, k5_pay1 (View.ld x0 rIn5) (View.ld x1 rB5)⟩]

/-- The one store covers the block. -/
theorem cover5_2 (p0 : Vec F S5000x64 .f32) (y : S5000x64.Idx) :
    ∃ pc ∈ ([⟨rOut5, p0⟩] : List (View.Piece (Elt F) S5000x64 .f32)), y ∈ pc.1.set :=
  View.cover_of_tiled [⟨rOut5, p0⟩] S5000x64.size (by rfl) y

/-! ## The body runs -/

set_option maxHeartbeats 1000000 in
/-- On whole staging buffers holding the blocks `x0`, `x1` (and anything in the output's), the body terminates without
    a fault, the inputs' buffers as they were and the output's at `out5_2 x0 x1`. -/
theorem sound_kernel5 (c : Dev nD) (E : Set ℕ) (i : grid5.Coords)
    (arg1 : Memref sig .tc .vmem S5000x64 .f32) (harg1 : arg1.IsWhole) (arg2 : Memref sig .tc .vmem S1x64 .f32) (harg2 : arg2.IsWhole)
    (arg3 : Memref sig .tc .vmem S5000x64 .f32) (harg3 : arg3.IsWhole)
    (x0 : Vec F S5000x64 .f32) (x1 : Vec F S1x64 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out5_2 x0 x1)) -∗ K ⟨⟩))
      ⊢ wp frame (wpE (defs₀ (F := F)) Variants.none c none) E (cc5__bias_relu_kernel i arg1 harg1 arg2 harg2 arg3 harg3) K := by
  simp only [cc5__bias_relu_kernel_eq_skeleton]; unfold cc5__bias_relu_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover5_2 _)

/-! ## The data of the launch -/

/-- On core `c`: the arrays as the region finds them; after the body at point `t` each input's buffer at its block and the
    output's at the function of the input blocks; nothing owed, full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => out5_2 (iblk5 V c 0 t) (iblk5 V c 1 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) :
    (dat5 V c).after 2 t = out5_2 (iblk5 V c 0 t) (iblk5 V c 1 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d

/-! ## The body at a grid point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t))

/-- The body at any point: the inputs' buffers hold their blocks, so the body's run applies; the rest passes through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).Φ t.succ = (dat5 V c).Φ t.castSucc from rfl,
    show (dat5 V c).owesAt () t.succ = (dat5 V c).owesAt () t.castSucc from rfl,
    after5_0, after5_1, after5_2]
  iintro ⟨HΦ, Ho, ⟨%d0, H0⟩, ⟨%d1, H1⟩, ⟨%d2, H2⟩⟩
  iapply (sound_kernel5 c Set.univ _ _ _ _ _ _ _ (iblk5 V c 0 t) (iblk5 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The launch theorem's obligation for the body, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Regs

end
-- ==== Proof.Ideal.Region6.lean ====
/-
  Region 6 of the program: a row-tiled linear map.  The grid has 20 points; at point t the body is handed rows
  5000·t … 5000·t + 4999 of its first operand (window 0), the whole weight matrix (window 1) and the whole bias row
  (window 2), and it stores one whole block of the result (window 3): every entry of the block is the row of the
  input block times the column of the weights, plus the bias entry of that column.

  Stated here, for any float instance and at any contents `V` of the buffers when the region is entered: what the body
  leaves in the output block as one function of the three input blocks; that the body, run on whole staging buffers
  holding those blocks, terminates without a fault and leaves exactly that; and the data the launch theorem asks for —
  the arrays as the region finds them, and after the body each input buffer still at its block, the output buffer at the
  function of the input blocks.
-/
import proofs.«163322_j18580028523179_1_alg».proof.Proof.Gen.KernelIdeal.Launch
import proofs.«163322_j18580028523179_1_alg».proof.Proof.Gen.KernelIdeal.Skeleton
import proofs.«163322_j18580028523179_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Regs

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-! ## The blocks -/

/-- Window `w`'s block at grid point `t`, read off its array as the region finds it. -/
def iblk6 (c : Dev nD) (w : Fin cfg6.W) (t : Fin cfg6.N) :
    ((cfg6.win w).xblock (cfg6.grid.coords t)).Idx → Elt F (cfg6.win w).elt :=
  ((cfg6.win w).blk t).view.read (Elt F) (V c (Pipeline.arrRef spec6 w))

/-- The rows' staging buffer holds the point's row block whenever the body is handed it: it is fetched at every point. -/
theorem before6_0_of {c : Dev nD} (dat : Dat τ (Elt F) Unit ℕ (UR sig nD τ) ℕ cfg6 c)
    (hA : dat.A 0 = V c (Pipeline.arrRef spec6 0)) (hafter : ∀ t, dat.after 0 t = iblk6 V c 0 t)
    (t : Fin cfg6.N) (d) : dat.before 0 t d = iblk6 V c 0 t :=
  (dat.before_in_eq_fetched 0 rfl (fun _ => rfl) (fun _ _ _ => rfl)
    (fun t => by rw [hafter]; unfold Dat.blockOf iblk6; rw [hA]; try rfl) t d).trans
    (by unfold Dat.fetched Dat.blockOf iblk6; rw [hA]; try rfl)

/-- The weights' staging buffer holds the whole matrix at every point: fetched once, and the body leaves it in place. -/
theorem before6_1_of {c : Dev nD} (dat : Dat τ (Elt F) Unit ℕ (UR sig nD τ) ℕ cfg6 c)
    (hA : dat.A 1 = V c (Pipeline.arrRef spec6 1)) (hafter : ∀ t, dat.after 1 t = iblk6 V c 1 t)
    (t : Fin cfg6.N) (d) : dat.before 1 t d = iblk6 V c 1 t :=
  (dat.before_in_eq_fetched 1 rfl (fun _ => rfl) (fun _ _ _ => rfl)
    (fun t => by rw [hafter]; unfold Dat.blockOf iblk6; rw [hA]; try rfl) t d).trans
    (by unfold Dat.fetched Dat.blockOf iblk6; rw [hA]; try rfl)

/-- The bias row's staging buffer holds the row at every point, in the same way. -/
theorem before6_2_of {c : Dev nD} (dat : Dat τ (Elt F) Unit ℕ (UR sig nD τ) ℕ cfg6 c)
    (hA : dat.A 2 = V c (Pipeline.arrRef spec6 2)) (hafter : ∀ t, dat.after 2 t = iblk6 V c 2 t)
    (t : Fin cfg6.N) (d) : dat.before 2 t d = iblk6 V c 2 t :=
  (dat.before_in_eq_fetched 2 rfl (fun _ => rfl) (fun _ _ _ => rfl)
    (fun t => by rw [hafter]; unfold Dat.blockOf iblk6; rw [hA]; try rfl) t d).trans
    (by unfold Dat.fetched Dat.blockOf iblk6; rw [hA]; try rfl)

/-! ## What the body reads and writes: each buffer whole -/

abbrev rIn6 : Rect S5000x256 := Rect.unit (s := S5000x256) ![0, 0] S5000x256.size inb_S5000x256_S5000x256_0_0
abbrev rW6 : Rect S256x64 := Rect.unit (s := S256x64) ![0, 0] S256x64.size inb_S256x64_S256x64_0_0
abbrev rB6 : Rect S1x64 := Rect.unit (s := S1x64) ![0, 0] S1x64.size inb_S1x64_S1x64_0_0
abbrev rOut6 : Rect S5000x64 := Rect.unit (s := S5000x64) ![0, 0] S5000x64.size inb_S5000x64_S5000x64_0_0

/-- The output block after the body, as a function of the three input blocks: its one store, of the whole block. -/
def out6_3 (x0 : Vec F S5000x256 .f32) (x1 : Vec F S256x64 .f32) (x2 : Vec F S1x64 .f32) : Vec F S5000x64 .f32 :=
  View.canon [⟨rOut6, k6_pay1 (View.ld x0 rIn6) (View.ld x1 rW6) (View.ld x2 rB6)⟩]

/-- The one store covers the block. -/
theorem cover6_3 (p0 : Vec F S5000x64 .f32) (y : S5000x64.Idx) :
    ∃ pc ∈ ([⟨rOut6, p0⟩] : List (View.Piece (Elt F) S5000x64 .f32)), y ∈ pc.1.set :=
  View.cover_of_tiled [⟨rOut6, p0⟩] S5000x64.size (by rfl) y

/-! ## The body runs -/

set_option maxHeartbeats 1000000 in
/-- On whole staging buffers holding the blocks `x0`, `x1`, `x2` (and anything in the output's), the body terminates
    without a fault, the inputs' buffers as they were and the output's at `out6_3 x0 x1 x2`. -/
theorem sound_kernel6 (c : Dev nD) (E : Set ℕ) (i : grid6.Coords)
    (arg1 : Memref sig .tc .vmem S5000x256 .f32) (harg1 : arg1.IsWhole) (arg2 : Memref sig .tc .vmem S256x64 .f32) (harg2 : arg2.IsWhole)
    (arg3 : Memref sig .tc .vmem S1x64 .f32) (harg3 : arg3.IsWhole) (arg4 : Memref sig .tc .vmem S5000x64 .f32) (harg4 : arg4.IsWhole)
    (x0 : Vec F S5000x256 .f32) (x1 : Vec F S256x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out6_3 x0 x1 x2)) -∗ K ⟨⟩))
      ⊢ wp frame (wpE (defs₀ (F := F)) Variants.none c none) E (cc6__linear_kernel i arg1 harg1 arg2 harg2 arg3 harg3 arg4 harg4) K := by
  simp only [cc6__linear_kernel_eq_skeleton]; unfold cc6__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover6_3 _)

/-! ## The data of the launch -/

/-- On core `c`: the arrays as the region finds them; after the body at point `t` each input's buffer at its block and the
    output's at the function of the input blocks; nothing owed, full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6_3 (iblk6 V c 0 t) (iblk6 V c 1 t) (iblk6 V c 2 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) :
    (dat6 V c).after 3 t = out6_3 (iblk6 V c 0 t) (iblk6 V c 1 t) (iblk6 V c 2 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d

/-! ## The body at a grid point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t))

/-- The body at any point: the inputs' buffers hold their blocks, so the body's run applies; the rest passes through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).Φ t.succ = (dat6 V c).Φ t.castSucc from rfl,
    show (dat6 V c).owesAt () t.succ = (dat6 V c).owesAt () t.castSucc from rfl,
    after6_0, after6_1, after6_2, after6_3]
  iintro ⟨HΦ, Ho, ⟨%d0, H0⟩, ⟨%d1, H1⟩, ⟨%d2, H2⟩, ⟨%d3, H3⟩⟩
  iapply (sound_kernel6 c Set.univ _ _ _ _ _ _ _ _ _ (iblk6 V c 0 t) (iblk6 V c 1 t) (iblk6 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The launch theorem's obligation for the body, at every point. -/
theorem body_obligation6 (c : Dev nD) : BodyObligation (dat6 (F := F) V c) (defs₀ (F := F)) Variants.none () Set.univ := fun t => by
  rw [bigSep_W6, bigSep_W6]
  exact sound_body6 V c t

end Cert.KernelIdeal.Regs

end
-- ==== Proof.Ideal.Run.lean ====
/-
  The whole program as a run.  @main is sixteen items: three stretches of host operations, then seven kernel regions
  with a stretch of host operations between consecutive ones.  The contents of the unscoped buffers are followed from
  the launch memory through the items: a host stretch applies its operations; a region leaves every buffer as it found
  it except its output array, which ends at what the grid's write-backs leave.

  Proved here, for any float instance: every weakly fair execution of @main from any memory with zero counters
  terminates, nothing faulting, and every unscoped buffer ends at the last contents of that chain.  No host operation
  and no region writes an argument array, so each argument is read back through the chain to its launch contents:
  that is the frame claim; the result array's last contents are what the value claim reads.
-/
import proofs.«163322_j18580028523179_1_alg».proof.Proof.Ideal.Region0
import proofs.«163322_j18580028523179_1_alg».proof.Proof.Ideal.Region1
import proofs.«163322_j18580028523179_1_alg».proof.Proof.Ideal.Region2
import proofs.«163322_j18580028523179_1_alg».proof.Proof.Ideal.Region3
import proofs.«163322_j18580028523179_1_alg».proof.Proof.Ideal.Region4
import proofs.«163322_j18580028523179_1_alg».proof.Proof.Ideal.Region5
import proofs.«163322_j18580028523179_1_alg».proof.Proof.Ideal.Region6
import proofs.«163322_j18580028523179_1_alg».proof.Proof.Gen.KernelIdeal.Regions

set_option maxRecDepth 16384

noncomputable section

namespace Cert.KernelIdeal.Regs

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffer contents at each boundary between items -/

/-- The buffers when region 0 is entered: the launch memory after the three host stretches before it. -/
abbrev Wi0 : Dev nD → Valuation τ sig (Elt F) := fun c => Gen.V3 m c
/-- The same, read at the TensorCore's references. -/
abbrev Ri0 : (c : Dev nD) → (b : Ref sig .tc) → Buf (Elt F) ((c : Thread nD τ).loc b) := fun c b => Wi0 m c b
/-- The buffers when region 0 is left: its arrays at what the write-backs leave (the inputs as entered, the output's blocks
    folded over the grid), every other buffer as entered. -/
def Wo0 (c : Dev nD) : Valuation τ sig (Elt F) :=
  Pipeline.withArrays spec0 c (Wi0 m c) fun w => (dat0 (Ri0 m) c).arrAt w cfg0.N
theorem Wo0_arr (c : Dev nD) (w : Fin cfg0.W) :
    Wo0 m c (Proc.devRef .tc (Pipeline.arrRef spec0 w)) = (dat0 (Ri0 m) c).arrAt w cfg0.N := by
  unfold Wo0; exact Pipeline.withArrays_arr spec0 launch0.win.arr_inj c _ _ w
theorem Wo0_of_ne (c : Dev nD) (b : Ref sig .tc) (hb : ∀ w, Pipeline.arrRef spec0 w ≠ b) :
    Wo0 m c (Proc.devRef .tc b) = Wi0 m c (Proc.devRef .tc b) := by
  unfold Wo0; exact Pipeline.withArrays_of_ne spec0 c _ _ b hb
/-- An input window's array is left as entered. -/
theorem Wo0_in (c : Dev nD) (w : Fin cfg0.W) (hw : (cfg0.win w).isOut = false) :
    Wo0 m c (Proc.devRef .tc (Pipeline.arrRef spec0 w)) = Wi0 m c (Proc.devRef .tc (Pipeline.arrRef spec0 w)) :=
  (Wo0_arr m c w).trans (((dat0 (Ri0 m) c).arrAt_in w hw _).trans (A_eq0 (Ri0 m) c w))
abbrev Ro0 : (c : Dev nD) → (b : Ref sig .tc) → Buf (Elt F) ((c : Thread nD τ).loc b) := fun c b => Wo0 m c b
theorem hF0 (c : Dev nD) (w : Fin cfg0.W) : (dat0 (Ri0 m) c).arrAt w cfg0.N = Ro0 m c (Pipeline.arrRef spec0 w) :=
  (Wo0_arr m c w).symm
theorem hrest0 (c : Dev nD) : ∀ b, b ∉ Finset.univ.image (Pipeline.arrRef spec0) → Ro0 m c b = Ri0 m c b :=
  fun b hb => Wo0_of_ne m c b fun w e => hb (Finset.mem_image.mpr ⟨w, Finset.mem_univ _, e⟩)
/-- The buffers when region 1 is entered: the host stretch between the two regions applied. -/
abbrev Wi1 : Dev nD → Valuation τ sig (Elt F) := fun c => StableHlo.after hostOps1 (Wo0 m c)
/-- The same, read at the TensorCore's references. -/
abbrev Ri1 : (c : Dev nD) → (b : Ref sig .tc) → Buf (Elt F) ((c : Thread nD τ).loc b) := fun c b => Wi1 m c b
/-- The buffers when region 1 is left: its arrays at what the write-backs leave (the inputs as entered, the output's blocks
    folded over the grid), every other buffer as entered. -/
def Wo1 (c : Dev nD) : Valuation τ sig (Elt F) :=
  Pipeline.withArrays spec1 c (Wi1 m c) fun w => (dat1 (Ri1 m) c).arrAt w cfg1.N
theorem Wo1_arr (c : Dev nD) (w : Fin cfg1.W) :
    Wo1 m c (Proc.devRef .tc (Pipeline.arrRef spec1 w)) = (dat1 (Ri1 m) c).arrAt w cfg1.N := by
  unfold Wo1; exact Pipeline.withArrays_arr spec1 launch1.win.arr_inj c _ _ w
theorem Wo1_of_ne (c : Dev nD) (b : Ref sig .tc) (hb : ∀ w, Pipeline.arrRef spec1 w ≠ b) :
    Wo1 m c (Proc.devRef .tc b) = Wi1 m c (Proc.devRef .tc b) := by
  unfold Wo1; exact Pipeline.withArrays_of_ne spec1 c _ _ b hb
/-- An input window's array is left as entered. -/
theorem Wo1_in (c : Dev nD) (w : Fin cfg1.W) (hw : (cfg1.win w).isOut = false) :
    Wo1 m c (Proc.devRef .tc (Pipeline.arrRef spec1 w)) = Wi1 m c (Proc.devRef .tc (Pipeline.arrRef spec1 w)) :=
  (Wo1_arr m c w).trans (((dat1 (Ri1 m) c).arrAt_in w hw _).trans (A_eq1 (Ri1 m) c w))
abbrev Ro1 : (c : Dev nD) → (b : Ref sig .tc) → Buf (Elt F) ((c : Thread nD τ).loc b) := fun c b => Wo1 m c b
theorem hF1 (c : Dev nD) (w : Fin cfg1.W) : (dat1 (Ri1 m) c).arrAt w cfg1.N = Ro1 m c (Pipeline.arrRef spec1 w) :=
  (Wo1_arr m c w).symm
theorem hrest1 (c : Dev nD) : ∀ b, b ∉ Finset.univ.image (Pipeline.arrRef spec1) → Ro1 m c b = Ri1 m c b :=
  fun b hb => Wo1_of_ne m c b fun w e => hb (Finset.mem_image.mpr ⟨w, Finset.mem_univ _, e⟩)
/-- The buffers when region 2 is entered: the host stretch between the two regions applied. -/
abbrev Wi2 : Dev nD → Valuation τ sig (Elt F) := fun c => StableHlo.after hostOps2 (Wo1 m c)
/-- The same, read at the TensorCore's references. -/
abbrev Ri2 : (c : Dev nD) → (b : Ref sig .tc) → Buf (Elt F) ((c : Thread nD τ).loc b) := fun c b => Wi2 m c b
/-- The buffers when region 2 is left: its arrays at what the write-backs leave (the inputs as entered, the output's blocks
    folded over the grid), every other buffer as entered. -/
def Wo2 (c : Dev nD) : Valuation τ sig (Elt F) :=
  Pipeline.withArrays spec2 c (Wi2 m c) fun w => (dat2 (Ri2 m) c).arrAt w cfg2.N
theorem Wo2_arr (c : Dev nD) (w : Fin cfg2.W) :
    Wo2 m c (Proc.devRef .tc (Pipeline.arrRef spec2 w)) = (dat2 (Ri2 m) c).arrAt w cfg2.N := by
  unfold Wo2; exact Pipeline.withArrays_arr spec2 launch2.win.arr_inj c _ _ w
theorem Wo2_of_ne (c : Dev nD) (b : Ref sig .tc) (hb : ∀ w, Pipeline.arrRef spec2 w ≠ b) :
    Wo2 m c (Proc.devRef .tc b) = Wi2 m c (Proc.devRef .tc b) := by
  unfold Wo2; exact Pipeline.withArrays_of_ne spec2 c _ _ b hb
/-- An input window's array is left as entered. -/
theorem Wo2_in (c : Dev nD) (w : Fin cfg2.W) (hw : (cfg2.win w).isOut = false) :
    Wo2 m c (Proc.devRef .tc (Pipeline.arrRef spec2 w)) = Wi2 m c (Proc.devRef .tc (Pipeline.arrRef spec2 w)) :=
  (Wo2_arr m c w).trans (((dat2 (Ri2 m) c).arrAt_in w hw _).trans (A_eq2 (Ri2 m) c w))
abbrev Ro2 : (c : Dev nD) → (b : Ref sig .tc) → Buf (Elt F) ((c : Thread nD τ).loc b) := fun c b => Wo2 m c b
theorem hF2 (c : Dev nD) (w : Fin cfg2.W) : (dat2 (Ri2 m) c).arrAt w cfg2.N = Ro2 m c (Pipeline.arrRef spec2 w) :=
  (Wo2_arr m c w).symm
theorem hrest2 (c : Dev nD) : ∀ b, b ∉ Finset.univ.image (Pipeline.arrRef spec2) → Ro2 m c b = Ri2 m c b :=
  fun b hb => Wo2_of_ne m c b fun w e => hb (Finset.mem_image.mpr ⟨w, Finset.mem_univ _, e⟩)
/-- The buffers when region 3 is entered: the host stretch between the two regions applied. -/
abbrev Wi3 : Dev nD → Valuation τ sig (Elt F) := fun c => StableHlo.after hostOps3 (Wo2 m c)
/-- The same, read at the TensorCore's references. -/
abbrev Ri3 : (c : Dev nD) → (b : Ref sig .tc) → Buf (Elt F) ((c : Thread nD τ).loc b) := fun c b => Wi3 m c b
/-- The buffers when region 3 is left: its arrays at what the write-backs leave (the inputs as entered, the output's blocks
    folded over the grid), every other buffer as entered. -/
def Wo3 (c : Dev nD) : Valuation τ sig (Elt F) :=
  Pipeline.withArrays spec3 c (Wi3 m c) fun w => (dat3 (Ri3 m) c).arrAt w cfg3.N
theorem Wo3_arr (c : Dev nD) (w : Fin cfg3.W) :
    Wo3 m c (Proc.devRef .tc (Pipeline.arrRef spec3 w)) = (dat3 (Ri3 m) c).arrAt w cfg3.N := by
  unfold Wo3; exact Pipeline.withArrays_arr spec3 launch3.win.arr_inj c _ _ w
theorem Wo3_of_ne (c : Dev nD) (b : Ref sig .tc) (hb : ∀ w, Pipeline.arrRef spec3 w ≠ b) :
    Wo3 m c (Proc.devRef .tc b) = Wi3 m c (Proc.devRef .tc b) := by
  unfold Wo3; exact Pipeline.withArrays_of_ne spec3 c _ _ b hb
/-- An input window's array is left as entered. -/
theorem Wo3_in (c : Dev nD) (w : Fin cfg3.W) (hw : (cfg3.win w).isOut = false) :
    Wo3 m c (Proc.devRef .tc (Pipeline.arrRef spec3 w)) = Wi3 m c (Proc.devRef .tc (Pipeline.arrRef spec3 w)) :=
  (Wo3_arr m c w).trans (((dat3 (Ri3 m) c).arrAt_in w hw _).trans (A_eq3 (Ri3 m) c w))
abbrev Ro3 : (c : Dev nD) → (b : Ref sig .tc) → Buf (Elt F) ((c : Thread nD τ).loc b) := fun c b => Wo3 m c b
theorem hF3 (c : Dev nD) (w : Fin cfg3.W) : (dat3 (Ri3 m) c).arrAt w cfg3.N = Ro3 m c (Pipeline.arrRef spec3 w) :=
  (Wo3_arr m c w).symm
theorem hrest3 (c : Dev nD) : ∀ b, b ∉ Finset.univ.image (Pipeline.arrRef spec3) → Ro3 m c b = Ri3 m c b :=
  fun b hb => Wo3_of_ne m c b fun w e => hb (Finset.mem_image.mpr ⟨w, Finset.mem_univ _, e⟩)
/-- The buffers when region 4 is entered: the host stretch between the two regions applied. -/
abbrev Wi4 : Dev nD → Valuation τ sig (Elt F) := fun c => StableHlo.after hostOps4 (Wo3 m c)
/-- The same, read at the TensorCore's references. -/
abbrev Ri4 : (c : Dev nD) → (b : Ref sig .tc) → Buf (Elt F) ((c : Thread nD τ).loc b) := fun c b => Wi4 m c b
/-- The buffers when region 4 is left: its arrays at what the write-backs leave (the inputs as entered, the output's blocks
    folded over the grid), every other buffer as entered. -/
def Wo4 (c : Dev nD) : Valuation τ sig (Elt F) :=
  Pipeline.withArrays spec4 c (Wi4 m c) fun w => (dat4 (Ri4 m) c).arrAt w cfg4.N
theorem Wo4_arr (c : Dev nD) (w : Fin cfg4.W) :
    Wo4 m c (Proc.devRef .tc (Pipeline.arrRef spec4 w)) = (dat4 (Ri4 m) c).arrAt w cfg4.N := by
  unfold Wo4; exact Pipeline.withArrays_arr spec4 launch4.win.arr_inj c _ _ w
theorem Wo4_of_ne (c : Dev nD) (b : Ref sig .tc) (hb : ∀ w, Pipeline.arrRef spec4 w ≠ b) :
    Wo4 m c (Proc.devRef .tc b) = Wi4 m c (Proc.devRef .tc b) := by
  unfold Wo4; exact Pipeline.withArrays_of_ne spec4 c _ _ b hb
/-- An input window's array is left as entered. -/
theorem Wo4_in (c : Dev nD) (w : Fin cfg4.W) (hw : (cfg4.win w).isOut = false) :
    Wo4 m c (Proc.devRef .tc (Pipeline.arrRef spec4 w)) = Wi4 m c (Proc.devRef .tc (Pipeline.arrRef spec4 w)) :=
  (Wo4_arr m c w).trans (((dat4 (Ri4 m) c).arrAt_in w hw _).trans (A_eq4 (Ri4 m) c w))
abbrev Ro4 : (c : Dev nD) → (b : Ref sig .tc) → Buf (Elt F) ((c : Thread nD τ).loc b) := fun c b => Wo4 m c b
theorem hF4 (c : Dev nD) (w : Fin cfg4.W) : (dat4 (Ri4 m) c).arrAt w cfg4.N = Ro4 m c (Pipeline.arrRef spec4 w) :=
  (Wo4_arr m c w).symm
theorem hrest4 (c : Dev nD) : ∀ b, b ∉ Finset.univ.image (Pipeline.arrRef spec4) → Ro4 m c b = Ri4 m c b :=
  fun b hb => Wo4_of_ne m c b fun w e => hb (Finset.mem_image.mpr ⟨w, Finset.mem_univ _, e⟩)
/-- The buffers when region 5 is entered: the host stretch between the two regions applied. -/
abbrev Wi5 : Dev nD → Valuation τ sig (Elt F) := fun c => StableHlo.after hostOps5 (Wo4 m c)
/-- The same, read at the TensorCore's references. -/
abbrev Ri5 : (c : Dev nD) → (b : Ref sig .tc) → Buf (Elt F) ((c : Thread nD τ).loc b) := fun c b => Wi5 m c b
/-- The buffers when region 5 is left: its arrays at what the write-backs leave (the inputs as entered, the output's blocks
    folded over the grid), every other buffer as entered. -/
def Wo5 (c : Dev nD) : Valuation τ sig (Elt F) :=
  Pipeline.withArrays spec5 c (Wi5 m c) fun w => (dat5 (Ri5 m) c).arrAt w cfg5.N
theorem Wo5_arr (c : Dev nD) (w : Fin cfg5.W) :
    Wo5 m c (Proc.devRef .tc (Pipeline.arrRef spec5 w)) = (dat5 (Ri5 m) c).arrAt w cfg5.N := by
  unfold Wo5; exact Pipeline.withArrays_arr spec5 launch5.win.arr_inj c _ _ w
theorem Wo5_of_ne (c : Dev nD) (b : Ref sig .tc) (hb : ∀ w, Pipeline.arrRef spec5 w ≠ b) :
    Wo5 m c (Proc.devRef .tc b) = Wi5 m c (Proc.devRef .tc b) := by
  unfold Wo5; exact Pipeline.withArrays_of_ne spec5 c _ _ b hb
/-- An input window's array is left as entered. -/
theorem Wo5_in (c : Dev nD) (w : Fin cfg5.W) (hw : (cfg5.win w).isOut = false) :
    Wo5 m c (Proc.devRef .tc (Pipeline.arrRef spec5 w)) = Wi5 m c (Proc.devRef .tc (Pipeline.arrRef spec5 w)) :=
  (Wo5_arr m c w).trans (((dat5 (Ri5 m) c).arrAt_in w hw _).trans (A_eq5 (Ri5 m) c w))
abbrev Ro5 : (c : Dev nD) → (b : Ref sig .tc) → Buf (Elt F) ((c : Thread nD τ).loc b) := fun c b => Wo5 m c b
theorem hF5 (c : Dev nD) (w : Fin cfg5.W) : (dat5 (Ri5 m) c).arrAt w cfg5.N = Ro5 m c (Pipeline.arrRef spec5 w) :=
  (Wo5_arr m c w).symm
theorem hrest5 (c : Dev nD) : ∀ b, b ∉ Finset.univ.image (Pipeline.arrRef spec5) → Ro5 m c b = Ri5 m c b :=
  fun b hb => Wo5_of_ne m c b fun w e => hb (Finset.mem_image.mpr ⟨w, Finset.mem_univ _, e⟩)
/-- The buffers when region 6 is entered: the host stretch between the two regions applied. -/
abbrev Wi6 : Dev nD → Valuation τ sig (Elt F) := fun c => StableHlo.after hostOps6 (Wo5 m c)
/-- The same, read at the TensorCore's references. -/
abbrev Ri6 : (c : Dev nD) → (b : Ref sig .tc) → Buf (Elt F) ((c : Thread nD τ).loc b) := fun c b => Wi6 m c b
/-- The buffers when region 6 is left: its arrays at what the write-backs leave (the inputs as entered, the output's blocks
    folded over the grid), every other buffer as entered. -/
def Wo6 (c : Dev nD) : Valuation τ sig (Elt F) :=
  Pipeline.withArrays spec6 c (Wi6 m c) fun w => (dat6 (Ri6 m) c).arrAt w cfg6.N
theorem Wo6_arr (c : Dev nD) (w : Fin cfg6.W) :
    Wo6 m c (Proc.devRef .tc (Pipeline.arrRef spec6 w)) = (dat6 (Ri6 m) c).arrAt w cfg6.N := by
  unfold Wo6; exact Pipeline.withArrays_arr spec6 launch6.win.arr_inj c _ _ w
theorem Wo6_of_ne (c : Dev nD) (b : Ref sig .tc) (hb : ∀ w, Pipeline.arrRef spec6 w ≠ b) :
    Wo6 m c (Proc.devRef .tc b) = Wi6 m c (Proc.devRef .tc b) := by
  unfold Wo6; exact Pipeline.withArrays_of_ne spec6 c _ _ b hb
/-- An input window's array is left as entered. -/
theorem Wo6_in (c : Dev nD) (w : Fin cfg6.W) (hw : (cfg6.win w).isOut = false) :
    Wo6 m c (Proc.devRef .tc (Pipeline.arrRef spec6 w)) = Wi6 m c (Proc.devRef .tc (Pipeline.arrRef spec6 w)) :=
  (Wo6_arr m c w).trans (((dat6 (Ri6 m) c).arrAt_in w hw _).trans (A_eq6 (Ri6 m) c w))
abbrev Ro6 : (c : Dev nD) → (b : Ref sig .tc) → Buf (Elt F) ((c : Thread nD τ).loc b) := fun c b => Wo6 m c b
theorem hF6 (c : Dev nD) (w : Fin cfg6.W) : (dat6 (Ri6 m) c).arrAt w cfg6.N = Ro6 m c (Pipeline.arrRef spec6 w) :=
  (Wo6_arr m c w).symm
theorem hrest6 (c : Dev nD) : ∀ b, b ∉ Finset.univ.image (Pipeline.arrRef spec6) → Ro6 m c b = Ri6 m c b :=
  fun b hb => Wo6_of_ne m c b fun w e => hb (Finset.mem_image.mpr ⟨w, Finset.mem_univ _, e⟩)

/-! ## No item writes an argument -/

theorem Wo6_main_arg0 (c : Dev nD) : Wo6 m c (Proc.devRef .tc main_arg0) = m ((c : Thread nD τ).loc main_arg0) :=
  calc Wo6 m c (Proc.devRef .tc main_arg0)
    _ = Wi6 m c (Proc.devRef .tc main_arg0) := Wo6_of_ne m c main_arg0 (by decide)
    _ = Wo5 m c (Proc.devRef .tc main_arg0) := StableHlo.after_of_writes_sub hostOps6 _ Gen.hostOps6_writes (by decide)
    _ = Wi5 m c (Proc.devRef .tc main_arg0) := Wo5_of_ne m c main_arg0 (by decide)
    _ = Wo4 m c (Proc.devRef .tc main_arg0) := StableHlo.after_of_writes_sub hostOps5 _ Gen.hostOps5_writes (by decide)
    _ = Wi4 m c (Proc.devRef .tc main_arg0) := Wo4_of_ne m c main_arg0 (by decide)
    _ = Wo3 m c (Proc.devRef .tc main_arg0) := StableHlo.after_of_writes_sub hostOps4 _ Gen.hostOps4_writes (by decide)
    _ = Wi3 m c (Proc.devRef .tc main_arg0) := Wo3_of_ne m c main_arg0 (by decide)
    _ = Wo2 m c (Proc.devRef .tc main_arg0) := StableHlo.after_of_writes_sub hostOps3 _ Gen.hostOps3_writes (by decide)
    _ = Wi2 m c (Proc.devRef .tc main_arg0) := Wo2_of_ne m c main_arg0 (by decide)
    _ = Wo1 m c (Proc.devRef .tc main_arg0) := StableHlo.after_of_writes_sub hostOps2 _ Gen.hostOps2_writes (by decide)
    _ = Wi1 m c (Proc.devRef .tc main_arg0) := Wo1_of_ne m c main_arg0 (by decide)
    _ = Wo0 m c (Proc.devRef .tc main_arg0) := StableHlo.after_of_writes_sub hostOps1 _ Gen.hostOps1_writes (by decide)
    _ = Wi0 m c (Proc.devRef .tc main_arg0) := Wo0_in m c 0 rfl
    _ = Gen.V2 m c (Proc.devRef .tc main_arg0) := Gen.V3_of m c main_arg0 (by decide)
    _ = Gen.V1 m c (Proc.devRef .tc main_arg0) := Gen.V2_of m c main_arg0 (by decide)
    _ = Gen.V0 m c (Proc.devRef .tc main_arg0) := Gen.V1_of m c main_arg0 (by decide)
    _ = m ((c : Thread nD τ).loc main_arg0) := rfl

theorem Wo6_main_arg1 (c : Dev nD) : Wo6 m c (Proc.devRef .tc main_arg1) = m ((c : Thread nD τ).loc main_arg1) :=
  calc Wo6 m c (Proc.devRef .tc main_arg1)
    _ = Wi6 m c (Proc.devRef .tc main_arg1) := Wo6_of_ne m c main_arg1 (by decide)
    _ = Wo5 m c (Proc.devRef .tc main_arg1) := StableHlo.after_of_writes_sub hostOps6 _ Gen.hostOps6_writes (by decide)
    _ = Wi5 m c (Proc.devRef .tc main_arg1) := Wo5_of_ne m c main_arg1 (by decide)
    _ = Wo4 m c (Proc.devRef .tc main_arg1) := StableHlo.after_of_writes_sub hostOps5 _ Gen.hostOps5_writes (by decide)
    _ = Wi4 m c (Proc.devRef .tc main_arg1) := Wo4_of_ne m c main_arg1 (by decide)
    _ = Wo3 m c (Proc.devRef .tc main_arg1) := StableHlo.after_of_writes_sub hostOps4 _ Gen.hostOps4_writes (by decide)
    _ = Wi3 m c (Proc.devRef .tc main_arg1) := Wo3_of_ne m c main_arg1 (by decide)
    _ = Wo2 m c (Proc.devRef .tc main_arg1) := StableHlo.after_of_writes_sub hostOps3 _ Gen.hostOps3_writes (by decide)
    _ = Wi2 m c (Proc.devRef .tc main_arg1) := Wo2_of_ne m c main_arg1 (by decide)
    _ = Wo1 m c (Proc.devRef .tc main_arg1) := StableHlo.after_of_writes_sub hostOps2 _ Gen.hostOps2_writes (by decide)
    _ = Wi1 m c (Proc.devRef .tc main_arg1) := Wo1_of_ne m c main_arg1 (by decide)
    _ = Wo0 m c (Proc.devRef .tc main_arg1) := StableHlo.after_of_writes_sub hostOps1 _ Gen.hostOps1_writes (by decide)
    _ = Wi0 m c (Proc.devRef .tc main_arg1) := Wo0_of_ne m c main_arg1 (by decide)
    _ = Gen.V2 m c (Proc.devRef .tc main_arg1) := Gen.V3_of m c main_arg1 (by decide)
    _ = Gen.V1 m c (Proc.devRef .tc main_arg1) := Gen.V2_of m c main_arg1 (by decide)
    _ = Gen.V0 m c (Proc.devRef .tc main_arg1) := Gen.V1_of m c main_arg1 (by decide)
    _ = m ((c : Thread nD τ).loc main_arg1) := rfl

theorem Wo6_main_arg2 (c : Dev nD) : Wo6 m c (Proc.devRef .tc main_arg2) = m ((c : Thread nD τ).loc main_arg2) :=
  calc Wo6 m c (Proc.devRef .tc main_arg2)
    _ = Wi6 m c (Proc.devRef .tc main_arg2) := Wo6_of_ne m c main_arg2 (by decide)
    _ = Wo5 m c (Proc.devRef .tc main_arg2) := StableHlo.after_of_writes_sub hostOps6 _ Gen.hostOps6_writes (by decide)
    _ = Wi5 m c (Proc.devRef .tc main_arg2) := Wo5_of_ne m c main_arg2 (by decide)
    _ = Wo4 m c (Proc.devRef .tc main_arg2) := StableHlo.after_of_writes_sub hostOps5 _ Gen.hostOps5_writes (by decide)
    _ = Wi4 m c (Proc.devRef .tc main_arg2) := Wo4_of_ne m c main_arg2 (by decide)
    _ = Wo3 m c (Proc.devRef .tc main_arg2) := StableHlo.after_of_writes_sub hostOps4 _ Gen.hostOps4_writes (by decide)
    _ = Wi3 m c (Proc.devRef .tc main_arg2) := Wo3_of_ne m c main_arg2 (by decide)
    _ = Wo2 m c (Proc.devRef .tc main_arg2) := StableHlo.after_of_writes_sub hostOps3 _ Gen.hostOps3_writes (by decide)
    _ = Wi2 m c (Proc.devRef .tc main_arg2) := Wo2_of_ne m c main_arg2 (by decide)
    _ = Wo1 m c (Proc.devRef .tc main_arg2) := StableHlo.after_of_writes_sub hostOps2 _ Gen.hostOps2_writes (by decide)
    _ = Wi1 m c (Proc.devRef .tc main_arg2) := Wo1_of_ne m c main_arg2 (by decide)
    _ = Wo0 m c (Proc.devRef .tc main_arg2) := StableHlo.after_of_writes_sub hostOps1 _ Gen.hostOps1_writes (by decide)
    _ = Wi0 m c (Proc.devRef .tc main_arg2) := Wo0_of_ne m c main_arg2 (by decide)
    _ = Gen.V2 m c (Proc.devRef .tc main_arg2) := Gen.V3_of m c main_arg2 (by decide)
    _ = Gen.V1 m c (Proc.devRef .tc main_arg2) := Gen.V2_of m c main_arg2 (by decide)
    _ = Gen.V0 m c (Proc.devRef .tc main_arg2) := Gen.V1_of m c main_arg2 (by decide)
    _ = m ((c : Thread nD τ).loc main_arg2) := rfl

theorem Wo6_main_arg3 (c : Dev nD) : Wo6 m c (Proc.devRef .tc main_arg3) = m ((c : Thread nD τ).loc main_arg3) :=
  calc Wo6 m c (Proc.devRef .tc main_arg3)
    _ = Wi6 m c (Proc.devRef .tc main_arg3) := Wo6_of_ne m c main_arg3 (by decide)
    _ = Wo5 m c (Proc.devRef .tc main_arg3) := StableHlo.after_of_writes_sub hostOps6 _ Gen.hostOps6_writes (by decide)
    _ = Wi5 m c (Proc.devRef .tc main_arg3) := Wo5_of_ne m c main_arg3 (by decide)
    _ = Wo4 m c (Proc.devRef .tc main_arg3) := StableHlo.after_of_writes_sub hostOps5 _ Gen.hostOps5_writes (by decide)
    _ = Wi4 m c (Proc.devRef .tc main_arg3) := Wo4_of_ne m c main_arg3 (by decide)
    _ = Wo3 m c (Proc.devRef .tc main_arg3) := StableHlo.after_of_writes_sub hostOps4 _ Gen.hostOps4_writes (by decide)
    _ = Wi3 m c (Proc.devRef .tc main_arg3) := Wo3_of_ne m c main_arg3 (by decide)
    _ = Wo2 m c (Proc.devRef .tc main_arg3) := StableHlo.after_of_writes_sub hostOps3 _ Gen.hostOps3_writes (by decide)
    _ = Wi2 m c (Proc.devRef .tc main_arg3) := Wo2_of_ne m c main_arg3 (by decide)
    _ = Wo1 m c (Proc.devRef .tc main_arg3) := StableHlo.after_of_writes_sub hostOps2 _ Gen.hostOps2_writes (by decide)
    _ = Wi1 m c (Proc.devRef .tc main_arg3) := Wo1_of_ne m c main_arg3 (by decide)
    _ = Wo0 m c (Proc.devRef .tc main_arg3) := StableHlo.after_of_writes_sub hostOps1 _ Gen.hostOps1_writes (by decide)
    _ = Wi0 m c (Proc.devRef .tc main_arg3) := Wo0_in m c 1 rfl
    _ = Gen.V2 m c (Proc.devRef .tc main_arg3) := Gen.V3_of m c main_arg3 (by decide)
    _ = Gen.V1 m c (Proc.devRef .tc main_arg3) := Gen.V2_of m c main_arg3 (by decide)
    _ = Gen.V0 m c (Proc.devRef .tc main_arg3) := Gen.V1_of m c main_arg3 (by decide)
    _ = m ((c : Thread nD τ).loc main_arg3) := rfl

theorem Wo6_main_arg4 (c : Dev nD) : Wo6 m c (Proc.devRef .tc main_arg4) = m ((c : Thread nD τ).loc main_arg4) :=
  calc Wo6 m c (Proc.devRef .tc main_arg4)
    _ = Wi6 m c (Proc.devRef .tc main_arg4) := Wo6_of_ne m c main_arg4 (by decide)
    _ = Wo5 m c (Proc.devRef .tc main_arg4) := StableHlo.after_of_writes_sub hostOps6 _ Gen.hostOps6_writes (by decide)
    _ = Wi5 m c (Proc.devRef .tc main_arg4) := Wo5_of_ne m c main_arg4 (by decide)
    _ = Wo4 m c (Proc.devRef .tc main_arg4) := StableHlo.after_of_writes_sub hostOps5 _ Gen.hostOps5_writes (by decide)
    _ = Wi4 m c (Proc.devRef .tc main_arg4) := Wo4_of_ne m c main_arg4 (by decide)
    _ = Wo3 m c (Proc.devRef .tc main_arg4) := StableHlo.after_of_writes_sub hostOps4 _ Gen.hostOps4_writes (by decide)
    _ = Wi3 m c (Proc.devRef .tc main_arg4) := Wo3_of_ne m c main_arg4 (by decide)
    _ = Wo2 m c (Proc.devRef .tc main_arg4) := StableHlo.after_of_writes_sub hostOps3 _ Gen.hostOps3_writes (by decide)
    _ = Wi2 m c (Proc.devRef .tc main_arg4) := Wo2_of_ne m c main_arg4 (by decide)
    _ = Wo1 m c (Proc.devRef .tc main_arg4) := StableHlo.after_of_writes_sub hostOps2 _ Gen.hostOps2_writes (by decide)
    _ = Wi1 m c (Proc.devRef .tc main_arg4) := Wo1_of_ne m c main_arg4 (by decide)
    _ = Wo0 m c (Proc.devRef .tc main_arg4) := StableHlo.after_of_writes_sub hostOps1 _ Gen.hostOps1_writes (by decide)
    _ = Wi0 m c (Proc.devRef .tc main_arg4) := Wo0_of_ne m c main_arg4 (by decide)
    _ = Gen.V2 m c (Proc.devRef .tc main_arg4) := Gen.V3_of m c main_arg4 (by decide)
    _ = Gen.V1 m c (Proc.devRef .tc main_arg4) := Gen.V2_of m c main_arg4 (by decide)
    _ = Gen.V0 m c (Proc.devRef .tc main_arg4) := Gen.V1_of m c main_arg4 (by decide)
    _ = m ((c : Thread nD τ).loc main_arg4) := rfl

theorem Wo6_main_arg5 (c : Dev nD) : Wo6 m c (Proc.devRef .tc main_arg5) = m ((c : Thread nD τ).loc main_arg5) :=
  calc Wo6 m c (Proc.devRef .tc main_arg5)
    _ = Wi6 m c (Proc.devRef .tc main_arg5) := Wo6_of_ne m c main_arg5 (by decide)
    _ = Wo5 m c (Proc.devRef .tc main_arg5) := StableHlo.after_of_writes_sub hostOps6 _ Gen.hostOps6_writes (by decide)
    _ = Wi5 m c (Proc.devRef .tc main_arg5) := Wo5_of_ne m c main_arg5 (by decide)
    _ = Wo4 m c (Proc.devRef .tc main_arg5) := StableHlo.after_of_writes_sub hostOps5 _ Gen.hostOps5_writes (by decide)
    _ = Wi4 m c (Proc.devRef .tc main_arg5) := Wo4_of_ne m c main_arg5 (by decide)
    _ = Wo3 m c (Proc.devRef .tc main_arg5) := StableHlo.after_of_writes_sub hostOps4 _ Gen.hostOps4_writes (by decide)
    _ = Wi3 m c (Proc.devRef .tc main_arg5) := Wo3_of_ne m c main_arg5 (by decide)
    _ = Wo2 m c (Proc.devRef .tc main_arg5) := StableHlo.after_of_writes_sub hostOps3 _ Gen.hostOps3_writes (by decide)
    _ = Wi2 m c (Proc.devRef .tc main_arg5) := Wo2_in m c 1 rfl
    _ = Wo1 m c (Proc.devRef .tc main_arg5) := StableHlo.after_of_writes_sub hostOps2 _ Gen.hostOps2_writes (by decide)
    _ = Wi1 m c (Proc.devRef .tc main_arg5) := Wo1_of_ne m c main_arg5 (by decide)
    _ = Wo0 m c (Proc.devRef .tc main_arg5) := StableHlo.after_of_writes_sub hostOps1 _ Gen.hostOps1_writes (by decide)
    _ = Wi0 m c (Proc.devRef .tc main_arg5) := Wo0_of_ne m c main_arg5 (by decide)
    _ = Gen.V2 m c (Proc.devRef .tc main_arg5) := Gen.V3_of m c main_arg5 (by decide)
    _ = Gen.V1 m c (Proc.devRef .tc main_arg5) := Gen.V2_of m c main_arg5 (by decide)
    _ = Gen.V0 m c (Proc.devRef .tc main_arg5) := Gen.V1_of m c main_arg5 (by decide)
    _ = m ((c : Thread nD τ).loc main_arg5) := rfl

theorem Wo6_main_arg6 (c : Dev nD) : Wo6 m c (Proc.devRef .tc main_arg6) = m ((c : Thread nD τ).loc main_arg6) :=
  calc Wo6 m c (Proc.devRef .tc main_arg6)
    _ = Wi6 m c (Proc.devRef .tc main_arg6) := Wo6_of_ne m c main_arg6 (by decide)
    _ = Wo5 m c (Proc.devRef .tc main_arg6) := StableHlo.after_of_writes_sub hostOps6 _ Gen.hostOps6_writes (by decide)
    _ = Wi5 m c (Proc.devRef .tc main_arg6) := Wo5_of_ne m c main_arg6 (by decide)
    _ = Wo4 m c (Proc.devRef .tc main_arg6) := StableHlo.after_of_writes_sub hostOps5 _ Gen.hostOps5_writes (by decide)
    _ = Wi4 m c (Proc.devRef .tc main_arg6) := Wo4_of_ne m c main_arg6 (by decide)
    _ = Wo3 m c (Proc.devRef .tc main_arg6) := StableHlo.after_of_writes_sub hostOps4 _ Gen.hostOps4_writes (by decide)
    _ = Wi3 m c (Proc.devRef .tc main_arg6) := Wo3_of_ne m c main_arg6 (by decide)
    _ = Wo2 m c (Proc.devRef .tc main_arg6) := StableHlo.after_of_writes_sub hostOps3 _ Gen.hostOps3_writes (by decide)
    _ = Wi2 m c (Proc.devRef .tc main_arg6) := Wo2_of_ne m c main_arg6 (by decide)
    _ = Wo1 m c (Proc.devRef .tc main_arg6) := StableHlo.after_of_writes_sub hostOps2 _ Gen.hostOps2_writes (by decide)
    _ = Wi1 m c (Proc.devRef .tc main_arg6) := Wo1_of_ne m c main_arg6 (by decide)
    _ = Wo0 m c (Proc.devRef .tc main_arg6) := StableHlo.after_of_writes_sub hostOps1 _ Gen.hostOps1_writes (by decide)
    _ = Wi0 m c (Proc.devRef .tc main_arg6) := Wo0_of_ne m c main_arg6 (by decide)
    _ = Gen.V2 m c (Proc.devRef .tc main_arg6) := Gen.V3_of m c main_arg6 (by decide)
    _ = Gen.V1 m c (Proc.devRef .tc main_arg6) := Gen.V2_of m c main_arg6 (by decide)
    _ = Gen.V0 m c (Proc.devRef .tc main_arg6) := Gen.V1_of m c main_arg6 (by decide)
    _ = m ((c : Thread nD τ).loc main_arg6) := rfl

theorem Wo6_main_arg7 (c : Dev nD) : Wo6 m c (Proc.devRef .tc main_arg7) = m ((c : Thread nD τ).loc main_arg7) :=
  calc Wo6 m c (Proc.devRef .tc main_arg7)
    _ = Wi6 m c (Proc.devRef .tc main_arg7) := Wo6_of_ne m c main_arg7 (by decide)
    _ = Wo5 m c (Proc.devRef .tc main_arg7) := StableHlo.after_of_writes_sub hostOps6 _ Gen.hostOps6_writes (by decide)
    _ = Wi5 m c (Proc.devRef .tc main_arg7) := Wo5_of_ne m c main_arg7 (by decide)
    _ = Wo4 m c (Proc.devRef .tc main_arg7) := StableHlo.after_of_writes_sub hostOps5 _ Gen.hostOps5_writes (by decide)
    _ = Wi4 m c (Proc.devRef .tc main_arg7) := Wo4_in m c 1 rfl
    _ = Wo3 m c (Proc.devRef .tc main_arg7) := StableHlo.after_of_writes_sub hostOps4 _ Gen.hostOps4_writes (by decide)
    _ = Wi3 m c (Proc.devRef .tc main_arg7) := Wo3_of_ne m c main_arg7 (by decide)
    _ = Wo2 m c (Proc.devRef .tc main_arg7) := StableHlo.after_of_writes_sub hostOps3 _ Gen.hostOps3_writes (by decide)
    _ = Wi2 m c (Proc.devRef .tc main_arg7) := Wo2_of_ne m c main_arg7 (by decide)
    _ = Wo1 m c (Proc.devRef .tc main_arg7) := StableHlo.after_of_writes_sub hostOps2 _ Gen.hostOps2_writes (by decide)
    _ = Wi1 m c (Proc.devRef .tc main_arg7) := Wo1_of_ne m c main_arg7 (by decide)
    _ = Wo0 m c (Proc.devRef .tc main_arg7) := StableHlo.after_of_writes_sub hostOps1 _ Gen.hostOps1_writes (by decide)
    _ = Wi0 m c (Proc.devRef .tc main_arg7) := Wo0_of_ne m c main_arg7 (by decide)
    _ = Gen.V2 m c (Proc.devRef .tc main_arg7) := Gen.V3_of m c main_arg7 (by decide)
    _ = Gen.V1 m c (Proc.devRef .tc main_arg7) := Gen.V2_of m c main_arg7 (by decide)
    _ = Gen.V0 m c (Proc.devRef .tc main_arg7) := Gen.V1_of m c main_arg7 (by decide)
    _ = m ((c : Thread nD τ).loc main_arg7) := rfl

theorem Wo6_main_arg8 (c : Dev nD) : Wo6 m c (Proc.devRef .tc main_arg8) = m ((c : Thread nD τ).loc main_arg8) :=
  calc Wo6 m c (Proc.devRef .tc main_arg8)
    _ = Wi6 m c (Proc.devRef .tc main_arg8) := Wo6_of_ne m c main_arg8 (by decide)
    _ = Wo5 m c (Proc.devRef .tc main_arg8) := StableHlo.after_of_writes_sub hostOps6 _ Gen.hostOps6_writes (by decide)
    _ = Wi5 m c (Proc.devRef .tc main_arg8) := Wo5_of_ne m c main_arg8 (by decide)
    _ = Wo4 m c (Proc.devRef .tc main_arg8) := StableHlo.after_of_writes_sub hostOps5 _ Gen.hostOps5_writes (by decide)
    _ = Wi4 m c (Proc.devRef .tc main_arg8) := Wo4_of_ne m c main_arg8 (by decide)
    _ = Wo3 m c (Proc.devRef .tc main_arg8) := StableHlo.after_of_writes_sub hostOps4 _ Gen.hostOps4_writes (by decide)
    _ = Wi3 m c (Proc.devRef .tc main_arg8) := Wo3_of_ne m c main_arg8 (by decide)
    _ = Wo2 m c (Proc.devRef .tc main_arg8) := StableHlo.after_of_writes_sub hostOps3 _ Gen.hostOps3_writes (by decide)
    _ = Wi2 m c (Proc.devRef .tc main_arg8) := Wo2_of_ne m c main_arg8 (by decide)
    _ = Wo1 m c (Proc.devRef .tc main_arg8) := StableHlo.after_of_writes_sub hostOps2 _ Gen.hostOps2_writes (by decide)
    _ = Wi1 m c (Proc.devRef .tc main_arg8) := Wo1_of_ne m c main_arg8 (by decide)
    _ = Wo0 m c (Proc.devRef .tc main_arg8) := StableHlo.after_of_writes_sub hostOps1 _ Gen.hostOps1_writes (by decide)
    _ = Wi0 m c (Proc.devRef .tc main_arg8) := Wo0_of_ne m c main_arg8 (by decide)
    _ = Gen.V2 m c (Proc.devRef .tc main_arg8) := Gen.V3_of m c main_arg8 (by decide)
    _ = Gen.V1 m c (Proc.devRef .tc main_arg8) := Gen.V2_of m c main_arg8 (by decide)
    _ = Gen.V0 m c (Proc.devRef .tc main_arg8) := Gen.V1_of m c main_arg8 (by decide)
    _ = m ((c : Thread nD τ).loc main_arg8) := rfl

theorem Wo6_main_arg9 (c : Dev nD) : Wo6 m c (Proc.devRef .tc main_arg9) = m ((c : Thread nD τ).loc main_arg9) :=
  calc Wo6 m c (Proc.devRef .tc main_arg9)
    _ = Wi6 m c (Proc.devRef .tc main_arg9) := Wo6_in m c 1 rfl
    _ = Wo5 m c (Proc.devRef .tc main_arg9) := StableHlo.after_of_writes_sub hostOps6 _ Gen.hostOps6_writes (by decide)
    _ = Wi5 m c (Proc.devRef .tc main_arg9) := Wo5_of_ne m c main_arg9 (by decide)
    _ = Wo4 m c (Proc.devRef .tc main_arg9) := StableHlo.after_of_writes_sub hostOps5 _ Gen.hostOps5_writes (by decide)
    _ = Wi4 m c (Proc.devRef .tc main_arg9) := Wo4_of_ne m c main_arg9 (by decide)
    _ = Wo3 m c (Proc.devRef .tc main_arg9) := StableHlo.after_of_writes_sub hostOps4 _ Gen.hostOps4_writes (by decide)
    _ = Wi3 m c (Proc.devRef .tc main_arg9) := Wo3_of_ne m c main_arg9 (by decide)
    _ = Wo2 m c (Proc.devRef .tc main_arg9) := StableHlo.after_of_writes_sub hostOps3 _ Gen.hostOps3_writes (by decide)
    _ = Wi2 m c (Proc.devRef .tc main_arg9) := Wo2_of_ne m c main_arg9 (by decide)
    _ = Wo1 m c (Proc.devRef .tc main_arg9) := StableHlo.after_of_writes_sub hostOps2 _ Gen.hostOps2_writes (by decide)
    _ = Wi1 m c (Proc.devRef .tc main_arg9) := Wo1_of_ne m c main_arg9 (by decide)
    _ = Wo0 m c (Proc.devRef .tc main_arg9) := StableHlo.after_of_writes_sub hostOps1 _ Gen.hostOps1_writes (by decide)
    _ = Wi0 m c (Proc.devRef .tc main_arg9) := Wo0_of_ne m c main_arg9 (by decide)
    _ = Gen.V2 m c (Proc.devRef .tc main_arg9) := Gen.V3_of m c main_arg9 (by decide)
    _ = Gen.V1 m c (Proc.devRef .tc main_arg9) := Gen.V2_of m c main_arg9 (by decide)
    _ = Gen.V0 m c (Proc.devRef .tc main_arg9) := Gen.V1_of m c main_arg9 (by decide)
    _ = m ((c : Thread nD τ).loc main_arg9) := rfl

theorem Wo6_main_arg10 (c : Dev nD) : Wo6 m c (Proc.devRef .tc main_arg10) = m ((c : Thread nD τ).loc main_arg10) :=
  calc Wo6 m c (Proc.devRef .tc main_arg10)
    _ = Wi6 m c (Proc.devRef .tc main_arg10) := Wo6_of_ne m c main_arg10 (by decide)
    _ = Wo5 m c (Proc.devRef .tc main_arg10) := StableHlo.after_of_writes_sub hostOps6 _ Gen.hostOps6_writes (by decide)
    _ = Wi5 m c (Proc.devRef .tc main_arg10) := Wo5_of_ne m c main_arg10 (by decide)
    _ = Wo4 m c (Proc.devRef .tc main_arg10) := StableHlo.after_of_writes_sub hostOps5 _ Gen.hostOps5_writes (by decide)
    _ = Wi4 m c (Proc.devRef .tc main_arg10) := Wo4_of_ne m c main_arg10 (by decide)
    _ = Wo3 m c (Proc.devRef .tc main_arg10) := StableHlo.after_of_writes_sub hostOps4 _ Gen.hostOps4_writes (by decide)
    _ = Wi3 m c (Proc.devRef .tc main_arg10) := Wo3_of_ne m c main_arg10 (by decide)
    _ = Wo2 m c (Proc.devRef .tc main_arg10) := StableHlo.after_of_writes_sub hostOps3 _ Gen.hostOps3_writes (by decide)
    _ = Wi2 m c (Proc.devRef .tc main_arg10) := Wo2_of_ne m c main_arg10 (by decide)
    _ = Wo1 m c (Proc.devRef .tc main_arg10) := StableHlo.after_of_writes_sub hostOps2 _ Gen.hostOps2_writes (by decide)
    _ = Wi1 m c (Proc.devRef .tc main_arg10) := Wo1_of_ne m c main_arg10 (by decide)
    _ = Wo0 m c (Proc.devRef .tc main_arg10) := StableHlo.after_of_writes_sub hostOps1 _ Gen.hostOps1_writes (by decide)
    _ = Wi0 m c (Proc.devRef .tc main_arg10) := Wo0_of_ne m c main_arg10 (by decide)
    _ = Gen.V2 m c (Proc.devRef .tc main_arg10) := Gen.V3_of m c main_arg10 (by decide)
    _ = Gen.V1 m c (Proc.devRef .tc main_arg10) := Gen.V2_of m c main_arg10 (by decide)
    _ = Gen.V0 m c (Proc.devRef .tc main_arg10) := Gen.V1_of m c main_arg10 (by decide)
    _ = m ((c : Thread nD τ).loc main_arg10) := rfl

/-! ## The proof data of all seven regions, and the thread state -/

/-- No region has a prefetched table. -/
abbrev admR : (p : Fin 7) → (pcfgs (F := F) p).Adm := fun p => (cfgs p).toPCfg_adm
/-- Each region's data at its own entry contents. -/
def pdats : (p : Fin 7) → (c : Dev nD) → Dat τ (Elt F) Unit ℕ (UR sig nD τ) ℕ (Pipeline.pin (pcfgs (F := F)) admR p) c
  | ⟨0, _⟩ => fun c => dat0 (Ri0 m) c
  | ⟨1, _⟩ => fun c => dat1 (Ri1 m) c
  | ⟨2, _⟩ => fun c => dat2 (Ri2 m) c
  | ⟨3, _⟩ => fun c => dat3 (Ri3 m) c
  | ⟨4, _⟩ => fun c => dat4 (Ri4 m) c
  | ⟨5, _⟩ => fun c => dat5 (Ri5 m) c
  | ⟨6, _⟩ => fun c => dat6 (Ri6 m) c
abbrev 𝒱₀ : Variants := Variants.none
/-- No core owes another anything. -/
abbrev L : GSem nD τ sig → Finset Unit := fun _ => ∅
abbrev lv : GSem nD τ sig → Unit → ℕ := fun _ _ => 0
/-- What rides beside the buffers through every item: the core's generator register at some state, and the core owing nothing. -/
abbrev Rest (c : Dev nD) : sProp 𝕄 := iprop((∃ r, prngReg c r) ∗ ∃ W, owes (c : Thread nD τ) (0 : CellTallies nD τ sig Unit) W)
/-- A host stretch as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rest
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last contents, the generator register at some state. -/
abbrev Tₙ (c : Dev nD) : sProp 𝕄 := iprop(StableHlo.held (c : Thread nD τ) (Pipeline.ucRefs τ sig) (Wo6 m c) ∗ ∃ r, prngReg c r)

/-! ## The regions as segments -/

set_option backward.isDefEq.respectTransparency.types false in
/-- Region 0 over the thread state: entered with every unscoped buffer at `Wi0`, left with them at `Wo0`.  Its arrays
    are split out of the unscoped buffers at entry and put back at the exit contents; the generator register goes into the
    pipeline's invariant and comes out; nothing is owed; the kernel has no semaphore of its own. -/
def reg0 : Pipeline.RegionSeg (pcfgs (F := F)) admR (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Ri0 m) c).loose
  hwaits := Pipeline.hwaits_of_owed_zero _ _ _ _ L lv 0 fun _ _ => rfl
  pre c := iprop(StableHlo.held (c : Thread nD τ) (Pipeline.ucRefs τ sig) (Wi0 m c) ∗ Rest c)
  post c := iprop(StableHlo.held (c : Thread nD τ) (Pipeline.ucRefs τ sig) (Wo0 m c) ∗ Rest c)
  X c := iprop(∃ r, prngReg c r)
  Y c := iprop(∃ r, prngReg c r)
  Z c := Pipeline.unscopedRest (Ix := Unit) (Name := ℕ) (U := UR sig nD τ) (Lvl := ℕ) spec0 c (Ri0 m c)
  hentry c := by
    rw [Pipeline.ownSems0_none]
    have hsplit := Pipeline.arrays_of_unscopedBufs (p := 0) (pcfgs (F := F)) admR (pdats m) launch0.win launch0.arr_whole c
      ((pdats m 0 c).share_full fun _ => rfl) (Ri0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admR (Ix := Unit) (Name := ℕ) (U := UR sig nD τ) (Lvl := ℕ)
      launch0.win launch0.arr_whole c (pdats m) ((pdats m 0 c).share_full fun _ => rfl)
      (Ri0 m c) (Ro0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `Wi1`, left with them at `Wo1`.  Its arrays
    are split out of the unscoped buffers at entry and put back at the exit contents; the generator register goes into the
    pipeline's invariant and comes out; nothing is owed; the kernel has no semaphore of its own. -/
def reg1 : Pipeline.RegionSeg (pcfgs (F := F)) admR (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Ri1 m) c).loose
  hwaits := Pipeline.hwaits_of_owed_zero _ _ _ _ L lv 1 fun _ _ => rfl
  pre c := iprop(StableHlo.held (c : Thread nD τ) (Pipeline.ucRefs τ sig) (Wi1 m c) ∗ Rest c)
  post c := iprop(StableHlo.held (c : Thread nD τ) (Pipeline.ucRefs τ sig) (Wo1 m c) ∗ Rest c)
  X c := iprop(∃ r, prngReg c r)
  Y c := iprop(∃ r, prngReg c r)
  Z c := Pipeline.unscopedRest (Ix := Unit) (Name := ℕ) (U := UR sig nD τ) (Lvl := ℕ) spec1 c (Ri1 m c)
  hentry c := by
    rw [Pipeline.ownSems0_none]
    have hsplit := Pipeline.arrays_of_unscopedBufs (p := 1) (pcfgs (F := F)) admR (pdats m) launch1.win launch1.arr_whole c
      ((pdats m 1 c).share_full fun _ => rfl) (Ri1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admR (Ix := Unit) (Name := ℕ) (U := UR sig nD τ) (Lvl := ℕ)
      launch1.win launch1.arr_whole c (pdats m) ((pdats m 1 c).share_full fun _ => rfl)
      (Ri1 m c) (Ro1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at `Wi2`, left with them at `Wo2`.  Its arrays
    are split out of the unscoped buffers at entry and put back at the exit contents; the generator register goes into the
    pipeline's invariant and comes out; nothing is owed; the kernel has no semaphore of its own. -/
def reg2 : Pipeline.RegionSeg (pcfgs (F := F)) admR (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Ri2 m) c).loose
  hwaits := Pipeline.hwaits_of_owed_zero _ _ _ _ L lv 2 fun _ _ => rfl
  pre c := iprop(StableHlo.held (c : Thread nD τ) (Pipeline.ucRefs τ sig) (Wi2 m c) ∗ Rest c)
  post c := iprop(StableHlo.held (c : Thread nD τ) (Pipeline.ucRefs τ sig) (Wo2 m c) ∗ Rest c)
  X c := iprop(∃ r, prngReg c r)
  Y c := iprop(∃ r, prngReg c r)
  Z c := Pipeline.unscopedRest (Ix := Unit) (Name := ℕ) (U := UR sig nD τ) (Lvl := ℕ) spec2 c (Ri2 m c)
  hentry c := by
    rw [Pipeline.ownSems0_none]
    have hsplit := Pipeline.arrays_of_unscopedBufs (p := 2) (pcfgs (F := F)) admR (pdats m) launch2.win launch2.arr_whole c
      ((pdats m 2 c).share_full fun _ => rfl) (Ri2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admR (Ix := Unit) (Name := ℕ) (U := UR sig nD τ) (Lvl := ℕ)
      launch2.win launch2.arr_whole c (pdats m) ((pdats m 2 c).share_full fun _ => rfl)
      (Ri2 m c) (Ro2 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered with every unscoped buffer at `Wi3`, left with them at `Wo3`.  Its arrays
    are split out of the unscoped buffers at entry and put back at the exit contents; the generator register goes into the
    pipeline's invariant and comes out; nothing is owed; the kernel has no semaphore of its own. -/
def reg3 : Pipeline.RegionSeg (pcfgs (F := F)) admR (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (Ri3 m) c).loose
  hwaits := Pipeline.hwaits_of_owed_zero _ _ _ _ L lv 3 fun _ _ => rfl
  pre c := iprop(StableHlo.held (c : Thread nD τ) (Pipeline.ucRefs τ sig) (Wi3 m c) ∗ Rest c)
  post c := iprop(StableHlo.held (c : Thread nD τ) (Pipeline.ucRefs τ sig) (Wo3 m c) ∗ Rest c)
  X c := iprop(∃ r, prngReg c r)
  Y c := iprop(∃ r, prngReg c r)
  Z c := Pipeline.unscopedRest (Ix := Unit) (Name := ℕ) (U := UR sig nD τ) (Lvl := ℕ) spec3 c (Ri3 m c)
  hentry c := by
    rw [Pipeline.ownSems0_none]
    have hsplit := Pipeline.arrays_of_unscopedBufs (p := 3) (pcfgs (F := F)) admR (pdats m) launch3.win launch3.arr_whole c
      ((pdats m 3 c).share_full fun _ => rfl) (Ri3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) admR (Ix := Unit) (Name := ℕ) (U := UR sig nD τ) (Lvl := ℕ)
      launch3.win launch3.arr_whole c (pdats m) ((pdats m 3 c).share_full fun _ => rfl)
      (Ri3 m c) (Ro3 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered with every unscoped buffer at `Wi4`, left with them at `Wo4`.  Its arrays
    are split out of the unscoped buffers at entry and put back at the exit contents; the generator register goes into the
    pipeline's invariant and comes out; nothing is owed; the kernel has no semaphore of its own. -/
def reg4 : Pipeline.RegionSeg (pcfgs (F := F)) admR (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (Ri4 m) c).loose
  hwaits := Pipeline.hwaits_of_owed_zero _ _ _ _ L lv 4 fun _ _ => rfl
  pre c := iprop(StableHlo.held (c : Thread nD τ) (Pipeline.ucRefs τ sig) (Wi4 m c) ∗ Rest c)
  post c := iprop(StableHlo.held (c : Thread nD τ) (Pipeline.ucRefs τ sig) (Wo4 m c) ∗ Rest c)
  X c := iprop(∃ r, prngReg c r)
  Y c := iprop(∃ r, prngReg c r)
  Z c := Pipeline.unscopedRest (Ix := Unit) (Name := ℕ) (U := UR sig nD τ) (Lvl := ℕ) spec4 c (Ri4 m c)
  hentry c := by
    rw [Pipeline.ownSems0_none]
    have hsplit := Pipeline.arrays_of_unscopedBufs (p := 4) (pcfgs (F := F)) admR (pdats m) launch4.win launch4.arr_whole c
      ((pdats m 4 c).share_full fun _ => rfl) (Ri4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) admR (Ix := Unit) (Name := ℕ) (U := UR sig nD τ) (Lvl := ℕ)
      launch4.win launch4.arr_whole c (pdats m) ((pdats m 4 c).share_full fun _ => rfl)
      (Ri4 m c) (Ro4 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered with every unscoped buffer at `Wi5`, left with them at `Wo5`.  Its arrays
    are split out of the unscoped buffers at entry and put back at the exit contents; the generator register goes into the
    pipeline's invariant and comes out; nothing is owed; the kernel has no semaphore of its own. -/
def reg5 : Pipeline.RegionSeg (pcfgs (F := F)) admR (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (Ri5 m) c).loose
  hwaits := Pipeline.hwaits_of_owed_zero _ _ _ _ L lv 5 fun _ _ => rfl
  pre c := iprop(StableHlo.held (c : Thread nD τ) (Pipeline.ucRefs τ sig) (Wi5 m c) ∗ Rest c)
  post c := iprop(StableHlo.held (c : Thread nD τ) (Pipeline.ucRefs τ sig) (Wo5 m c) ∗ Rest c)
  X c := iprop(∃ r, prngReg c r)
  Y c := iprop(∃ r, prngReg c r)
  Z c := Pipeline.unscopedRest (Ix := Unit) (Name := ℕ) (U := UR sig nD τ) (Lvl := ℕ) spec5 c (Ri5 m c)
  hentry c := by
    rw [Pipeline.ownSems0_none]
    have hsplit := Pipeline.arrays_of_unscopedBufs (p := 5) (pcfgs (F := F)) admR (pdats m) launch5.win launch5.arr_whole c
      ((pdats m 5 c).share_full fun _ => rfl) (Ri5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) admR (Ix := Unit) (Name := ℕ) (U := UR sig nD τ) (Lvl := ℕ)
      launch5.win launch5.arr_whole c (pdats m) ((pdats m 5 c).share_full fun _ => rfl)
      (Ri5 m c) (Ro5 m c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6 over the thread state: entered with every unscoped buffer at `Wi6`, left with them at `Wo6`.  Its arrays
    are split out of the unscoped buffers at entry and put back at the exit contents; the generator register goes into the
    pipeline's invariant and comes out; nothing is owed; the kernel has no semaphore of its own. -/
def reg6 : Pipeline.RegionSeg (pcfgs (F := F)) admR (pdats m) () defs₀ 𝒱₀ L lv 6 where
  win := launch6.win.to₀
  block_pos := launch6.block_pos
  stage_whole := launch6.stage_whole
  K := PEmpty
  osem k := k.elim
  ho := Pipeline.OwnSemFacts.none _
  hbody c := (body_obligation6 (Ri6 m) c).loose
  hwaits := Pipeline.hwaits_of_owed_zero _ _ _ _ L lv 6 fun _ _ => rfl
  pre c := iprop(StableHlo.held (c : Thread nD τ) (Pipeline.ucRefs τ sig) (Wi6 m c) ∗ Rest c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec6 c (Ri6 m c)
  hentry c := by
    rw [Pipeline.ownSems0_none]
    have hsplit := Pipeline.arrays_of_unscopedBufs (p := 6) (pcfgs (F := F)) admR (pdats m) launch6.win launch6.arr_whole c
      ((pdats m 6 c).share_full fun _ => rfl) (Ri6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) admR (Ix := Unit) (Name := ℕ) (U := UR sig nD τ) (Lvl := ℕ)
      launch6.win launch6.arr_whole c (pdats m) ((pdats m 6 c).share_full fun _ => rfl)
      (Ri6 m c) (Ro6 m c) ((pdats m 6 c).arrAt · cfg6.N) (hF6 m c) (hrest6 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev segsR : List (Pipeline.Seg (pcfgs (F := F)) admR (pdats m) () defs₀ 𝒱₀ L lv) :=
  [ .host (hseg hostOps0 hostOps0_sub Gen.hostOps0_fresh (Gen.V0 m)),
    .host (hseg hostOps0_1 hostOps0_1_sub Gen.hostOps0_1_fresh (Gen.V1 m)),
    .host (hseg hostOps0_2 hostOps0_2_sub Gen.hostOps0_2_fresh (Gen.V2 m)),
    .region (reg0 m),
    .host (hseg hostOps1 hostOps1_sub Gen.hostOps1_fresh (Wo0 m)),
    .region (reg1 m),
    .host (hseg hostOps2 hostOps2_sub Gen.hostOps2_fresh (Wo1 m)),
    .region (reg2 m),
    .host (hseg hostOps3 hostOps3_sub Gen.hostOps3_fresh (Wo2 m)),
    .region (reg3 m),
    .host (hseg hostOps4 hostOps4_sub Gen.hostOps4_fresh (Wo3 m)),
    .region (reg4 m),
    .host (hseg hostOps5 hostOps5_sub Gen.hostOps5_fresh (Wo4 m)),
    .region (reg5 m),
    .host (hseg hostOps6 hostOps6_sub Gen.hostOps6_fresh (Wo5 m)),
    .region (reg6 m) ]

/-- @main is the run of the segments. -/
theorem main_run (c : Dev nD) : main (F := F) c = Pipeline.Seg.run (segsR m) := (main_chain c).trans (by chain_rfl)

set_option backward.isDefEq.respectTransparency.types false in
/-- THE RUN: from any memory with zero counters every weakly fair execution of @main terminates, nothing faulting, and
    every unscoped buffer ends at the last contents of the chain. -/
theorem run (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = Wo6 m c b) :=
  Pipeline.θ_run_regions_kit (pcfgs (F := F)) admR (pdats m) () cellOf_inj emb₁ defs₀ 𝒱₀ L lv m ρ main (segsR m)
    (fun c Q => by rw [main_run m c])
    (by simp only [segsR, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ Rest c)) (Tₙ := Tₙ m)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wo6 m c b)
    (hfin := fun c s' => by
      iintro ⟨⟨Hh, -⟩, HSI⟩
      unfold StableHlo.held
      imodintro
      iapply (pointsTo_read_all (Pipeline.ucRefs τ sig) (fun b => (((c : Thread nD τ)).1, b)) (Wo6 m c) s')
      isplitl [Hh] <;> iassumption)
    (hQ := fun s h => h)

/-- THE FRAME: every argument array ends as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c _ (mem_uc main_arg0 (by decide))).trans (Wo6_main_arg0 m c),
      (h c _ (mem_uc main_arg1 (by decide))).trans (Wo6_main_arg1 m c),
      (h c _ (mem_uc main_arg2 (by decide))).trans (Wo6_main_arg2 m c),
      (h c _ (mem_uc main_arg3 (by decide))).trans (Wo6_main_arg3 m c),
      (h c _ (mem_uc main_arg4 (by decide))).trans (Wo6_main_arg4 m c),
      (h c _ (mem_uc main_arg5 (by decide))).trans (Wo6_main_arg5 m c),
      (h c _ (mem_uc main_arg6 (by decide))).trans (Wo6_main_arg6 m c),
      (h c _ (mem_uc main_arg7 (by decide))).trans (Wo6_main_arg7 m c),
      (h c _ (mem_uc main_arg8 (by decide))).trans (Wo6_main_arg8 m c),
      (h c _ (mem_uc main_arg9 (by decide))).trans (Wo6_main_arg9 m c),
      (h c _ (mem_uc main_arg10 (by decide))).trans (Wo6_main_arg10 m c)⟩)
    (run m ρ)

end Cert.KernelIdeal.Regs

end
-- ==== Proof.Ideal.Pay.lean ====
/-
  The three kinds of block the kernels compute, read at one entry on the extended reals.

  A linear block: entry (p, q) of the output block is the sum over k of the input block's (p, k) entry times the
  weights' (k, q) entry — the change of float format before the product is the identity on the extended reals, and the
  product accumulates into zero — plus the bias row's entry q.  A bias-and-clamp block: entry (p, q) is the larger of
  zero and the input's (p, q) entry plus the bias row's entry q.
-/
import proofs.«163322_j18580028523179_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Val

open Cert.KernelIdeal Cert.KernelIdeal.Gen Idealize.ShloMosaic

/-- The bias row's entry under column `j 1`. -/
abbrev brow (j : S5000x64.Idx) : S1x64.Idx := fun a => match a with
  | ⟨0, _⟩ => ⟨0, Nat.one_pos⟩
  | ⟨1, _⟩ => ⟨(j 1).val, (j 1).isLt⟩

/-- The bias row laid along every row of the block, read at an entry. -/
theorem rowBcast_apply (b : FVec Ideal S1x64 .f32) (j : S5000x64.Idx) :
    broadcastTo S5000x64 (shapeCast S1x64 b shapeCasts_S1x64_S1x64) broadcasts_S1x64_S5000x64 j = b (brow j) := by
  rw [shapeCast_self]
  refine broadcastTo_apply b broadcasts_S1x64_S5000x64 j (brow j) ?_
  intro a
  match a with
  | ⟨0, _⟩ => rfl
  | ⟨1, _⟩ => rfl

/-! ## The block product with a 64-entry contraction -/

/-- Row `j 0` of the left block, entry `k`. -/
abbrev lrow64 (j : S5000x64.Idx) (k : Fin 64) : S5000x64.Idx := fun a => match a with
  | ⟨0, _⟩ => ⟨(j 0).val, (j 0).isLt⟩
  | ⟨1, _⟩ => ⟨k.val, k.isLt⟩
/-- Column `j 1` of the weights, entry `k`. -/
abbrev rcol64 (j : S5000x64.Idx) (k : Fin 64) : S64x64.Idx := fun a => match a with
  | ⟨0, _⟩ => ⟨k.val, k.isLt⟩
  | ⟨1, _⟩ => ⟨(j 1).val, (j 1).isLt⟩

theorem lhs64_0 (i : S5000x64.Idx) (q : dot_S5000x64_S64x64_S5000x64_1_0_0_1_n_n.contr.Idx) : (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhs64_1 (i : S5000x64.Idx) (q : dot_S5000x64_S64x64_S5000x64_1_0_0_1_n_n.contr.Idx) : (dot_S5000x64_S64x64_S5000x64_1_0_0_1_n_n.lhsIdx i q 1).val = (q ⟨0, by decide⟩).val :=
  dot_S5000x64_S64x64_S5000x64_1_0_0_1_n_n.lhsIdx_val_of_single rfl i q
theorem rhs64_0 (i : S5000x64.Idx) (q : dot_S5000x64_S64x64_S5000x64_1_0_0_1_n_n.contr.Idx) : (dot_S5000x64_S64x64_S5000x64_1_0_0_1_n_n.rhsIdx i q 0).val = (q ⟨0, by decide⟩).val :=
  dot_S5000x64_S64x64_S5000x64_1_0_0_1_n_n.rhsIdx_val_of_single rfl i q
theorem rhs64_1 (i : S5000x64.Idx) (q : dot_S5000x64_S64x64_S5000x64_1_0_0_1_n_n.contr.Idx) : (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- On the extended reals the block product into a zero accumulator, at entry `j`, is the sum over `k` of the left block's
    (row of j, k) entry times the weights' (k, column of j) entry. -/
theorem blockProd64 {φ₁ φ₂ : FTy} (l : FVec Ideal S5000x64 φ₁) (r : FVec Ideal S64x64 φ₂) (j : S5000x64.Idx) :
    matmul dot_S5000x64_S64x64_S5000x64_1_0_0_1_n_n none l r (constant S5000x64 .f32 0x00000000#32) j = ∑ k : Fin 64, l (lrow64 j k) * r (rcol64 j k) := by
  show FloatOps.matmul dot_S5000x64_S64x64_S5000x64_1_0_0_1_n_n none l r (constant S5000x64 .f32 0x00000000#32) j = _
  rw [Ideal.matmul_constant_zero_apply, ← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx j ((ValueIdx.contrEquiv1 dot_S5000x64_S64x64_S5000x64_1_0_0_1_n_n 64 rfl rfl).symm k) = lrow64 j k := funext fun a => Fin.ext (by
    match a with
    | ⟨0, _⟩ => exact lhs64_0 _ _
    | ⟨1, _⟩ => exact (lhs64_1 _ _).trans hk)
  have er : dot_S5000x64_S64x64_S5000x64_1_0_0_1_n_n.rhsIdx j ((ValueIdx.contrEquiv1 dot_S5000x64_S64x64_S5000x64_1_0_0_1_n_n 64 rfl rfl).symm k) = rcol64 j k := funext fun a => Fin.ext (by
    match a with
    | ⟨0, _⟩ => exact (rhs64_0 _ _).trans hk
    | ⟨1, _⟩ => exact rhs64_1 _ _)
  rw [el, er]

/-! ## The block product with a 256-entry contraction -/

/-- Row `j 0` of the left block, entry `k`. -/
abbrev lrow256 (j : S5000x64.Idx) (k : Fin 256) : S5000x256.Idx := fun a => match a with
  | ⟨0, _⟩ => ⟨(j 0).val, (j 0).isLt⟩
  | ⟨1, _⟩ => ⟨k.val, k.isLt⟩
/-- Column `j 1` of the weights, entry `k`. -/
abbrev rcol256 (j : S5000x64.Idx) (k : Fin 256) : S256x64.Idx := fun a => match a with
  | ⟨0, _⟩ => ⟨k.val, k.isLt⟩
  | ⟨1, _⟩ => ⟨(j 1).val, (j 1).isLt⟩

theorem lhs256_0 (i : S5000x64.Idx) (q : dot_S5000x256_S256x64_S5000x64_1_0_0_1_n_n.contr.Idx) : (dot_S5000x256_S256x64_S5000x64_1_0_0_1_n_n.lhsIdx i q 0).val = (i 0).val := by
  unfold DotDims.lhsIdx
  rw [dif_neg (show ¬(0 : Fin S5000x256.rank) ∈ dot_S5000x256_S256x64_S5000x64_1_0_0_1_n_n.lhsBatch by decide), dif_pos (show (0 : Fin S5000x256.rank) ∈ dot_S5000x256_S256x64_S5000x64_1_0_0_1_n_n.lhsNonContracting by decide)]
  rfl
theorem lhs256_1 (i : S5000x64.Idx) (q : dot_S5000x256_S256x64_S5000x64_1_0_0_1_n_n.contr.Idx) : (dot_S5000x256_S256x64_S5000x64_1_0_0_1_n_n.lhsIdx i q 1).val = (q ⟨0, by decide⟩).val :=
  dot_S5000x256_S256x64_S5000x64_1_0_0_1_n_n.lhsIdx_val_of_single rfl i q
theorem rhs256_0 (i : S5000x64.Idx) (q : dot_S5000x256_S256x64_S5000x64_1_0_0_1_n_n.contr.Idx) : (dot_S5000x256_S256x64_S5000x64_1_0_0_1_n_n.rhsIdx i q 0).val = (q ⟨0, by decide⟩).val :=
  dot_S5000x256_S256x64_S5000x64_1_0_0_1_n_n.rhsIdx_val_of_single rfl i q
theorem rhs256_1 (i : S5000x64.Idx) (q : dot_S5000x256_S256x64_S5000x64_1_0_0_1_n_n.contr.Idx) : (dot_S5000x256_S256x64_S5000x64_1_0_0_1_n_n.rhsIdx i q 1).val = (i 1).val := by
  unfold DotDims.rhsIdx
  rw [dif_neg (show ¬(1 : Fin S256x64.rank) ∈ dot_S5000x256_S256x64_S5000x64_1_0_0_1_n_n.rhsBatch by decide), dif_pos (show (1 : Fin S256x64.rank) ∈ dot_S5000x256_S256x64_S5000x64_1_0_0_1_n_n.rhsNonContracting by decide)]
  rfl

/-- On the extended reals the block product into a zero accumulator, at entry `j`, is the sum over `k` of the left block's
    (row of j, k) entry times the weights' (k, column of j) entry. -/
theorem blockProd256 {φ₁ φ₂ : FTy} (l : FVec Ideal S5000x256 φ₁) (r : FVec Ideal S256x64 φ₂) (j : S5000x64.Idx) :
    matmul dot_S5000x256_S256x64_S5000x64_1_0_0_1_n_n none l r (constant S5000x64 .f32 0x00000000#32) j = ∑ k : Fin 256, l (lrow256 j k) * r (rcol256 j k) := by
  show FloatOps.matmul dot_S5000x256_S256x64_S5000x64_1_0_0_1_n_n none l r (constant S5000x64 .f32 0x00000000#32) j = _
  rw [Ideal.matmul_constant_zero_apply, ← Equiv.sum_comp (ValueIdx.contrEquiv1 dot_S5000x256_S256x64_S5000x64_1_0_0_1_n_n 256 rfl rfl).symm]
  refine Finset.sum_congr rfl fun k _ => ?_
  have hk := ValueIdx.contrEquiv1_symm_val dot_S5000x256_S256x64_S5000x64_1_0_0_1_n_n 256 rfl rfl k
  have el : dot_S5000x256_S256x64_S5000x64_1_0_0_1_n_n.lhsIdx j ((ValueIdx.contrEquiv1 dot_S5000x256_S256x64_S5000x64_1_0_0_1_n_n 256 rfl rfl).symm k) = lrow256 j k := funext fun a => Fin.ext (by
    match a with
    | ⟨0, _⟩ => exact lhs256_0 _ _
    | ⟨1, _⟩ => exact (lhs256_1 _ _).trans hk)
  have er : dot_S5000x256_S256x64_S5000x64_1_0_0_1_n_n.rhsIdx j ((ValueIdx.contrEquiv1 dot_S5000x256_S256x64_S5000x64_1_0_0_1_n_n 256 rfl rfl).symm k) = rcol256 j k := funext fun a => Fin.ext (by
    match a with
    | ⟨0, _⟩ => exact (rhs256_0 _ _).trans hk
    | ⟨1, _⟩ => exact rhs256_1 _ _)
  rw [el, er]

/-! ## The payloads -/

/-- Region 0's block. -/
theorem pay0_apply (x0 : Vec Ideal S5000x64 .f32) (x1 : Vec Ideal S64x64 .f32) (x2 : Vec Ideal S1x64 .f32) (j : S5000x64.Idx) :
    k0_pay1 (F := Ideal) x0 x1 x2 j = (∑ k : Fin 64, x0 (lrow64 j k) * x1 (rcol64 j k)) + x2 (brow j) := by
  unfold k0_pay1
  rw [ValueIdx.addf_apply, blockProd64, rowBcast_apply]
  rfl

/-- Regions 2 and 4: the same block, the input first cast to its own shape. -/
theorem pay2_apply (x0 : Vec Ideal S5000x64 .f32) (x1 : Vec Ideal S64x64 .f32) (x2 : Vec Ideal S1x64 .f32) (j : S5000x64.Idx) :
    k2_pay1 (F := Ideal) x0 x1 x2 j = (∑ k : Fin 64, x0 (lrow64 j k) * x1 (rcol64 j k)) + x2 (brow j) := by
  unfold k2_pay1
  rw [ValueIdx.addf_apply, blockProd64, rowBcast_apply, shapeCast_self]
  rfl
theorem pay4_apply (x0 : Vec Ideal S5000x64 .f32) (x1 : Vec Ideal S64x64 .f32) (x2 : Vec Ideal S1x64 .f32) (j : S5000x64.Idx) :
    k4_pay1 (F := Ideal) x0 x1 x2 j = (∑ k : Fin 64, x0 (lrow64 j k) * x1 (rcol64 j k)) + x2 (brow j) := by
  unfold k4_pay1
  rw [ValueIdx.addf_apply, blockProd64, rowBcast_apply, shapeCast_self]
  rfl

/-- Region 6: the 256-entry rows against the 256×64 matrix. -/
theorem pay6_apply (x0 : Vec Ideal S5000x256 .f32) (x1 : Vec Ideal S256x64 .f32) (x2 : Vec Ideal S1x64 .f32) (j : S5000x64.Idx) :
    k6_pay1 (F := Ideal) x0 x1 x2 j = (∑ k : Fin 256, x0 (lrow256 j k) * x1 (rcol256 j k)) + x2 (brow j) := by
  unfold k6_pay1
  rw [ValueIdx.addf_apply, blockProd256, rowBcast_apply, shapeCast_self]
  rfl

/-- Regions 1, 3 and 5: add the bias row, clamp below at zero. -/
theorem pay1_apply (x0 : Vec Ideal S5000x64 .f32) (x1 : Vec Ideal S1x64 .f32) (j : S5000x64.Idx) :
    k1_pay1 (F := Ideal) x0 x1 j = max (x0 j + x1 (brow j)) (Ideal.ofBits .f32 0x00000000#32) := by
  unfold k1_pay1
  rw [ValueIdx.maximumf_apply, ValueIdx.addf_apply, rowBcast_apply, shapeCast_self]
  rfl
theorem pay3_apply (x0 : Vec Ideal S5000x64 .f32) (x1 : Vec Ideal S1x64 .f32) (j : S5000x64.Idx) :
    k3_pay1 (F := Ideal) x0 x1 j = max (x0 j + x1 (brow j)) (Ideal.ofBits .f32 0x00000000#32) := by
  unfold k3_pay1
  rw [ValueIdx.maximumf_apply, ValueIdx.addf_apply, rowBcast_apply, shapeCast_self]
  rfl
theorem pay5_apply (x0 : Vec Ideal S5000x64 .f32) (x1 : Vec Ideal S1x64 .f32) (j : S5000x64.Idx) :
    k5_pay1 (F := Ideal) x0 x1 j = max (x0 j + x1 (brow j)) (Ideal.ofBits .f32 0x00000000#32) := by
  unfold k5_pay1
  rw [ValueIdx.maximumf_apply, ValueIdx.addf_apply, rowBcast_apply, shapeCast_self]
  rfl

end Cert.KernelIdeal.Val

end
-- ==== Proof.Fns.lean ====
/-
  The three kinds of region, each as one function of whole arrays, index by index on the extended reals, and each
  identified with the operations the network is spelt with.

  A linear region with a bias row r: entry (n, j) is the sum over k of A[n, k] · W[k, j], plus r[0, j].  With the zero row
  this is the projection (x + 0 = x on every extended real, the infinities included); with the row holding a bias vector
  it is the last projection plus its bias.  A bias-and-clamp region: entry (n, j) is the larger of zero and S[n, j] + r[0, j];
  with the row holding a bias vector this is the layer's activation.
-/
import proofs.«163322_j18580028523179_1_alg».proof.Proof.Spec
import Idealize.ShloMosaic.Lib.ValueIdx
import Idealize.ShloMosaic.Lib.Pipeline.Value
import Idealize.ShloMosaic.PureOps.Ideal.Laws

noncomputable section

namespace Cert.Gcn

open Cert.ReferenceIdeal Cert.ReferenceIdeal.Gen Cert.ReferenceIdeal.Read Idealize.ShloMosaic Idealize.ShloMosaic.TcCoe Idealize.ShloMosaic.StableHlo

/-- A row of 64 entries, as the kernels are handed a bias: one row, 64 columns. -/
abbrev Row : Type := (⟨S1x64, .f32⟩ : BufTy).Contents (Elt Ideal)
/-- 100000 rows of 256. -/
abbrev Mat256 : Type := (⟨S100000x256, .f32⟩ : BufTy).Contents (Elt Ideal)

/-- Rows of `A` times the 64×64 matrix, plus the row `r`. -/
def linG (A : Mat) (W : Wgt) (r : Row) : Mat :=
  fun i => (∑ k : Fin 64, A (lidx_main_v32 i k) * W (ridx_main_v32 i k)) + r (idx_main_v47 i)

/-- Rows of 256 entries times the 256×64 matrix, plus the row `r`. -/
def linG256 (A : Mat256) (W : WgtF) (r : Row) : Mat :=
  fun i => (∑ k : Fin 256, A (lidx_main_v143 i k) * W (ridx_main_v143 i k)) + r (idx_main_v47 i)

/-- Add the row `r` to every row of `S`, clamp below at zero. -/
def actG (S : Mat) (r : Row) : Mat :=
  fun i => max (S i + r (idx_main_v47 i)) (Ideal.ofBits .f32 0x00000000#32)

/-- With the zero row, the linear region is the projection: adding zero changes no extended real. -/
theorem linG_zero (A : Mat) (W : Wgt) (r : Row) (hr : ∀ y, r y = 0) : linG A W r = proj A W := by
  funext i
  show _ = Read.val_main_v32 (F := Ideal) A W i
  rw [Read.val_main_v32_apply]
  show (∑ k : Fin 64, A (lidx_main_v32 i k) * W (ridx_main_v32 i k)) + r (idx_main_v47 i) = _
  rw [hr, add_zero]

/-- The bias vector laid along every row, read at an entry through its one-row form. -/
theorem biasRows_apply (b : Bias) (i : S100000x64.Idx) :
    Read.val_main_v47 (F := Ideal) b i = b (idx_main_v46 (idx_main_v47 i)) := by
  rw [Read.val_main_v47_apply, Read.val_main_v46_apply]

/-- With the row holding the bias vector, the bias-and-clamp region is the layer's activation. -/
theorem actG_row (S : Mat) (b : Bias) (r : Row) (hr : ∀ y, r y = b (idx_main_v46 y)) : actG S r = act S b := by
  funext i
  show max (S i + r (idx_main_v47 i)) (Ideal.ofBits .f32 0x00000000#32)
      = max (S i + Read.val_main_v47 (F := Ideal) b i) (Read.val_main_call1_v0 (F := Ideal) i)
  rw [biasRows_apply, hr, Read.val_main_call1_v0_apply]
  rfl

/-- The host's product of 256-entry rows with the 256×64 matrix, read at an entry: the sum over the 256 contracted
    positions. -/
theorem dot256_apply (h : Mat256) (Wf : WgtF) (i : S100000x64.Idx) :
    Host.dotGeneral (F := Ideal) (φ₁ := .f32) (φ₂ := .f32) dot_S100000x256_S256x64_S100000x64_1_0_0_1_n_n none h Wf i = ∑ k : Fin 256, h (lidx_main_v143 i k) * Wf (ridx_main_v143 i k) := by
  simp only [Host.dotGeneral]
  rw [Ideal.dotGeneral_apply, ← Equiv.sum_comp (ValueIdx.contrEquiv1 dot_S100000x256_S256x64_S100000x64_1_0_0_1_n_n 256 rfl rfl).symm]
  refine Finset.sum_congr rfl fun k _ => ?_
  have hk := ValueIdx.contrEquiv1_symm_val dot_S100000x256_S256x64_S100000x64_1_0_0_1_n_n 256 rfl rfl k
  have el : dot_S100000x256_S256x64_S100000x64_1_0_0_1_n_n.lhsIdx i ((ValueIdx.contrEquiv1 dot_S100000x256_S256x64_S100000x64_1_0_0_1_n_n 256 rfl rfl).symm k) = lidx_main_v143 i k := funext fun a => Fin.ext (by
    match a with
    | ⟨0, _⟩ => exact lhs_main_v143_0 _ _
    | ⟨1, _⟩ => exact (lhs_main_v143_1 _ _).trans hk)
  have er : dot_S100000x256_S256x64_S100000x64_1_0_0_1_n_n.rhsIdx i ((ValueIdx.contrEquiv1 dot_S100000x256_S256x64_S100000x64_1_0_0_1_n_n 256 rfl rfl).symm k) = ridx_main_v143 i k := funext fun a => Fin.ext (by
    match a with
    | ⟨0, _⟩ => exact (rhs_main_v143_0 _ _).trans hk
    | ⟨1, _⟩ => exact rhs_main_v143_1 _ _)
  rw [el, er]

/-- With the row holding the last bias, the 256-wide linear region is the network's head. -/
theorem linG256_row (A : Mat256) (Wf : WgtF) (bf : Bias) (r : Row) (hr : ∀ y, r y = bf (idx_main_v46 y)) :
    linG256 A Wf r = head A Wf bf := by
  funext i
  show (∑ k : Fin 256, A (lidx_main_v143 i k) * Wf (ridx_main_v143 i k)) + r (idx_main_v47 i)
      = Host.dotGeneral (F := Ideal) (φ₁ := .f32) (φ₂ := .f32) dot_S100000x256_S256x64_S100000x64_1_0_0_1_n_n none A Wf i + Read.val_main_v47 (F := Ideal) bf i
  rw [dot256_apply, biasRows_apply, hr]

end Cert.Gcn

end
-- ==== Proof.Ideal.Value0.lean ====
/-
  Region 0's output array after the region, as one function of the arrays the region finds: entry (n, j) is the sum over k of the first operand's [n, k] times the weights' [k, j], plus the bias row's [0, j].

  The grid's 20 points each write back one block of 5000 rows; point t's block is rows 5000·t … 5000·t + 4999 of the
  whole-array function, because the row block the body is handed at t sits at those same rows and the weights and the
  bias row are handed whole.  Row n lies in the block of point n / 5000, so the blocks cover the array.
-/
import proofs.«163322_j18580028523179_1_alg».proof.Proof.Ideal.Region0
import proofs.«163322_j18580028523179_1_alg».proof.Proof.Ideal.Pay
import proofs.«163322_j18580028523179_1_alg».proof.Proof.Fns

set_option maxRecDepth 16384

noncomputable section

namespace Cert.KernelIdeal.Val

open Cert.KernelIdeal Cert.KernelIdeal.Gen Cert.KernelIdeal.Regs
open Idealize.ShloMosaic Idealize.ShloMosaic.TcCoe Idealize.SL.Sem
open Idealize.ShloMosaic.Pipeline (Dat)
open Cert.ReferenceIdeal.Read (lidx_main_v32 ridx_main_v32 lidx_main_v143 ridx_main_v143 idx_main_v47)

variable (V : (c : Dev nD) → (b : Ref sig .tc) → Buf (Elt Ideal) ((c : Thread nD τ).loc b))

theorem hz0 : (![0, 0] : Fin 2 → Nat) = fun _ => 0 := funext fun a => by fin_cases a <;> rfl

/-- The printed index maps over the grid: the input rows' block and the output's block sit at the same rows; the weights
    and the bias row are always block (0, 0); the output's block column is 0. -/
theorem idx0 : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0 ∧ win0_3.index t (0 : Fin 2) ≤ 19 :=
  (by decide +kernel : ∀ t : Fin grid0.N, _)

/-- Every block row of the array is some point's. -/
theorem onto0 : ∀ q0 : Fin 20, ∃ t : Fin cfg0.N, win0_3.index t = ![q0.val, 0] :=
  (by decide +kernel : ∀ q0 : Fin 20, ∃ t : Fin grid0.N, win0_3.index t = ![q0.val, 0])

/-- WHAT POINT `t` WRITES BACK is block `t` of the whole-array function of the arrays as the region finds them. -/
theorem flushed0_eq (c : Dev nD) (t : Fin cfg0.N) :
    (dat0 V c).flushed 3 t = ((cfg0.win 3).blk t).view.read (Elt Ideal) (Gcn.linG (V c main_arg0) (V c main_arg3) (V c main_v33)) := by
  show (cfg0.win 3).cut (grid0.coords t) ((dat0 V c).after 3 t) = _
  rw [after0_3]
  unfold out0_3
  rw [View.canon_unit_zero hz0]
  simp only [View.ld_unit_zero (S := S5000x64) hz0, View.ld_unit_zero (S := S64x64) hz0, View.ld_unit_zero (S := S1x64) hz0]
  obtain ⟨e0, e1, e2, e3, e4, e5, e6, e7⟩ := idx0 t
  funext j
  refine (pay0_apply _ _ _ j).trans ?_
  show (∑ k : Fin 64, @id Gcn.Mat (V c main_arg0) (((cfg0.win 0).blk t).view.emb (lrow64 j k)) * @id Gcn.Wgt (V c main_arg3) (((cfg0.win 1).blk t).view.emb (rcol64 j k)))
        + @id Gcn.Row (V c main_v33) (((cfg0.win 2).blk t).view.emb (brow j))
      = (∑ k : Fin 64, @id Gcn.Mat (V c main_arg0) (lidx_main_v32 (((cfg0.win 3).blk t).view.emb j) k) * @id Gcn.Wgt (V c main_arg3) (ridx_main_v32 (((cfg0.win 3).blk t).view.emb j) k))
        + @id Gcn.Row (V c main_v33) (idx_main_v47 (((cfg0.win 3).blk t).view.emb j))
  have h0 : ∀ k : Fin 64, ((cfg0.win 0).blk t).view.emb (lrow64 j k) = lidx_main_v32 (((cfg0.win 3).blk t).view.emb j) k := fun k => by
    funext a; apply Fin.ext
    match a with
    | ⟨0, _⟩ => show win0_0.index t (0 : Fin 2) * 5000 + 1 * (j 0).val = win0_3.index t (0 : Fin 2) * 5000 + 1 * (j 0).val; omega
    | ⟨1, _⟩ => show win0_0.index t (1 : Fin 2) * 64 + 1 * k.val = k.val; omega
  have h1 : ∀ k : Fin 64, ((cfg0.win 1).blk t).view.emb (rcol64 j k) = ridx_main_v32 (((cfg0.win 3).blk t).view.emb j) k := fun k => by
    funext a; apply Fin.ext
    match a with
    | ⟨0, _⟩ => show win0_1.index t (0 : Fin 2) * 64 + 1 * k.val = k.val; omega
    | ⟨1, _⟩ => show win0_1.index t (1 : Fin 2) * 64 + 1 * (j 1).val = win0_3.index t (1 : Fin 2) * 64 + 1 * (j 1).val; omega
  have h2 : ((cfg0.win 2).blk t).view.emb (brow j) = idx_main_v47 (((cfg0.win 3).blk t).view.emb j) := by
    funext a; apply Fin.ext
    match a with
    | ⟨0, _⟩ => show win0_2.index t (0 : Fin 2) * 1 + 1 * 0 = 0; omega
    | ⟨1, _⟩ => show win0_2.index t (1 : Fin 2) * 64 + 1 * (j 1).val = win0_3.index t (1 : Fin 2) * 64 + 1 * (j 1).val; omega
  rw [h2]
  exact congrArg (· + _) (Finset.sum_congr rfl fun k _ => by rw [h0 k, h1 k])

/-- An index of the array is in point `t`'s block iff each coordinate is in the block's range on its axis. -/
theorem mem_blk0 (t : Fin cfg0.N) (i : S100000x64.Idx) :
    i ∈ ((cfg0.win 3).blk t).view.set ↔ ∀ a : Fin 2, win0_3.index t a * S5000x64.size a ≤ (i a).val
      ∧ (i a).val < win0_3.index t a * S5000x64.size a + S5000x64.size a := by
  show i ∈ ((View.whole main_v34).slice (win0_3.rect t)).set ↔ _
  rw [View.set_slice_whole, Rect.mem_set_unit]
  exact Iff.rfl

/-- Every index is in some point's block: row n is in the block of point n / 5000. -/
theorem cover0 (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  obtain ⟨t, ht⟩ := onto0 ⟨(i 0).val / 5000, by omega⟩
  have q0 : win0_3.index t (0 : Fin 2) = (i 0).val / 5000 := congrFun ht 0
  have q1 : win0_3.index t (1 : Fin 2) = 0 := congrFun ht 1
  refine ⟨t, flush0_3 t, ?_⟩
  rw [mem_blk0]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 64 ≤ (i 1).val ∧ (i 1).val < win0_3.index t (1 : Fin 2) * 64 + 64; omega

/-- THE ARRAY after the region. -/
theorem final0 (c : Dev nD) : (dat0 V c).arrAt 3 cfg0.N = Gcn.linG (V c main_arg0) (V c main_arg3) (V c main_v33) :=
  (dat0 V c).arrAt_eq_of_cover 3 _ (fun t _ => flushed0_eq V c t) (cover0)

end Cert.KernelIdeal.Val

end
-- ==== Proof.Ideal.Value1.lean ====
/-
  Region 1's output array after the region, as one function of the arrays the region finds: entry (n, j) is the larger of zero and the first operand's [n, j] plus the bias row's [0, j].

  The grid's 20 points each write back one block of 5000 rows; point t's block is rows 5000·t … 5000·t + 4999 of the
  whole-array function, because the row block the body is handed at t sits at those same rows and the weights and the
  bias row are handed whole.  Row n lies in the block of point n / 5000, so the blocks cover the array.
-/
import proofs.«163322_j18580028523179_1_alg».proof.Proof.Ideal.Region1
import proofs.«163322_j18580028523179_1_alg».proof.Proof.Ideal.Pay
import proofs.«163322_j18580028523179_1_alg».proof.Proof.Fns

set_option maxRecDepth 16384

noncomputable section

namespace Cert.KernelIdeal.Val

open Cert.KernelIdeal Cert.KernelIdeal.Gen Cert.KernelIdeal.Regs
open Idealize.ShloMosaic Idealize.ShloMosaic.TcCoe Idealize.SL.Sem
open Idealize.ShloMosaic.Pipeline (Dat)
open Cert.ReferenceIdeal.Read (lidx_main_v32 ridx_main_v32 lidx_main_v143 ridx_main_v143 idx_main_v47)

variable (V : (c : Dev nD) → (b : Ref sig .tc) → Buf (Elt Ideal) ((c : Thread nD τ).loc b))

theorem hz1 : (![0, 0] : Fin 2 → Nat) = fun _ => 0 := funext fun a => by fin_cases a <;> rfl

/-- The printed index maps over the grid: the input rows' block and the output's block sit at the same rows; the bias row
    is always block (0, 0); the block columns are 0. -/
theorem idx1 : ∀ t : Fin cfg1.N,
    win1_0.index t (0 : Fin 2) = win1_2.index t (0 : Fin 2) ∧ win1_0.index t (1 : Fin 2) = 0
    ∧ win1_1.index t (0 : Fin 2) = 0 ∧ win1_1.index t (1 : Fin 2) = 0
    ∧ win1_2.index t (1 : Fin 2) = 0 ∧ win1_2.index t (0 : Fin 2) ≤ 19 :=
  (by decide +kernel : ∀ t : Fin grid1.N, _)

/-- Every block row of the array is some point's. -/
theorem onto1 : ∀ q0 : Fin 20, ∃ t : Fin cfg1.N, win1_2.index t = ![q0.val, 0] :=
  (by decide +kernel : ∀ q0 : Fin 20, ∃ t : Fin grid1.N, win1_2.index t = ![q0.val, 0])

/-- WHAT POINT `t` WRITES BACK is block `t` of the whole-array function of the arrays as the region finds them. -/
theorem flushed1_eq (c : Dev nD) (t : Fin cfg1.N) :
    (dat1 V c).flushed 2 t = ((cfg1.win 2).blk t).view.read (Elt Ideal) (Gcn.actG (V c main_v47) (V c main_v48)) := by
  show (cfg1.win 2).cut (grid1.coords t) ((dat1 V c).after 2 t) = _
  rw [after1_2]
  unfold out1_2
  rw [View.canon_unit_zero hz1]
  simp only [View.ld_unit_zero (S := S5000x64) hz1, View.ld_unit_zero (S := S1x64) hz1]
  obtain ⟨e0, e1, e2, e3, e4, e5⟩ := idx1 t
  funext j
  refine (pay1_apply _ _ j).trans ?_
  show max (@id Gcn.Mat (V c main_v47) (((cfg1.win 0).blk t).view.emb j) + @id Gcn.Row (V c main_v48) (((cfg1.win 1).blk t).view.emb (brow j))) (Ideal.ofBits .f32 0x00000000#32)
      = max (@id Gcn.Mat (V c main_v47) (((cfg1.win 2).blk t).view.emb j) + @id Gcn.Row (V c main_v48) (idx_main_v47 (((cfg1.win 2).blk t).view.emb j))) (Ideal.ofBits .f32 0x00000000#32)
  have h0 : ((cfg1.win 0).blk t).view.emb j = ((cfg1.win 2).blk t).view.emb j := by
    funext a; apply Fin.ext
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 64 + 1 * (j 1).val = win1_2.index t (1 : Fin 2) * 64 + 1 * (j 1).val; omega
  have h1 : ((cfg1.win 1).blk t).view.emb (brow j) = idx_main_v47 (((cfg1.win 2).blk t).view.emb j) := by
    funext a; apply Fin.ext
    match a with
    | ⟨0, _⟩ => show win1_1.index t (0 : Fin 2) * 1 + 1 * 0 = 0; omega
    | ⟨1, _⟩ => show win1_1.index t (1 : Fin 2) * 64 + 1 * (j 1).val = win1_2.index t (1 : Fin 2) * 64 + 1 * (j 1).val; omega
  rw [h0, h1]

/-- An index of the array is in point `t`'s block iff each coordinate is in the block's range on its axis. -/
theorem mem_blk1 (t : Fin cfg1.N) (i : S100000x64.Idx) :
    i ∈ ((cfg1.win 2).blk t).view.set ↔ ∀ a : Fin 2, win1_2.index t a * S5000x64.size a ≤ (i a).val
      ∧ (i a).val < win1_2.index t a * S5000x64.size a + S5000x64.size a := by
  show i ∈ ((View.whole main_v49).slice (win1_2.rect t)).set ↔ _
  rw [View.set_slice_whole, Rect.mem_set_unit]
  exact Iff.rfl

/-- Every index is in some point's block: row n is in the block of point n / 5000. -/
theorem cover1 (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  obtain ⟨t, ht⟩ := onto1 ⟨(i 0).val / 5000, by omega⟩
  have q0 : win1_2.index t (0 : Fin 2) = (i 0).val / 5000 := congrFun ht 0
  have q1 : win1_2.index t (1 : Fin 2) = 0 := congrFun ht 1
  refine ⟨t, flush1_2 t, ?_⟩
  rw [mem_blk1]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 64 ≤ (i 1).val ∧ (i 1).val < win1_2.index t (1 : Fin 2) * 64 + 64; omega

/-- THE ARRAY after the region. -/
theorem final1 (c : Dev nD) : (dat1 V c).arrAt 2 cfg1.N = Gcn.actG (V c main_v47) (V c main_v48) :=
  (dat1 V c).arrAt_eq_of_cover 2 _ (fun t _ => flushed1_eq V c t) (cover1)

end Cert.KernelIdeal.Val

end
-- ==== Proof.Ideal.Value2.lean ====
/-
  Region 2's output array after the region, as one function of the arrays the region finds: entry (n, j) is the sum over k of the first operand's [n, k] times the weights' [k, j], plus the bias row's [0, j].

  The grid's 20 points each write back one block of 5000 rows; point t's block is rows 5000·t … 5000·t + 4999 of the
  whole-array function, because the row block the body is handed at t sits at those same rows and the weights and the
  bias row are handed whole.  Row n lies in the block of point n / 5000, so the blocks cover the array.
-/
import proofs.«163322_j18580028523179_1_alg».proof.Proof.Ideal.Region2
import proofs.«163322_j18580028523179_1_alg».proof.Proof.Ideal.Pay
import proofs.«163322_j18580028523179_1_alg».proof.Proof.Fns

set_option maxRecDepth 16384

noncomputable section

namespace Cert.KernelIdeal.Val

open Cert.KernelIdeal Cert.KernelIdeal.Gen Cert.KernelIdeal.Regs
open Idealize.ShloMosaic Idealize.ShloMosaic.TcCoe Idealize.SL.Sem
open Idealize.ShloMosaic.Pipeline (Dat)
open Cert.ReferenceIdeal.Read (lidx_main_v32 ridx_main_v32 lidx_main_v143 ridx_main_v143 idx_main_v47)

variable (V : (c : Dev nD) → (b : Ref sig .tc) → Buf (Elt Ideal) ((c : Thread nD τ).loc b))

theorem hz2 : (![0, 0] : Fin 2 → Nat) = fun _ => 0 := funext fun a => by fin_cases a <;> rfl

/-- The printed index maps over the grid: the input rows' block and the output's block sit at the same rows; the weights
    and the bias row are always block (0, 0); the output's block column is 0. -/
theorem idx2 : ∀ t : Fin cfg2.N,
    win2_0.index t (0 : Fin 2) = win2_3.index t (0 : Fin 2) ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (1 : Fin 2) = 0 ∧ win2_3.index t (0 : Fin 2) ≤ 19 :=
  (by decide +kernel : ∀ t : Fin grid2.N, _)

/-- Every block row of the array is some point's. -/
theorem onto2 : ∀ q0 : Fin 20, ∃ t : Fin cfg2.N, win2_3.index t = ![q0.val, 0] :=
  (by decide +kernel : ∀ q0 : Fin 20, ∃ t : Fin grid2.N, win2_3.index t = ![q0.val, 0])

/-- WHAT POINT `t` WRITES BACK is block `t` of the whole-array function of the arrays as the region finds them. -/
theorem flushed2_eq (c : Dev nD) (t : Fin cfg2.N) :
    (dat2 V c).flushed 3 t = ((cfg2.win 3).blk t).view.read (Elt Ideal) (Gcn.linG (V c main_v49) (V c main_arg5) (V c main_v51)) := by
  show (cfg2.win 3).cut (grid2.coords t) ((dat2 V c).after 3 t) = _
  rw [after2_3]
  unfold out2_3
  rw [View.canon_unit_zero hz2]
  simp only [View.ld_unit_zero (S := S5000x64) hz2, View.ld_unit_zero (S := S64x64) hz2, View.ld_unit_zero (S := S1x64) hz2]
  obtain ⟨e0, e1, e2, e3, e4, e5, e6, e7⟩ := idx2 t
  funext j
  refine (pay2_apply _ _ _ j).trans ?_
  show (∑ k : Fin 64, @id Gcn.Mat (V c main_v49) (((cfg2.win 0).blk t).view.emb (lrow64 j k)) * @id Gcn.Wgt (V c main_arg5) (((cfg2.win 1).blk t).view.emb (rcol64 j k)))
        + @id Gcn.Row (V c main_v51) (((cfg2.win 2).blk t).view.emb (brow j))
      = (∑ k : Fin 64, @id Gcn.Mat (V c main_v49) (lidx_main_v32 (((cfg2.win 3).blk t).view.emb j) k) * @id Gcn.Wgt (V c main_arg5) (ridx_main_v32 (((cfg2.win 3).blk t).view.emb j) k))
        + @id Gcn.Row (V c main_v51) (idx_main_v47 (((cfg2.win 3).blk t).view.emb j))
  have h0 : ∀ k : Fin 64, ((cfg2.win 0).blk t).view.emb (lrow64 j k) = lidx_main_v32 (((cfg2.win 3).blk t).view.emb j) k := fun k => by
    funext a; apply Fin.ext
    match a with
    | ⟨0, _⟩ => show win2_0.index t (0 : Fin 2) * 5000 + 1 * (j 0).val = win2_3.index t (0 : Fin 2) * 5000 + 1 * (j 0).val; omega
    | ⟨1, _⟩ => show win2_0.index t (1 : Fin 2) * 64 + 1 * k.val = k.val; omega
  have h1 : ∀ k : Fin 64, ((cfg2.win 1).blk t).view.emb (rcol64 j k) = ridx_main_v32 (((cfg2.win 3).blk t).view.emb j) k := fun k => by
    funext a; apply Fin.ext
    match a with
    | ⟨0, _⟩ => show win2_1.index t (0 : Fin 2) * 64 + 1 * k.val = k.val; omega
    | ⟨1, _⟩ => show win2_1.index t (1 : Fin 2) * 64 + 1 * (j 1).val = win2_3.index t (1 : Fin 2) * 64 + 1 * (j 1).val; omega
  have h2 : ((cfg2.win 2).blk t).view.emb (brow j) = idx_main_v47 (((cfg2.win 3).blk t).view.emb j) := by
    funext a; apply Fin.ext
    match a with
    | ⟨0, _⟩ => show win2_2.index t (0 : Fin 2) * 1 + 1 * 0 = 0; omega
    | ⟨1, _⟩ => show win2_2.index t (1 : Fin 2) * 64 + 1 * (j 1).val = win2_3.index t (1 : Fin 2) * 64 + 1 * (j 1).val; omega
  rw [h2]
  exact congrArg (· + _) (Finset.sum_congr rfl fun k _ => by rw [h0 k, h1 k])

/-- An index of the array is in point `t`'s block iff each coordinate is in the block's range on its axis. -/
theorem mem_blk2 (t : Fin cfg2.N) (i : S100000x64.Idx) :
    i ∈ ((cfg2.win 3).blk t).view.set ↔ ∀ a : Fin 2, win2_3.index t a * S5000x64.size a ≤ (i a).val
      ∧ (i a).val < win2_3.index t a * S5000x64.size a + S5000x64.size a := by
  show i ∈ ((View.whole main_v52).slice (win2_3.rect t)).set ↔ _
  rw [View.set_slice_whole, Rect.mem_set_unit]
  exact Iff.rfl

/-- Every index is in some point's block: row n is in the block of point n / 5000. -/
theorem cover2 (i : S100000x64.Idx) :
    ∃ t : Fin cfg2.N, (cfg2.win 3).flush t = true ∧ i ∈ ((cfg2.win 3).blk t).view.set := by
  have hi0 : (i 0).val < 100000 := (i 0).isLt
  have hi1 : (i 1).val < 64 := (i 1).isLt
  obtain ⟨t, ht⟩ := onto2 ⟨(i 0).val / 5000, by omega⟩
  have q0 : win2_3.index t (0 : Fin 2) = (i 0).val / 5000 := congrFun ht 0
  have q1 : win2_3.index t (1 : Fin 2) = 0 := congrFun ht 1
  refine ⟨t, flush2_3 t, ?_⟩
  rw [mem_blk2]
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 64 ≤ (i 1).val ∧ (i 1).val < win2_3.index t (1 : Fin 2) * 64 + 64; omega

/-- THE ARRAY after the region. -/
theorem final2 (c : Dev nD) : (dat2 V c).arrAt 3 cfg2.N = Gcn.linG (V c main_v49) (V c main_arg5) (V c main_v51) :=
  (dat2 V c).arrAt_eq_of_cover 3 _ (fun t _ => flushed2_eq V c t) (cover2)

end Cert.KernelIdeal.Val

end
-- ==== Proof.Ideal.Value3.lean ====
/-
  Region 3's output array after the region, as one function of the arrays the region finds: entry (n, j) is the larger of zero and the first operand's [n, j] plus the bias row's [0, j].

  The grid's 20 points each write back one block of 5000 rows; point t's block is rows 5000·t … 5000·t + 4999 of the
  whole-array function, because the row block the body is handed at t sits at those same rows and the weights and the
  bias row are handed whole.  Row n lies in the block of point n / 5000, so the blocks cover the array.
-/
import proofs.«163322_j18580028523179_1_alg».proof.Proof.Ideal.Region3
import proofs.«163322_j18580028523179_1_alg».proof.Proof.Ideal.Pay
import proofs.«163322_j18580028523179_1_alg».proof.Proof.Fns

set_option maxRecDepth 16384

noncomputable section

namespace Cert.KernelIdeal.Val

open Cert.KernelIdeal Cert.KernelIdeal.Gen Cert.KernelIdeal.Regs
open Idealize.ShloMosaic Idealize.ShloMosaic.TcCoe Idealize.SL.Sem
open Idealize.ShloMosaic.Pipeline (Dat)
open Cert.ReferenceIdeal.Read (lidx_main_v32 ridx_main_v32 lidx_main_v143 ridx_main_v143 idx_main_v47)

variable (V : (c : Dev nD) → (b : Ref sig .tc) → Buf (Elt Ideal) ((c : Thread nD τ).loc b))

theorem hz3 : (![0, 0] : Fin 2 → Nat) = fun _ => 0 := funext fun a => by fin_cases a <;> rfl

/-- The printed index maps over the grid: the input rows' block and the output's block sit at the same rows; the bias row
    is always block (0, 0); the block columns are 0. -/
theorem idx3 : ∀ t : Fin cfg3.N,
    win3_0.index t (0 : Fin 2) = win3_2.index t (0 : Fin 2) ∧ win3_0.index t (1 : Fin 2) = 0
    ∧ win3_1.index t (0 : Fin 2) = 0 ∧ win3_1.index t (1 : Fin 2) = 0
    ∧ win3_2.index t (1 : Fin 2) = 0 ∧ win3_2.index t (0 : Fin 2) ≤ 19 :=
  (by decide +kernel : ∀ t : Fin grid3.N, _)

/-- Every block row of the array is some point's. -/
theorem onto3 : ∀ q0 : Fin 20, ∃ t : Fin cfg3.N, win3_2.index t = ![q0.val, 0] :=
  (by decide +kernel : ∀ q0 : Fin 20, ∃ t : Fin grid3.N, win3_2.index t = ![q0.val, 0])

/-- WHAT POINT `t` WRITES BACK is block `t` of the whole-array function of the arrays as the region finds them. -/
theorem flushed3_eq (c : Dev nD) (t : Fin cfg3.N) :
    (dat3 V c).flushed 2 t = ((cfg3.win 2).blk t).view.read (Elt Ideal) (Gcn.actG (V c main_v65) (V c main_v66)) := by
  show (cfg3.win 2).cut (grid3.coords t) ((dat3 V c).after 2 t) = _
  rw [after3_2]
  unfold out3_2
  rw [View.canon_unit_zero hz3]
  simp only [View.ld_unit_zero (S := S5000x64) hz3, View.ld_unit_zero (S := S1x64) hz3]
  obtain ⟨e0, e1, e2, e3, e4, e5⟩ := idx3 t
  funext j
  refine (pay3_apply _ _ j).trans ?_
  show max (@id Gcn.Mat (V c main_v65) (((cfg3.win 0).blk t).view.emb j) + @id Gcn.Row (V c main_v66) (((cfg3.win 1).blk t).view.emb (brow j))) (Ideal.ofBits .f32 0x00000000#32)
      = max (@id Gcn.Mat (V c main_v65) (((cfg3.win 2).blk t).view.emb j) + @id Gcn.Row (V c main_v66) (idx_main_v47 (((cfg3.win 2).blk t).view.emb j))) (Ideal.ofBits .f32 0x00000000#32)
  have h0 : ((cfg3.win 0).blk t).view.emb j = ((cfg3.win 2).blk t).view.emb j := by
    funext a; apply Fin.ext
    match a with
    | ⟨0, _⟩ => show win3_0.index t (0 : Fin 2) * 5000 + 1 * (j 0).val = win3_2.index t (0 : Fin 2) * 5000 + 1 * (j 0).val; omega
    | ⟨1, _⟩ => show win3_0.index t (1 : Fin 2) * 64 + 1 * (j 1).val = win3_2.index t (1 : Fin 2) * 64 + 1 * (j 1).val; omega
  have h1 : ((cfg3.win 1).blk t).view.emb (brow j) = idx_main_v47 (((cfg3.win 2).blk t).view.emb j) := by
    funext a; apply Fin.ext
    match a with
    | ⟨0, _⟩ => show win3_1.index t (0 : Fin 2) * 1 + 1 * 0 = 0; omega
    | ⟨1, _⟩ => show win3_1.index t (1 : Fin 2) * 64 + 1 * (j 1).val = win3_2.index t (1 : Fin 2) * 64 + 1 * (j 1).val; omega
  rw [h0, h1]

/-- An index of the array is in point `t`'s block iff each coordinate is in the block's range on its axis. -/
theorem mem_blk3 (t : Fin cfg3.N) (i : S100000x64.Idx) :
    i ∈ ((cfg3.win 2).blk t).view.set ↔ ∀ a : Fin 2, win3_2.index t a * S5000x64.size a ≤ (i a).val
      ∧ (i a).val < win3_2.index t a * S5000x64.size a + S5000x64.size a := by
  show i ∈ ((View.whole main_v67).slice (win3_2.rect t)).set ↔ _
  rw [View.set_slice_whole, Rect.mem_set_unit]
  exact Iff.rfl

/-- Every index is in some point's block: row n is in the block of point n / 5000. -/
theorem cover3 (i : S100000x64.Idx) :
    ∃ t : Fin cfg3.N, (cfg3.win 2).flush t = true ∧ i ∈ ((cfg3.win 2).blk t).view.set := by
  have hi0 : (i 0).val < 100000 := (i 0).isLt
  have hi1 : (i 1).val < 64 := (i 1).isLt
  obtain ⟨t, ht⟩ := onto3 ⟨(i 0).val / 5000, by omega⟩
  have q0 : win3_2.index t (0 : Fin 2) = (i 0).val / 5000 := congrFun ht 0
  have q1 : win3_2.index t (1 : Fin 2) = 0 := congrFun ht 1
  refine ⟨t, flush3_2 t, ?_⟩
  rw [mem_blk3]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 64 ≤ (i 1).val ∧ (i 1).val < win3_2.index t (1 : Fin 2) * 64 + 64; omega

/-- THE ARRAY after the region. -/
theorem final3 (c : Dev nD) : (dat3 V c).arrAt 2 cfg3.N = Gcn.actG (V c main_v65) (V c main_v66) :=
  (dat3 V c).arrAt_eq_of_cover 2 _ (fun t _ => flushed3_eq V c t) (cover3)

end Cert.KernelIdeal.Val

end
-- ==== Proof.Ideal.Value4.lean ====
/-
  Region 4's output array after the region, as one function of the arrays the region finds: entry (n, j) is the sum over k of the first operand's [n, k] times the weights' [k, j], plus the bias row's [0, j].

  The grid's 20 points each write back one block of 5000 rows; point t's block is rows 5000·t … 5000·t + 4999 of the
  whole-array function, because the row block the body is handed at t sits at those same rows and the weights and the
  bias row are handed whole.  Row n lies in the block of point n / 5000, so the blocks cover the array.
-/
import proofs.«163322_j18580028523179_1_alg».proof.Proof.Ideal.Region4
import proofs.«163322_j18580028523179_1_alg».proof.Proof.Ideal.Pay
import proofs.«163322_j18580028523179_1_alg».proof.Proof.Fns

set_option maxRecDepth 16384

noncomputable section

namespace Cert.KernelIdeal.Val

open Cert.KernelIdeal Cert.KernelIdeal.Gen Cert.KernelIdeal.Regs
open Idealize.ShloMosaic Idealize.ShloMosaic.TcCoe Idealize.SL.Sem
open Idealize.ShloMosaic.Pipeline (Dat)
open Cert.ReferenceIdeal.Read (lidx_main_v32 ridx_main_v32 lidx_main_v143 ridx_main_v143 idx_main_v47)

variable (V : (c : Dev nD) → (b : Ref sig .tc) → Buf (Elt Ideal) ((c : Thread nD τ).loc b))

theorem hz4 : (![0, 0] : Fin 2 → Nat) = fun _ => 0 := funext fun a => by fin_cases a <;> rfl

/-- The printed index maps over the grid: the input rows' block and the output's block sit at the same rows; the weights
    and the bias row are always block (0, 0); the output's block column is 0. -/
theorem idx4 : ∀ t : Fin cfg4.N,
    win4_0.index t (0 : Fin 2) = win4_3.index t (0 : Fin 2) ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (1 : Fin 2) = 0 ∧ win4_3.index t (0 : Fin 2) ≤ 19 :=
  (by decide +kernel : ∀ t : Fin grid4.N, _)

/-- Every block row of the array is some point's. -/
theorem onto4 : ∀ q0 : Fin 20, ∃ t : Fin cfg4.N, win4_3.index t = ![q0.val, 0] :=
  (by decide +kernel : ∀ q0 : Fin 20, ∃ t : Fin grid4.N, win4_3.index t = ![q0.val, 0])

/-- WHAT POINT `t` WRITES BACK is block `t` of the whole-array function of the arrays as the region finds them. -/
theorem flushed4_eq (c : Dev nD) (t : Fin cfg4.N) :
    (dat4 V c).flushed 3 t = ((cfg4.win 3).blk t).view.read (Elt Ideal) (Gcn.linG (V c main_v67) (V c main_arg7) (V c main_v69)) := by
  show (cfg4.win 3).cut (grid4.coords t) ((dat4 V c).after 3 t) = _
  rw [after4_3]
  unfold out4_3
  rw [View.canon_unit_zero hz4]
  simp only [View.ld_unit_zero (S := S5000x64) hz4, View.ld_unit_zero (S := S64x64) hz4, View.ld_unit_zero (S := S1x64) hz4]
  obtain ⟨e0, e1, e2, e3, e4, e5, e6, e7⟩ := idx4 t
  funext j
  refine (pay4_apply _ _ _ j).trans ?_
  show (∑ k : Fin 64, @id Gcn.Mat (V c main_v67) (((cfg4.win 0).blk t).view.emb (lrow64 j k)) * @id Gcn.Wgt (V c main_arg7) (((cfg4.win 1).blk t).view.emb (rcol64 j k)))
        + @id Gcn.Row (V c main_v69) (((cfg4.win 2).blk t).view.emb (brow j))
      = (∑ k : Fin 64, @id Gcn.Mat (V c main_v67) (lidx_main_v32 (((cfg4.win 3).blk t).view.emb j) k) * @id Gcn.Wgt (V c main_arg7) (ridx_main_v32 (((cfg4.win 3).blk t).view.emb j) k))
        + @id Gcn.Row (V c main_v69) (idx_main_v47 (((cfg4.win 3).blk t).view.emb j))
  have h0 : ∀ k : Fin 64, ((cfg4.win 0).blk t).view.emb (lrow64 j k) = lidx_main_v32 (((cfg4.win 3).blk t).view.emb j) k := fun k => by
    funext a; apply Fin.ext
    match a with
    | ⟨0, _⟩ => show win4_0.index t (0 : Fin 2) * 5000 + 1 * (j 0).val = win4_3.index t (0 : Fin 2) * 5000 + 1 * (j 0).val; omega
    | ⟨1, _⟩ => show win4_0.index t (1 : Fin 2) * 64 + 1 * k.val = k.val; omega
  have h1 : ∀ k : Fin 64, ((cfg4.win 1).blk t).view.emb (rcol64 j k) = ridx_main_v32 (((cfg4.win 3).blk t).view.emb j) k := fun k => by
    funext a; apply Fin.ext
    match a with
    | ⟨0, _⟩ => show win4_1.index t (0 : Fin 2) * 64 + 1 * k.val = k.val; omega
    | ⟨1, _⟩ => show win4_1.index t (1 : Fin 2) * 64 + 1 * (j 1).val = win4_3.index t (1 : Fin 2) * 64 + 1 * (j 1).val; omega
  have h2 : ((cfg4.win 2).blk t).view.emb (brow j) = idx_main_v47 (((cfg4.win 3).blk t).view.emb j) := by
    funext a; apply Fin.ext
    match a with
    | ⟨0, _⟩ => show win4_2.index t (0 : Fin 2) * 1 + 1 * 0 = 0; omega
    | ⟨1, _⟩ => show win4_2.index t (1 : Fin 2) * 64 + 1 * (j 1).val = win4_3.index t (1 : Fin 2) * 64 + 1 * (j 1).val; omega
  rw [h2]
  exact congrArg (· + _) (Finset.sum_congr rfl fun k _ => by rw [h0 k, h1 k])

/-- An index of the array is in point `t`'s block iff each coordinate is in the block's range on its axis. -/
theorem mem_blk4 (t : Fin cfg4.N) (i : S100000x64.Idx) :
    i ∈ ((cfg4.win 3).blk t).view.set ↔ ∀ a : Fin 2, win4_3.index t a * S5000x64.size a ≤ (i a).val
      ∧ (i a).val < win4_3.index t a * S5000x64.size a + S5000x64.size a := by
  show i ∈ ((View.whole main_v70).slice (win4_3.rect t)).set ↔ _
  rw [View.set_slice_whole, Rect.mem_set_unit]
  exact Iff.rfl

/-- Every index is in some point's block: row n is in the block of point n / 5000. -/
theorem cover4 (i : S100000x64.Idx) :
    ∃ t : Fin cfg4.N, (cfg4.win 3).flush t = true ∧ i ∈ ((cfg4.win 3).blk t).view.set := by
  have hi0 : (i 0).val < 100000 := (i 0).isLt
  have hi1 : (i 1).val < 64 := (i 1).isLt
  obtain ⟨t, ht⟩ := onto4 ⟨(i 0).val / 5000, by omega⟩
  have q0 : win4_3.index t (0 : Fin 2) = (i 0).val / 5000 := congrFun ht 0
  have q1 : win4_3.index t (1 : Fin 2) = 0 := congrFun ht 1
  refine ⟨t, flush4_3 t, ?_⟩
  rw [mem_blk4]
  intro a
  match a with
  | ⟨0, _⟩ => show win4_3.index t (0 : Fin 2) * 5000 ≤ (i 0).val ∧ (i 0).val < win4_3.index t (0 : Fin 2) * 5000 + 5000; omega
  | ⟨1, _⟩ => show win4_3.index t (1 : Fin 2) * 64 ≤ (i 1).val ∧ (i 1).val < win4_3.index t (1 : Fin 2) * 64 + 64; omega

/-- THE ARRAY after the region. -/
theorem final4 (c : Dev nD) : (dat4 V c).arrAt 3 cfg4.N = Gcn.linG (V c main_v67) (V c main_arg7) (V c main_v69) :=
  (dat4 V c).arrAt_eq_of_cover 3 _ (fun t _ => flushed4_eq V c t) (cover4)

end Cert.KernelIdeal.Val

end
-- ==== Proof.Ideal.Value5.lean ====
/-
  Region 5's output array after the region, as one function of the arrays the region finds: entry (n, j) is the larger of zero and the first operand's [n, j] plus the bias row's [0, j].

  The grid's 20 points each write back one block of 5000 rows; point t's block is rows 5000·t … 5000·t + 4999 of the
  whole-array function, because the row block the body is handed at t sits at those same rows and the weights and the
  bias row are handed whole.  Row n lies in the block of point n / 5000, so the blocks cover the array.
-/
import proofs.«163322_j18580028523179_1_alg».proof.Proof.Ideal.Region5
import proofs.«163322_j18580028523179_1_alg».proof.Proof.Ideal.Pay
import proofs.«163322_j18580028523179_1_alg».proof.Proof.Fns

set_option maxRecDepth 16384

noncomputable section

namespace Cert.KernelIdeal.Val

open Cert.KernelIdeal Cert.KernelIdeal.Gen Cert.KernelIdeal.Regs
open Idealize.ShloMosaic Idealize.ShloMosaic.TcCoe Idealize.SL.Sem
open Idealize.ShloMosaic.Pipeline (Dat)
open Cert.ReferenceIdeal.Read (lidx_main_v32 ridx_main_v32 lidx_main_v143 ridx_main_v143 idx_main_v47)

variable (V : (c : Dev nD) → (b : Ref sig .tc) → Buf (Elt Ideal) ((c : Thread nD τ).loc b))

theorem hz5 : (![0, 0] : Fin 2 → Nat) = fun _ => 0 := funext fun a => by fin_cases a <;> rfl

/-- The printed index maps over the grid: the input rows' block and the output's block sit at the same rows; the bias row
    is always block (0, 0); the block columns are 0. -/
theorem idx5 : ∀ t : Fin cfg5.N,
    win5_0.index t (0 : Fin 2) = win5_2.index t (0 : Fin 2) ∧ win5_0.index t (1 : Fin 2) = 0
    ∧ win5_1.index t (0 : Fin 2) = 0 ∧ win5_1.index t (1 : Fin 2) = 0
    ∧ win5_2.index t (1 : Fin 2) = 0 ∧ win5_2.index t (0 : Fin 2) ≤ 19 :=
  (by decide +kernel : ∀ t : Fin grid5.N, _)

/-- Every block row of the array is some point's. -/
theorem onto5 : ∀ q0 : Fin 20, ∃ t : Fin cfg5.N, win5_2.index t = ![q0.val, 0] :=
  (by decide +kernel : ∀ q0 : Fin 20, ∃ t : Fin grid5.N, win5_2.index t = ![q0.val, 0])

/-- WHAT POINT `t` WRITES BACK is block `t` of the whole-array function of the arrays as the region finds them. -/
theorem flushed5_eq (c : Dev nD) (t : Fin cfg5.N) :
    (dat5 V c).flushed 2 t = ((cfg5.win 2).blk t).view.read (Elt Ideal) (Gcn.actG (V c main_v83) (V c main_v84)) := by
  show (cfg5.win 2).cut (grid5.coords t) ((dat5 V c).after 2 t) = _
  rw [after5_2]
  unfold out5_2
  rw [View.canon_unit_zero hz5]
  simp only [View.ld_unit_zero (S := S5000x64) hz5, View.ld_unit_zero (S := S1x64) hz5]
  obtain ⟨e0, e1, e2, e3, e4, e5⟩ := idx5 t
  funext j
  refine (pay5_apply _ _ j).trans ?_
  show max (@id Gcn.Mat (V c main_v83) (((cfg5.win 0).blk t).view.emb j) + @id Gcn.Row (V c main_v84) (((cfg5.win 1).blk t).view.emb (brow j))) (Ideal.ofBits .f32 0x00000000#32)
      = max (@id Gcn.Mat (V c main_v83) (((cfg5.win 2).blk t).view.emb j) + @id Gcn.Row (V c main_v84) (idx_main_v47 (((cfg5.win 2).blk t).view.emb j))) (Ideal.ofBits .f32 0x00000000#32)
  have h0 : ((cfg5.win 0).blk t).view.emb j = ((cfg5.win 2).blk t).view.emb j := by
    funext a; apply Fin.ext
    match a with
    | ⟨0, _⟩ => show win5_0.index t (0 : Fin 2) * 5000 + 1 * (j 0).val = win5_2.index t (0 : Fin 2) * 5000 + 1 * (j 0).val; omega
    | ⟨1, _⟩ => show win5_0.index t (1 : Fin 2) * 64 + 1 * (j 1).val = win5_2.index t (1 : Fin 2) * 64 + 1 * (j 1).val; omega
  have h1 : ((cfg5.win 1).blk t).view.emb (brow j) = idx_main_v47 (((cfg5.win 2).blk t).view.emb j) := by
    funext a; apply Fin.ext
    match a with
    | ⟨0, _⟩ => show win5_1.index t (0 : Fin 2) * 1 + 1 * 0 = 0; omega
    | ⟨1, _⟩ => show win5_1.index t (1 : Fin 2) * 64 + 1 * (j 1).val = win5_2.index t (1 : Fin 2) * 64 + 1 * (j 1).val; omega
  rw [h0, h1]

/-- An index of the array is in point `t`'s block iff each coordinate is in the block's range on its axis. -/
theorem mem_blk5 (t : Fin cfg5.N) (i : S100000x64.Idx) :
    i ∈ ((cfg5.win 2).blk t).view.set ↔ ∀ a : Fin 2, win5_2.index t a * S5000x64.size a ≤ (i a).val
      ∧ (i a).val < win5_2.index t a * S5000x64.size a + S5000x64.size a := by
  show i ∈ ((View.whole main_v85).slice (win5_2.rect t)).set ↔ _
  rw [View.set_slice_whole, Rect.mem_set_unit]
  exact Iff.rfl

/-- Every index is in some point's block: row n is in the block of point n / 5000. -/
theorem cover5 (i : S100000x64.Idx) :
    ∃ t : Fin cfg5.N, (cfg5.win 2).flush t = true ∧ i ∈ ((cfg5.win 2).blk t).view.set := by
  have hi0 : (i 0).val < 100000 := (i 0).isLt
  have hi1 : (i 1).val < 64 := (i 1).isLt
  obtain ⟨t, ht⟩ := onto5 ⟨(i 0).val / 5000, by omega⟩
  have q0 : win5_2.index t (0 : Fin 2) = (i 0).val / 5000 := congrFun ht 0
  have q1 : win5_2.index t (1 : Fin 2) = 0 := congrFun ht 1
  refine ⟨t, flush5_2 t, ?_⟩
  rw [mem_blk5]
  intro a
  match a with
  | ⟨0, _⟩ => show win5_2.index t (0 : Fin 2) * 5000 ≤ (i 0).val ∧ (i 0).val < win5_2.index t (0 : Fin 2) * 5000 + 5000; omega
  | ⟨1, _⟩ => show win5_2.index t (1 : Fin 2) * 64 ≤ (i 1).val ∧ (i 1).val < win5_2.index t (1 : Fin 2) * 64 + 64; omega

/-- THE ARRAY after the region. -/
theorem final5 (c : Dev nD) : (dat5 V c).arrAt 2 cfg5.N = Gcn.actG (V c main_v83) (V c main_v84) :=
  (dat5 V c).arrAt_eq_of_cover 2 _ (fun t _ => flushed5_eq V c t) (cover5)

end Cert.KernelIdeal.Val

end
-- ==== Proof.Ideal.Value6.lean ====
/-
  Region 6's output array after the region, as one function of the arrays the region finds: entry (n, j) is the sum over k of the first operand's [n, k] times the weights' [k, j], plus the bias row's [0, j].

  The grid's 20 points each write back one block of 5000 rows; point t's block is rows 5000·t … 5000·t + 4999 of the
  whole-array function, because the row block the body is handed at t sits at those same rows and the weights and the
  bias row are handed whole.  Row n lies in the block of point n / 5000, so the blocks cover the array.
-/
import proofs.«163322_j18580028523179_1_alg».proof.Proof.Ideal.Region6
import proofs.«163322_j18580028523179_1_alg».proof.Proof.Ideal.Pay
import proofs.«163322_j18580028523179_1_alg».proof.Proof.Fns

set_option maxRecDepth 16384

noncomputable section

namespace Cert.KernelIdeal.Val

open Cert.KernelIdeal Cert.KernelIdeal.Gen Cert.KernelIdeal.Regs
open Idealize.ShloMosaic Idealize.ShloMosaic.TcCoe Idealize.SL.Sem
open Idealize.ShloMosaic.Pipeline (Dat)
open Cert.ReferenceIdeal.Read (lidx_main_v32 ridx_main_v32 lidx_main_v143 ridx_main_v143 idx_main_v47)

variable (V : (c : Dev nD) → (b : Ref sig .tc) → Buf (Elt Ideal) ((c : Thread nD τ).loc b))

theorem hz6 : (![0, 0] : Fin 2 → Nat) = fun _ => 0 := funext fun a => by fin_cases a <;> rfl

/-- The printed index maps over the grid: the input rows' block and the output's block sit at the same rows; the weights
    and the bias row are always block (0, 0); the output's block column is 0. -/
theorem idx6 : ∀ t : Fin cfg6.N,
    win6_0.index t (0 : Fin 2) = win6_3.index t (0 : Fin 2) ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (1 : Fin 2) = 0 ∧ win6_3.index t (0 : Fin 2) ≤ 19 :=
  (by decide +kernel : ∀ t : Fin grid6.N, _)

/-- Every block row of the array is some point's. -/
theorem onto6 : ∀ q0 : Fin 20, ∃ t : Fin cfg6.N, win6_3.index t = ![q0.val, 0] :=
  (by decide +kernel : ∀ q0 : Fin 20, ∃ t : Fin grid6.N, win6_3.index t = ![q0.val, 0])

/-- WHAT POINT `t` WRITES BACK is block `t` of the whole-array function of the arrays as the region finds them. -/
theorem flushed6_eq (c : Dev nD) (t : Fin cfg6.N) :
    (dat6 V c).flushed 3 t = ((cfg6.win 3).blk t).view.read (Elt Ideal) (Gcn.linG256 (V c main_v86) (V c main_arg9) (V c main_v87)) := by
  show (cfg6.win 3).cut (grid6.coords t) ((dat6 V c).after 3 t) = _
  rw [after6_3]
  unfold out6_3
  rw [View.canon_unit_zero hz6]
  simp only [View.ld_unit_zero (S := S5000x256) hz6, View.ld_unit_zero (S := S256x64) hz6, View.ld_unit_zero (S := S1x64) hz6]
  obtain ⟨e0, e1, e2, e3, e4, e5, e6, e7⟩ := idx6 t
  funext j
  refine (pay6_apply _ _ _ j).trans ?_
  show (∑ k : Fin 256, @id Gcn.Mat256 (V c main_v86) (((cfg6.win 0).blk t).view.emb (lrow256 j k)) * @id Gcn.WgtF (V c main_arg9) (((cfg6.win 1).blk t).view.emb (rcol256 j k)))
        + @id Gcn.Row (V c main_v87) (((cfg6.win 2).blk t).view.emb (brow j))
      = (∑ k : Fin 256, @id Gcn.Mat256 (V c main_v86) (lidx_main_v143 (((cfg6.win 3).blk t).view.emb j) k) * @id Gcn.WgtF (V c main_arg9) (ridx_main_v143 (((cfg6.win 3).blk t).view.emb j) k))
        + @id Gcn.Row (V c main_v87) (idx_main_v47 (((cfg6.win 3).blk t).view.emb j))
  have h0 : ∀ k : Fin 256, ((cfg6.win 0).blk t).view.emb (lrow256 j k) = lidx_main_v143 (((cfg6.win 3).blk t).view.emb j) k := fun k => by
    funext a; apply Fin.ext
    match a with
    | ⟨0, _⟩ => show win6_0.index t (0 : Fin 2) * 5000 + 1 * (j 0).val = win6_3.index t (0 : Fin 2) * 5000 + 1 * (j 0).val; omega
    | ⟨1, _⟩ => show win6_0.index t (1 : Fin 2) * 256 + 1 * k.val = k.val; omega
  have h1 : ∀ k : Fin 256, ((cfg6.win 1).blk t).view.emb (rcol256 j k) = ridx_main_v143 (((cfg6.win 3).blk t).view.emb j) k := fun k => by
    funext a; apply Fin.ext
    match a with
    | ⟨0, _⟩ => show win6_1.index t (0 : Fin 2) * 256 + 1 * k.val = k.val; omega
    | ⟨1, _⟩ => show win6_1.index t (1 : Fin 2) * 64 + 1 * (j 1).val = win6_3.index t (1 : Fin 2) * 64 + 1 * (j 1).val; omega
  have h2 : ((cfg6.win 2).blk t).view.emb (brow j) = idx_main_v47 (((cfg6.win 3).blk t).view.emb j) := by
    funext a; apply Fin.ext
    match a with
    | ⟨0, _⟩ => show win6_2.index t (0 : Fin 2) * 1 + 1 * 0 = 0; omega
    | ⟨1, _⟩ => show win6_2.index t (1 : Fin 2) * 64 + 1 * (j 1).val = win6_3.index t (1 : Fin 2) * 64 + 1 * (j 1).val; omega
  rw [h2]
  exact congrArg (· + _) (Finset.sum_congr rfl fun k _ => by rw [h0 k, h1 k])

/-- An index of the array is in point `t`'s block iff each coordinate is in the block's range on its axis. -/
theorem mem_blk6 (t : Fin cfg6.N) (i : S100000x64.Idx) :
    i ∈ ((cfg6.win 3).blk t).view.set ↔ ∀ a : Fin 2, win6_3.index t a * S5000x64.size a ≤ (i a).val
      ∧ (i a).val < win6_3.index t a * S5000x64.size a + S5000x64.size a := by
  show i ∈ ((View.whole main_v88).slice (win6_3.rect t)).set ↔ _
  rw [View.set_slice_whole, Rect.mem_set_unit]
  exact Iff.rfl

/-- Every index is in some point's block: row n is in the block of point n / 5000. -/
theorem cover6 (i : S100000x64.Idx) :
    ∃ t : Fin cfg6.N, (cfg6.win 3).flush t = true ∧ i ∈ ((cfg6.win 3).blk t).view.set := by
  have hi0 : (i 0).val < 100000 := (i 0).isLt
  have hi1 : (i 1).val < 64 := (i 1).isLt
  obtain ⟨t, ht⟩ := onto6 ⟨(i 0).val / 5000, by omega⟩
  have q0 : win6_3.index t (0 : Fin 2) = (i 0).val / 5000 := congrFun ht 0
  have q1 : win6_3.index t (1 : Fin 2) = 0 := congrFun ht 1
  refine ⟨t, flush6_3 t, ?_⟩
  rw [mem_blk6]
  intro a
  match a with
  | ⟨0, _⟩ => show win6_3.index t (0 : Fin 2) * 5000 ≤ (i 0).val ∧ (i 0).val < win6_3.index t (0 : Fin 2) * 5000 + 5000; omega
  | ⟨1, _⟩ => show win6_3.index t (1 : Fin 2) * 64 ≤ (i 1).val ∧ (i 1).val < win6_3.index t (1 : Fin 2) * 64 + 64; omega

/-- THE ARRAY after the region. -/
theorem final6 (c : Dev nD) : (dat6 V c).arrAt 3 cfg6.N = Gcn.linG256 (V c main_v86) (V c main_arg9) (V c main_v87) :=
  (dat6 V c).arrAt_eq_of_cover 3 _ (fun t _ => flushed6_eq V c t) (cover6)

end Cert.KernelIdeal.Val

end
-- ==== Proof.Ideal.Chain.lean ====
/-
  The idealized kernel program's buffers followed through its sixteen items, on the extended reals.

  After the first three host stretches the buffers hold the edge list's two index vectors (sources and destinations, the
  self loops appended), the edge normalisation and a zero bias row — the same operations of the edge list and the edge
  weights as the reference applies.  Then, three times: a linear region with the zero row leaves the projection of the
  current features; the next stretch gathers, scales and sums it along the edges — the specification's aggregation — and
  recasts the layer's bias as a row; a bias-and-clamp region leaves the layer's hidden state.  No item overwrites the index
  vectors, the normalisation, an argument or an earlier hidden state, so each is read back to where it was made.  The last
  stretch lays the features and the three hidden states side by side, and the last region, linear over 256 columns with the
  last bias as its row, leaves the network's result.
-/
import proofs.«163322_j18580028523179_1_alg».proof.Proof.Ideal.Run
import proofs.«163322_j18580028523179_1_alg».proof.Proof.Ideal.Value0
import proofs.«163322_j18580028523179_1_alg».proof.Proof.Ideal.Value1
import proofs.«163322_j18580028523179_1_alg».proof.Proof.Ideal.Value2
import proofs.«163322_j18580028523179_1_alg».proof.Proof.Ideal.Value3
import proofs.«163322_j18580028523179_1_alg».proof.Proof.Ideal.Value4
import proofs.«163322_j18580028523179_1_alg».proof.Proof.Ideal.Value5
import proofs.«163322_j18580028523179_1_alg».proof.Proof.Ideal.Value6
import proofs.«163322_j18580028523179_1_alg».proof.Proof.Fns
import Idealize.ShloMosaic.Lib.StableHlo.Run

set_option maxRecDepth 16384

noncomputable section

namespace Cert.KernelIdeal.Val

open Cert.KernelIdeal Cert.KernelIdeal.Gen Cert.KernelIdeal.Regs
open Idealize.ShloMosaic Idealize.ShloMosaic.TcCoe Idealize.SL.Sem Idealize.ShloMosaic.StableHlo
open Cert.ReferenceIdeal.Read (idx_main_v46)

/-! ## Rows -/

/-- A bias vector recast as one row, read at an entry: the vector's entry under that column. -/
theorem rowOf_apply (b : Gcn.Bias) (y : S1x64.Idx) :
    shapeCast S1x64 b shapeCasts_S64_S1x64 y = b (idx_main_v46 y) :=
  shapeCast_apply b shapeCasts_S64_S1x64 y (idx_main_v46 y) (by
    rw [Shape.rowMajor_val_one, Shape.rowMajor_val_two]
    have h0 : (y 0).val < 1 := (y 0).isLt
    show (y 1).val = (y 0).val * 64 + (y 1).val
    omega)

/-- The zero vector recast as one row is zero everywhere. -/
theorem zeroRow_apply (y : S1x64.Idx) :
    shapeCast S1x64 (broadcastInDim S64 ![] bcast_S_S64 (constant (F := Ideal) S_ .f32 0x00000000#32)) shapeCasts_S64_S1x64 y = 0 := by
  rw [rowOf_apply]
  show Ideal.ofBits .f32 0x00000000#32 = 0
  exact Ideal.ofBits_zero_f32

/-! ## The host stretches, at any contents of the buffers they start from -/

set_option maxHeartbeats 2000000 in
/-- The host stretch after a projection: the projected rows gathered along the edges, scaled by the edge normalisation and
    summed into their destination rows — the specification's aggregation of whatever the projection's array holds — and the
    layer's bias vector recast as one row. -/
theorem stretch1_agg (V : Valuation τ sig (Elt Ideal)) (e : Gcn.Edges) (a : Gcn.EdgeW)
    (h5 : V (Proc.devRef .tc main_v5) = Cert.ReferenceIdeal.Read.val_main_v5 (F := Ideal) e) (h6 : V (Proc.devRef .tc main_v6) = Cert.ReferenceIdeal.Read.val_main_v6 (F := Ideal) e)
    (h31 : V (Proc.devRef .tc main_v31) = Cert.ReferenceIdeal.Read.val_main_v31 (F := Ideal) e a) :
    StableHlo.after hostOps1 V (Proc.devRef .tc main_v47) = Gcn.agg e a (V (Proc.devRef .tc main_v34)) := by
  after_results_simp
  rw [h5, h6, h31]
  rfl
theorem stretch1_row (V : Valuation τ sig (Elt Ideal)) :
    StableHlo.after hostOps1 V (Proc.devRef .tc main_v48) = shapeCast S1x64 (V (Proc.devRef .tc main_arg4)) shapeCasts_S64_S1x64 := by
  after_results
  rfl

set_option maxHeartbeats 2000000 in
/-- The host stretch after a projection: the projected rows gathered along the edges, scaled by the edge normalisation and
    summed into their destination rows — the specification's aggregation of whatever the projection's array holds — and the
    layer's bias vector recast as one row. -/
theorem stretch3_agg (V : Valuation τ sig (Elt Ideal)) (e : Gcn.Edges) (a : Gcn.EdgeW)
    (h5 : V (Proc.devRef .tc main_v5) = Cert.ReferenceIdeal.Read.val_main_v5 (F := Ideal) e) (h6 : V (Proc.devRef .tc main_v6) = Cert.ReferenceIdeal.Read.val_main_v6 (F := Ideal) e)
    (h31 : V (Proc.devRef .tc main_v31) = Cert.ReferenceIdeal.Read.val_main_v31 (F := Ideal) e a) :
    StableHlo.after hostOps3 V (Proc.devRef .tc main_v65) = Gcn.agg e a (V (Proc.devRef .tc main_v52)) := by
  after_results_simp
  rw [h5, h6, h31]
  rfl
theorem stretch3_row (V : Valuation τ sig (Elt Ideal)) :
    StableHlo.after hostOps3 V (Proc.devRef .tc main_v66) = shapeCast S1x64 (V (Proc.devRef .tc main_arg6)) shapeCasts_S64_S1x64 := by
  after_results
  rfl

set_option maxHeartbeats 2000000 in
/-- The host stretch after a projection: the projected rows gathered along the edges, scaled by the edge normalisation and
    summed into their destination rows — the specification's aggregation of whatever the projection's array holds — and the
    layer's bias vector recast as one row. -/
theorem stretch5_agg (V : Valuation τ sig (Elt Ideal)) (e : Gcn.Edges) (a : Gcn.EdgeW)
    (h5 : V (Proc.devRef .tc main_v5) = Cert.ReferenceIdeal.Read.val_main_v5 (F := Ideal) e) (h6 : V (Proc.devRef .tc main_v6) = Cert.ReferenceIdeal.Read.val_main_v6 (F := Ideal) e)
    (h31 : V (Proc.devRef .tc main_v31) = Cert.ReferenceIdeal.Read.val_main_v31 (F := Ideal) e a) :
    StableHlo.after hostOps5 V (Proc.devRef .tc main_v83) = Gcn.agg e a (V (Proc.devRef .tc main_v70)) := by
  after_results_simp
  rw [h5, h6, h31]
  rfl
theorem stretch5_row (V : Valuation τ sig (Elt Ideal)) :
    StableHlo.after hostOps5 V (Proc.devRef .tc main_v84) = shapeCast S1x64 (V (Proc.devRef .tc main_arg8)) shapeCasts_S64_S1x64 := by
  after_results
  rfl

/-- The host stretch before a projection makes the zero bias row. -/
theorem stretch2_zero (V : Valuation τ sig (Elt Ideal)) (y : S1x64.Idx) :
    @id Gcn.Row (StableHlo.after hostOps2 V (Proc.devRef .tc main_v51)) y = 0 := by
  have e : StableHlo.after hostOps2 V (Proc.devRef .tc main_v51)
      = shapeCast S1x64 (broadcastInDim S64 ![] bcast_S_S64 (constant (F := Ideal) S_ .f32 0x00000000#32)) shapeCasts_S64_S1x64 := by
    after_results
    rfl
  exact (congrFun e y).trans (zeroRow_apply y)

/-- The host stretch before a projection makes the zero bias row. -/
theorem stretch4_zero (V : Valuation τ sig (Elt Ideal)) (y : S1x64.Idx) :
    @id Gcn.Row (StableHlo.after hostOps4 V (Proc.devRef .tc main_v69)) y = 0 := by
  have e : StableHlo.after hostOps4 V (Proc.devRef .tc main_v69)
      = shapeCast S1x64 (broadcastInDim S64 ![] bcast_S_S64 (constant (F := Ideal) S_ .f32 0x00000000#32)) shapeCasts_S64_S1x64 := by
    after_results
    rfl
  exact (congrFun e y).trans (zeroRow_apply y)

/-- The last stretch: the features and the three hidden states side by side, and the last bias recast as a row. -/
theorem stretch6_cat (V : Valuation τ sig (Elt Ideal)) :
    StableHlo.after hostOps6 V (Proc.devRef .tc main_v86)
      = Gcn.cat (V (Proc.devRef .tc main_arg0)) (V (Proc.devRef .tc main_v49)) (V (Proc.devRef .tc main_v67)) (V (Proc.devRef .tc main_v85)) := by
  after_results
  rfl
theorem stretch6_row (V : Valuation τ sig (Elt Ideal)) :
    StableHlo.after hostOps6 V (Proc.devRef .tc main_v87) = shapeCast S1x64 (V (Proc.devRef .tc main_arg10)) shapeCasts_S64_S1x64 := by
  after_results
  rfl

/-! ## The first three stretches, at any contents of the buffers they start from -/

/-- The first stretch: the two index vectors (sources, destinations; the self loops appended), the edge weights with a
    one per self loop, and from the weights summed per destination the test "positive" and the reciprocal square root. -/
theorem pre_v5 (V : Valuation τ sig (Elt Ideal)) :
    StableHlo.after hostOps0 V (Proc.devRef .tc main_v5) = Cert.ReferenceIdeal.Read.val_main_v5 (F := Ideal) (V (Proc.devRef .tc main_arg1)) := by
  after_results_simp
  rfl
theorem pre_v6 (V : Valuation τ sig (Elt Ideal)) :
    StableHlo.after hostOps0 V (Proc.devRef .tc main_v6) = Cert.ReferenceIdeal.Read.val_main_v6 (F := Ideal) (V (Proc.devRef .tc main_arg1)) := by
  after_results_simp
  rfl
theorem pre_v8 (V : Valuation τ sig (Elt Ideal)) :
    StableHlo.after hostOps0 V (Proc.devRef .tc main_v8) = Cert.ReferenceIdeal.Read.val_main_v8 (F := Ideal) (V (Proc.devRef .tc main_arg2)) := by
  after_results_simp
  rfl
theorem pre_v13 (V : Valuation τ sig (Elt Ideal)) :
    StableHlo.after hostOps0 V (Proc.devRef .tc main_v13)
      = Cert.ReferenceIdeal.Read.val_main_v13 (F := Ideal) (V (Proc.devRef .tc main_arg1)) (V (Proc.devRef .tc main_arg2)) := by
  after_results_simp
  rfl
theorem pre_v14 (V : Valuation τ sig (Elt Ideal)) :
    StableHlo.after hostOps0 V (Proc.devRef .tc main_v14)
      = Cert.ReferenceIdeal.Read.val_main_v14 (F := Ideal) (V (Proc.devRef .tc main_arg1)) (V (Proc.devRef .tc main_arg2)) := by
  after_results_simp
  rfl
theorem pre_cst2 (V : Valuation τ sig (Elt Ideal)) :
    StableHlo.after hostOps0 V (Proc.devRef .tc main_cst_2) = Cert.ReferenceIdeal.Read.val_main_cst_2 (F := Ideal) := by
  after_results_simp
  rfl

/-- The second stretch: the reciprocal square root where the summed weight is positive, zero elsewhere. -/
theorem where_raw (V : Valuation τ sig (Elt Ideal)) :
    StableHlo.after hostOps0_1 V (Proc.devRef .tc main_v15)
      = select (V (Proc.devRef .tc main_v13)) (V (Proc.devRef .tc main_v14))
          (broadcastInDim S100000 ![] bcast_S_S100000 (id (V (Proc.devRef .tc main_cst_2)))) := by
  after_results_simp
  rfl
theorem where_eq (V : Valuation τ sig (Elt Ideal)) (e : Gcn.Edges) (a : Gcn.EdgeW)
    (h13 : V (Proc.devRef .tc main_v13) = Cert.ReferenceIdeal.Read.val_main_v13 (F := Ideal) e a) (h14 : V (Proc.devRef .tc main_v14) = Cert.ReferenceIdeal.Read.val_main_v14 (F := Ideal) e a)
    (hc : V (Proc.devRef .tc main_cst_2) = Cert.ReferenceIdeal.Read.val_main_cst_2 (F := Ideal)) :
    StableHlo.after hostOps0_1 V (Proc.devRef .tc main_v15) = Cert.ReferenceIdeal.Read.val_main_v15 (F := Ideal) e a := by
  rw [where_raw, h13, h14, hc]
  rfl

set_option maxHeartbeats 2000000 in
/-- The third stretch: each edge's normalisation, the source's factor times the weight times the destination's factor. -/
theorem norm_eq (V : Valuation τ sig (Elt Ideal)) (e : Gcn.Edges) (a : Gcn.EdgeW)
    (h5 : V (Proc.devRef .tc main_v5) = Cert.ReferenceIdeal.Read.val_main_v5 (F := Ideal) e) (h6 : V (Proc.devRef .tc main_v6) = Cert.ReferenceIdeal.Read.val_main_v6 (F := Ideal) e)
    (h8 : V (Proc.devRef .tc main_v8) = Cert.ReferenceIdeal.Read.val_main_v8 (F := Ideal) a) (h15 : V (Proc.devRef .tc main_v15) = Cert.ReferenceIdeal.Read.val_main_v15 (F := Ideal) e a) :
    StableHlo.after hostOps0_2 V (Proc.devRef .tc main_v31) = Cert.ReferenceIdeal.Read.val_main_v31 (F := Ideal) e a := by
  after_results_simp
  rw [h5, h6, h8, h15]
  rfl

/-- The third stretch also makes the first zero bias row. -/
theorem stretch0_zero (V : Valuation τ sig (Elt Ideal)) (y : S1x64.Idx) :
    @id Gcn.Row (StableHlo.after hostOps0_2 V (Proc.devRef .tc main_v33)) y = 0 := by
  have e : StableHlo.after hostOps0_2 V (Proc.devRef .tc main_v33)
      = shapeCast S1x64 (broadcastInDim S64 ![] bcast_S_S64 (constant (F := Ideal) S_ .f32 0x00000000#32)) shapeCasts_S64_S1x64 := by
    after_results_simp
    rfl
  exact (congrFun e y).trans (zeroRow_apply y)

section Chain

variable (m : (ℓ : Loc nD τ sig) → Buf (Elt Ideal) ℓ) (c : Dev nD)

/-! ## What the first three stretches leave -/

theorem Wi0_v5 : Wi0 m c (Proc.devRef .tc main_v5) = Cert.ReferenceIdeal.Read.val_main_v5 (F := Ideal) (m ((c : Thread nD τ).loc main_arg1)) :=
  (Gen.V3_of m c main_v5 (by decide)).trans ((Gen.V2_of m c main_v5 (by decide)).trans (pre_v5 (Gen.V0 m c)))
theorem Wi0_v6 : Wi0 m c (Proc.devRef .tc main_v6) = Cert.ReferenceIdeal.Read.val_main_v6 (F := Ideal) (m ((c : Thread nD τ).loc main_arg1)) :=
  (Gen.V3_of m c main_v6 (by decide)).trans ((Gen.V2_of m c main_v6 (by decide)).trans (pre_v6 (Gen.V0 m c)))
theorem Wi0_v31 : Wi0 m c (Proc.devRef .tc main_v31) = Cert.ReferenceIdeal.Read.val_main_v31 (F := Ideal) (m ((c : Thread nD τ).loc main_arg1)) (m ((c : Thread nD τ).loc main_arg2)) :=
  norm_eq (Gen.V2 m c) (m ((c : Thread nD τ).loc main_arg1)) (m ((c : Thread nD τ).loc main_arg2))
    ((Gen.V2_of m c main_v5 (by decide)).trans (pre_v5 (Gen.V0 m c)))
    ((Gen.V2_of m c main_v6 (by decide)).trans (pre_v6 (Gen.V0 m c)))
    ((Gen.V2_of m c main_v8 (by decide)).trans (pre_v8 (Gen.V0 m c)))
    (where_eq (Gen.V1 m c) (m ((c : Thread nD τ).loc main_arg1)) (m ((c : Thread nD τ).loc main_arg2)) (pre_v13 (Gen.V0 m c)) (pre_v14 (Gen.V0 m c)) (pre_cst2 (Gen.V0 m c)))
theorem Wi0_v33 (y : S1x64.Idx) : @id Gcn.Row (Wi0 m c (Proc.devRef .tc main_v33)) y = 0 :=
  stretch0_zero (Gen.V2 m c) y

/-! ## Nothing overwrites what a later item reads -/

theorem Wi0_arg0 : Wi0 m c (Proc.devRef .tc main_arg0) = m ((c : Thread nD τ).loc main_arg0) :=
  calc Wi0 m c (Proc.devRef .tc main_arg0)
    _ = Gen.V2 m c (Proc.devRef .tc main_arg0) := Gen.V3_of m c main_arg0 (by decide)
    _ = Gen.V1 m c (Proc.devRef .tc main_arg0) := Gen.V2_of m c main_arg0 (by decide)
    _ = Gen.V0 m c (Proc.devRef .tc main_arg0) := Gen.V1_of m c main_arg0 (by decide)
    _ = m ((c : Thread nD τ).loc main_arg0) := rfl

theorem Wi0_arg3 : Wi0 m c (Proc.devRef .tc main_arg3) = m ((c : Thread nD τ).loc main_arg3) :=
  calc Wi0 m c (Proc.devRef .tc main_arg3)
    _ = Gen.V2 m c (Proc.devRef .tc main_arg3) := Gen.V3_of m c main_arg3 (by decide)
    _ = Gen.V1 m c (Proc.devRef .tc main_arg3) := Gen.V2_of m c main_arg3 (by decide)
    _ = Gen.V0 m c (Proc.devRef .tc main_arg3) := Gen.V1_of m c main_arg3 (by decide)
    _ = m ((c : Thread nD τ).loc main_arg3) := rfl

theorem Wo0_v5 : Wo0 m c (Proc.devRef .tc main_v5) = Wi0 m c (Proc.devRef .tc main_v5) :=
  calc Wo0 m c (Proc.devRef .tc main_v5)
    _ = Wi0 m c (Proc.devRef .tc main_v5) := Wo0_of_ne m c main_v5 (by decide)

theorem Wo0_v6 : Wo0 m c (Proc.devRef .tc main_v6) = Wi0 m c (Proc.devRef .tc main_v6) :=
  calc Wo0 m c (Proc.devRef .tc main_v6)
    _ = Wi0 m c (Proc.devRef .tc main_v6) := Wo0_of_ne m c main_v6 (by decide)

theorem Wo0_v31 : Wo0 m c (Proc.devRef .tc main_v31) = Wi0 m c (Proc.devRef .tc main_v31) :=
  calc Wo0 m c (Proc.devRef .tc main_v31)
    _ = Wi0 m c (Proc.devRef .tc main_v31) := Wo0_of_ne m c main_v31 (by decide)

theorem Wo0_arg4 : Wo0 m c (Proc.devRef .tc main_arg4) = m ((c : Thread nD τ).loc main_arg4) :=
  calc Wo0 m c (Proc.devRef .tc main_arg4)
    _ = Wi0 m c (Proc.devRef .tc main_arg4) := Wo0_of_ne m c main_arg4 (by decide)
    _ = Gen.V2 m c (Proc.devRef .tc main_arg4) := Gen.V3_of m c main_arg4 (by decide)
    _ = Gen.V1 m c (Proc.devRef .tc main_arg4) := Gen.V2_of m c main_arg4 (by decide)
    _ = Gen.V0 m c (Proc.devRef .tc main_arg4) := Gen.V1_of m c main_arg4 (by decide)
    _ = m ((c : Thread nD τ).loc main_arg4) := rfl

theorem Wi2_v49 : Wi2 m c (Proc.devRef .tc main_v49) = Wo1 m c (Proc.devRef .tc main_v49) :=
  calc Wi2 m c (Proc.devRef .tc main_v49)
    _ = Wo1 m c (Proc.devRef .tc main_v49) := StableHlo.after_of_writes_sub hostOps2 _ Gen.hostOps2_writes (by decide)

theorem Wi2_arg5 : Wi2 m c (Proc.devRef .tc main_arg5) = m ((c : Thread nD τ).loc main_arg5) :=
  calc Wi2 m c (Proc.devRef .tc main_arg5)
    _ = Wo1 m c (Proc.devRef .tc main_arg5) := StableHlo.after_of_writes_sub hostOps2 _ Gen.hostOps2_writes (by decide)
    _ = Wi1 m c (Proc.devRef .tc main_arg5) := Wo1_of_ne m c main_arg5 (by decide)
    _ = Wo0 m c (Proc.devRef .tc main_arg5) := StableHlo.after_of_writes_sub hostOps1 _ Gen.hostOps1_writes (by decide)
    _ = Wi0 m c (Proc.devRef .tc main_arg5) := Wo0_of_ne m c main_arg5 (by decide)
    _ = Gen.V2 m c (Proc.devRef .tc main_arg5) := Gen.V3_of m c main_arg5 (by decide)
    _ = Gen.V1 m c (Proc.devRef .tc main_arg5) := Gen.V2_of m c main_arg5 (by decide)
    _ = Gen.V0 m c (Proc.devRef .tc main_arg5) := Gen.V1_of m c main_arg5 (by decide)
    _ = m ((c : Thread nD τ).loc main_arg5) := rfl

theorem Wo2_v5 : Wo2 m c (Proc.devRef .tc main_v5) = Wi0 m c (Proc.devRef .tc main_v5) :=
  calc Wo2 m c (Proc.devRef .tc main_v5)
    _ = Wi2 m c (Proc.devRef .tc main_v5) := Wo2_of_ne m c main_v5 (by decide)
    _ = Wo1 m c (Proc.devRef .tc main_v5) := StableHlo.after_of_writes_sub hostOps2 _ Gen.hostOps2_writes (by decide)
    _ = Wi1 m c (Proc.devRef .tc main_v5) := Wo1_of_ne m c main_v5 (by decide)
    _ = Wo0 m c (Proc.devRef .tc main_v5) := StableHlo.after_of_writes_sub hostOps1 _ Gen.hostOps1_writes (by decide)
    _ = Wi0 m c (Proc.devRef .tc main_v5) := Wo0_of_ne m c main_v5 (by decide)

theorem Wo2_v6 : Wo2 m c (Proc.devRef .tc main_v6) = Wi0 m c (Proc.devRef .tc main_v6) :=
  calc Wo2 m c (Proc.devRef .tc main_v6)
    _ = Wi2 m c (Proc.devRef .tc main_v6) := Wo2_of_ne m c main_v6 (by decide)
    _ = Wo1 m c (Proc.devRef .tc main_v6) := StableHlo.after_of_writes_sub hostOps2 _ Gen.hostOps2_writes (by decide)
    _ = Wi1 m c (Proc.devRef .tc main_v6) := Wo1_of_ne m c main_v6 (by decide)
    _ = Wo0 m c (Proc.devRef .tc main_v6) := StableHlo.after_of_writes_sub hostOps1 _ Gen.hostOps1_writes (by decide)
    _ = Wi0 m c (Proc.devRef .tc main_v6) := Wo0_of_ne m c main_v6 (by decide)

theorem Wo2_v31 : Wo2 m c (Proc.devRef .tc main_v31) = Wi0 m c (Proc.devRef .tc main_v31) :=
  calc Wo2 m c (Proc.devRef .tc main_v31)
    _ = Wi2 m c (Proc.devRef .tc main_v31) := Wo2_of_ne m c main_v31 (by decide)
    _ = Wo1 m c (Proc.devRef .tc main_v31) := StableHlo.after_of_writes_sub hostOps2 _ Gen.hostOps2_writes (by decide)
    _ = Wi1 m c (Proc.devRef .tc main_v31) := Wo1_of_ne m c main_v31 (by decide)
    _ = Wo0 m c (Proc.devRef .tc main_v31) := StableHlo.after_of_writes_sub hostOps1 _ Gen.hostOps1_writes (by decide)
    _ = Wi0 m c (Proc.devRef .tc main_v31) := Wo0_of_ne m c main_v31 (by decide)

theorem Wo2_arg6 : Wo2 m c (Proc.devRef .tc main_arg6) = m ((c : Thread nD τ).loc main_arg6) :=
  calc Wo2 m c (Proc.devRef .tc main_arg6)
    _ = Wi2 m c (Proc.devRef .tc main_arg6) := Wo2_of_ne m c main_arg6 (by decide)
    _ = Wo1 m c (Proc.devRef .tc main_arg6) := StableHlo.after_of_writes_sub hostOps2 _ Gen.hostOps2_writes (by decide)
    _ = Wi1 m c (Proc.devRef .tc main_arg6) := Wo1_of_ne m c main_arg6 (by decide)
    _ = Wo0 m c (Proc.devRef .tc main_arg6) := StableHlo.after_of_writes_sub hostOps1 _ Gen.hostOps1_writes (by decide)
    _ = Wi0 m c (Proc.devRef .tc main_arg6) := Wo0_of_ne m c main_arg6 (by decide)
    _ = Gen.V2 m c (Proc.devRef .tc main_arg6) := Gen.V3_of m c main_arg6 (by decide)
    _ = Gen.V1 m c (Proc.devRef .tc main_arg6) := Gen.V2_of m c main_arg6 (by decide)
    _ = Gen.V0 m c (Proc.devRef .tc main_arg6) := Gen.V1_of m c main_arg6 (by decide)
    _ = m ((c : Thread nD τ).loc main_arg6) := rfl

theorem Wi4_v67 : Wi4 m c (Proc.devRef .tc main_v67) = Wo3 m c (Proc.devRef .tc main_v67) :=
  calc Wi4 m c (Proc.devRef .tc main_v67)
    _ = Wo3 m c (Proc.devRef .tc main_v67) := StableHlo.after_of_writes_sub hostOps4 _ Gen.hostOps4_writes (by decide)

theorem Wi4_arg7 : Wi4 m c (Proc.devRef .tc main_arg7) = m ((c : Thread nD τ).loc main_arg7) :=
  calc Wi4 m c (Proc.devRef .tc main_arg7)
    _ = Wo3 m c (Proc.devRef .tc main_arg7) := StableHlo.after_of_writes_sub hostOps4 _ Gen.hostOps4_writes (by decide)
    _ = Wi3 m c (Proc.devRef .tc main_arg7) := Wo3_of_ne m c main_arg7 (by decide)
    _ = Wo2 m c (Proc.devRef .tc main_arg7) := StableHlo.after_of_writes_sub hostOps3 _ Gen.hostOps3_writes (by decide)
    _ = Wi2 m c (Proc.devRef .tc main_arg7) := Wo2_of_ne m c main_arg7 (by decide)
    _ = Wo1 m c (Proc.devRef .tc main_arg7) := StableHlo.after_of_writes_sub hostOps2 _ Gen.hostOps2_writes (by decide)
    _ = Wi1 m c (Proc.devRef .tc main_arg7) := Wo1_of_ne m c main_arg7 (by decide)
    _ = Wo0 m c (Proc.devRef .tc main_arg7) := StableHlo.after_of_writes_sub hostOps1 _ Gen.hostOps1_writes (by decide)
    _ = Wi0 m c (Proc.devRef .tc main_arg7) := Wo0_of_ne m c main_arg7 (by decide)
    _ = Gen.V2 m c (Proc.devRef .tc main_arg7) := Gen.V3_of m c main_arg7 (by decide)
    _ = Gen.V1 m c (Proc.devRef .tc main_arg7) := Gen.V2_of m c main_arg7 (by decide)
    _ = Gen.V0 m c (Proc.devRef .tc main_arg7) := Gen.V1_of m c main_arg7 (by decide)
    _ = m ((c : Thread nD τ).loc main_arg7) := rfl

theorem Wo4_v5 : Wo4 m c (Proc.devRef .tc main_v5) = Wi0 m c (Proc.devRef .tc main_v5) :=
  calc Wo4 m c (Proc.devRef .tc main_v5)
    _ = Wi4 m c (Proc.devRef .tc main_v5) := Wo4_of_ne m c main_v5 (by decide)
    _ = Wo3 m c (Proc.devRef .tc main_v5) := StableHlo.after_of_writes_sub hostOps4 _ Gen.hostOps4_writes (by decide)
    _ = Wi3 m c (Proc.devRef .tc main_v5) := Wo3_of_ne m c main_v5 (by decide)
    _ = Wo2 m c (Proc.devRef .tc main_v5) := StableHlo.after_of_writes_sub hostOps3 _ Gen.hostOps3_writes (by decide)
    _ = Wi2 m c (Proc.devRef .tc main_v5) := Wo2_of_ne m c main_v5 (by decide)
    _ = Wo1 m c (Proc.devRef .tc main_v5) := StableHlo.after_of_writes_sub hostOps2 _ Gen.hostOps2_writes (by decide)
    _ = Wi1 m c (Proc.devRef .tc main_v5) := Wo1_of_ne m c main_v5 (by decide)
    _ = Wo0 m c (Proc.devRef .tc main_v5) := StableHlo.after_of_writes_sub hostOps1 _ Gen.hostOps1_writes (by decide)
    _ = Wi0 m c (Proc.devRef .tc main_v5) := Wo0_of_ne m c main_v5 (by decide)

theorem Wo4_v6 : Wo4 m c (Proc.devRef .tc main_v6) = Wi0 m c (Proc.devRef .tc main_v6) :=
  calc Wo4 m c (Proc.devRef .tc main_v6)
    _ = Wi4 m c (Proc.devRef .tc main_v6) := Wo4_of_ne m c main_v6 (by decide)
    _ = Wo3 m c (Proc.devRef .tc main_v6) := StableHlo.after_of_writes_sub hostOps4 _ Gen.hostOps4_writes (by decide)
    _ = Wi3 m c (Proc.devRef .tc main_v6) := Wo3_of_ne m c main_v6 (by decide)
    _ = Wo2 m c (Proc.devRef .tc main_v6) := StableHlo.after_of_writes_sub hostOps3 _ Gen.hostOps3_writes (by decide)
    _ = Wi2 m c (Proc.devRef .tc main_v6) := Wo2_of_ne m c main_v6 (by decide)
    _ = Wo1 m c (Proc.devRef .tc main_v6) := StableHlo.after_of_writes_sub hostOps2 _ Gen.hostOps2_writes (by decide)
    _ = Wi1 m c (Proc.devRef .tc main_v6) := Wo1_of_ne m c main_v6 (by decide)
    _ = Wo0 m c (Proc.devRef .tc main_v6) := StableHlo.after_of_writes_sub hostOps1 _ Gen.hostOps1_writes (by decide)
    _ = Wi0 m c (Proc.devRef .tc main_v6) := Wo0_of_ne m c main_v6 (by decide)

theorem Wo4_v31 : Wo4 m c (Proc.devRef .tc main_v31) = Wi0 m c (Proc.devRef .tc main_v31) :=
  calc Wo4 m c (Proc.devRef .tc main_v31)
    _ = Wi4 m c (Proc.devRef .tc main_v31) := Wo4_of_ne m c main_v31 (by decide)
    _ = Wo3 m c (Proc.devRef .tc main_v31) := StableHlo.after_of_writes_sub hostOps4 _ Gen.hostOps4_writes (by decide)
    _ = Wi3 m c (Proc.devRef .tc main_v31) := Wo3_of_ne m c main_v31 (by decide)
    _ = Wo2 m c (Proc.devRef .tc main_v31) := StableHlo.after_of_writes_sub hostOps3 _ Gen.hostOps3_writes (by decide)
    _ = Wi2 m c (Proc.devRef .tc main_v31) := Wo2_of_ne m c main_v31 (by decide)
    _ = Wo1 m c (Proc.devRef .tc main_v31) := StableHlo.after_of_writes_sub hostOps2 _ Gen.hostOps2_writes (by decide)
    _ = Wi1 m c (Proc.devRef .tc main_v31) := Wo1_of_ne m c main_v31 (by decide)
    _ = Wo0 m c (Proc.devRef .tc main_v31) := StableHlo.after_of_writes_sub hostOps1 _ Gen.hostOps1_writes (by decide)
    _ = Wi0 m c (Proc.devRef .tc main_v31) := Wo0_of_ne m c main_v31 (by decide)

theorem Wo4_arg8 : Wo4 m c (Proc.devRef .tc main_arg8) = m ((c : Thread nD τ).loc main_arg8) :=
  calc Wo4 m c (Proc.devRef .tc main_arg8)
    _ = Wi4 m c (Proc.devRef .tc main_arg8) := Wo4_of_ne m c main_arg8 (by decide)
    _ = Wo3 m c (Proc.devRef .tc main_arg8) := StableHlo.after_of_writes_sub hostOps4 _ Gen.hostOps4_writes (by decide)
    _ = Wi3 m c (Proc.devRef .tc main_arg8) := Wo3_of_ne m c main_arg8 (by decide)
    _ = Wo2 m c (Proc.devRef .tc main_arg8) := StableHlo.after_of_writes_sub hostOps3 _ Gen.hostOps3_writes (by decide)
    _ = Wi2 m c (Proc.devRef .tc main_arg8) := Wo2_of_ne m c main_arg8 (by decide)
    _ = Wo1 m c (Proc.devRef .tc main_arg8) := StableHlo.after_of_writes_sub hostOps2 _ Gen.hostOps2_writes (by decide)
    _ = Wi1 m c (Proc.devRef .tc main_arg8) := Wo1_of_ne m c main_arg8 (by decide)
    _ = Wo0 m c (Proc.devRef .tc main_arg8) := StableHlo.after_of_writes_sub hostOps1 _ Gen.hostOps1_writes (by decide)
    _ = Wi0 m c (Proc.devRef .tc main_arg8) := Wo0_of_ne m c main_arg8 (by decide)
    _ = Gen.V2 m c (Proc.devRef .tc main_arg8) := Gen.V3_of m c main_arg8 (by decide)
    _ = Gen.V1 m c (Proc.devRef .tc main_arg8) := Gen.V2_of m c main_arg8 (by decide)
    _ = Gen.V0 m c (Proc.devRef .tc main_arg8) := Gen.V1_of m c main_arg8 (by decide)
    _ = m ((c : Thread nD τ).loc main_arg8) := rfl

theorem Wo5_arg0 : Wo5 m c (Proc.devRef .tc main_arg0) = m ((c : Thread nD τ).loc main_arg0) :=
  calc Wo5 m c (Proc.devRef .tc main_arg0)
    _ = Wi5 m c (Proc.devRef .tc main_arg0) := Wo5_of_ne m c main_arg0 (by decide)
    _ = Wo4 m c (Proc.devRef .tc main_arg0) := StableHlo.after_of_writes_sub hostOps5 _ Gen.hostOps5_writes (by decide)
    _ = Wi4 m c (Proc.devRef .tc main_arg0) := Wo4_of_ne m c main_arg0 (by decide)
    _ = Wo3 m c (Proc.devRef .tc main_arg0) := StableHlo.after_of_writes_sub hostOps4 _ Gen.hostOps4_writes (by decide)
    _ = Wi3 m c (Proc.devRef .tc main_arg0) := Wo3_of_ne m c main_arg0 (by decide)
    _ = Wo2 m c (Proc.devRef .tc main_arg0) := StableHlo.after_of_writes_sub hostOps3 _ Gen.hostOps3_writes (by decide)
    _ = Wi2 m c (Proc.devRef .tc main_arg0) := Wo2_of_ne m c main_arg0 (by decide)
    _ = Wo1 m c (Proc.devRef .tc main_arg0) := StableHlo.after_of_writes_sub hostOps2 _ Gen.hostOps2_writes (by decide)
    _ = Wi1 m c (Proc.devRef .tc main_arg0) := Wo1_of_ne m c main_arg0 (by decide)
    _ = Wo0 m c (Proc.devRef .tc main_arg0) := StableHlo.after_of_writes_sub hostOps1 _ Gen.hostOps1_writes (by decide)
    _ = Wi0 m c (Proc.devRef .tc main_arg0) := Wo0_in m c 0 rfl
    _ = Gen.V2 m c (Proc.devRef .tc main_arg0) := Gen.V3_of m c main_arg0 (by decide)
    _ = Gen.V1 m c (Proc.devRef .tc main_arg0) := Gen.V2_of m c main_arg0 (by decide)
    _ = Gen.V0 m c (Proc.devRef .tc main_arg0) := Gen.V1_of m c main_arg0 (by decide)
    _ = m ((c : Thread nD τ).loc main_arg0) := rfl

theorem Wo5_v49 : Wo5 m c (Proc.devRef .tc main_v49) = Wo1 m c (Proc.devRef .tc main_v49) :=
  calc Wo5 m c (Proc.devRef .tc main_v49)
    _ = Wi5 m c (Proc.devRef .tc main_v49) := Wo5_of_ne m c main_v49 (by decide)
    _ = Wo4 m c (Proc.devRef .tc main_v49) := StableHlo.after_of_writes_sub hostOps5 _ Gen.hostOps5_writes (by decide)
    _ = Wi4 m c (Proc.devRef .tc main_v49) := Wo4_of_ne m c main_v49 (by decide)
    _ = Wo3 m c (Proc.devRef .tc main_v49) := StableHlo.after_of_writes_sub hostOps4 _ Gen.hostOps4_writes (by decide)
    _ = Wi3 m c (Proc.devRef .tc main_v49) := Wo3_of_ne m c main_v49 (by decide)
    _ = Wo2 m c (Proc.devRef .tc main_v49) := StableHlo.after_of_writes_sub hostOps3 _ Gen.hostOps3_writes (by decide)
    _ = Wi2 m c (Proc.devRef .tc main_v49) := Wo2_in m c 0 rfl
    _ = Wo1 m c (Proc.devRef .tc main_v49) := StableHlo.after_of_writes_sub hostOps2 _ Gen.hostOps2_writes (by decide)

theorem Wo5_v67 : Wo5 m c (Proc.devRef .tc main_v67) = Wo3 m c (Proc.devRef .tc main_v67) :=
  calc Wo5 m c (Proc.devRef .tc main_v67)
    _ = Wi5 m c (Proc.devRef .tc main_v67) := Wo5_of_ne m c main_v67 (by decide)
    _ = Wo4 m c (Proc.devRef .tc main_v67) := StableHlo.after_of_writes_sub hostOps5 _ Gen.hostOps5_writes (by decide)
    _ = Wi4 m c (Proc.devRef .tc main_v67) := Wo4_in m c 0 rfl
    _ = Wo3 m c (Proc.devRef .tc main_v67) := StableHlo.after_of_writes_sub hostOps4 _ Gen.hostOps4_writes (by decide)

theorem Wo5_arg10 : Wo5 m c (Proc.devRef .tc main_arg10) = m ((c : Thread nD τ).loc main_arg10) :=
  calc Wo5 m c (Proc.devRef .tc main_arg10)
    _ = Wi5 m c (Proc.devRef .tc main_arg10) := Wo5_of_ne m c main_arg10 (by decide)
    _ = Wo4 m c (Proc.devRef .tc main_arg10) := StableHlo.after_of_writes_sub hostOps5 _ Gen.hostOps5_writes (by decide)
    _ = Wi4 m c (Proc.devRef .tc main_arg10) := Wo4_of_ne m c main_arg10 (by decide)
    _ = Wo3 m c (Proc.devRef .tc main_arg10) := StableHlo.after_of_writes_sub hostOps4 _ Gen.hostOps4_writes (by decide)
    _ = Wi3 m c (Proc.devRef .tc main_arg10) := Wo3_of_ne m c main_arg10 (by decide)
    _ = Wo2 m c (Proc.devRef .tc main_arg10) := StableHlo.after_of_writes_sub hostOps3 _ Gen.hostOps3_writes (by decide)
    _ = Wi2 m c (Proc.devRef .tc main_arg10) := Wo2_of_ne m c main_arg10 (by decide)
    _ = Wo1 m c (Proc.devRef .tc main_arg10) := StableHlo.after_of_writes_sub hostOps2 _ Gen.hostOps2_writes (by decide)
    _ = Wi1 m c (Proc.devRef .tc main_arg10) := Wo1_of_ne m c main_arg10 (by decide)
    _ = Wo0 m c (Proc.devRef .tc main_arg10) := StableHlo.after_of_writes_sub hostOps1 _ Gen.hostOps1_writes (by decide)
    _ = Wi0 m c (Proc.devRef .tc main_arg10) := Wo0_of_ne m c main_arg10 (by decide)
    _ = Gen.V2 m c (Proc.devRef .tc main_arg10) := Gen.V3_of m c main_arg10 (by decide)
    _ = Gen.V1 m c (Proc.devRef .tc main_arg10) := Gen.V2_of m c main_arg10 (by decide)
    _ = Gen.V0 m c (Proc.devRef .tc main_arg10) := Gen.V1_of m c main_arg10 (by decide)
    _ = m ((c : Thread nD τ).loc main_arg10) := rfl

theorem Wi6_arg9 : Wi6 m c (Proc.devRef .tc main_arg9) = m ((c : Thread nD τ).loc main_arg9) :=
  calc Wi6 m c (Proc.devRef .tc main_arg9)
    _ = Wo5 m c (Proc.devRef .tc main_arg9) := StableHlo.after_of_writes_sub hostOps6 _ Gen.hostOps6_writes (by decide)
    _ = Wi5 m c (Proc.devRef .tc main_arg9) := Wo5_of_ne m c main_arg9 (by decide)
    _ = Wo4 m c (Proc.devRef .tc main_arg9) := StableHlo.after_of_writes_sub hostOps5 _ Gen.hostOps5_writes (by decide)
    _ = Wi4 m c (Proc.devRef .tc main_arg9) := Wo4_of_ne m c main_arg9 (by decide)
    _ = Wo3 m c (Proc.devRef .tc main_arg9) := StableHlo.after_of_writes_sub hostOps4 _ Gen.hostOps4_writes (by decide)
    _ = Wi3 m c (Proc.devRef .tc main_arg9) := Wo3_of_ne m c main_arg9 (by decide)
    _ = Wo2 m c (Proc.devRef .tc main_arg9) := StableHlo.after_of_writes_sub hostOps3 _ Gen.hostOps3_writes (by decide)
    _ = Wi2 m c (Proc.devRef .tc main_arg9) := Wo2_of_ne m c main_arg9 (by decide)
    _ = Wo1 m c (Proc.devRef .tc main_arg9) := StableHlo.after_of_writes_sub hostOps2 _ Gen.hostOps2_writes (by decide)
    _ = Wi1 m c (Proc.devRef .tc main_arg9) := Wo1_of_ne m c main_arg9 (by decide)
    _ = Wo0 m c (Proc.devRef .tc main_arg9) := StableHlo.after_of_writes_sub hostOps1 _ Gen.hostOps1_writes (by decide)
    _ = Wi0 m c (Proc.devRef .tc main_arg9) := Wo0_of_ne m c main_arg9 (by decide)
    _ = Gen.V2 m c (Proc.devRef .tc main_arg9) := Gen.V3_of m c main_arg9 (by decide)
    _ = Gen.V1 m c (Proc.devRef .tc main_arg9) := Gen.V2_of m c main_arg9 (by decide)
    _ = Gen.V0 m c (Proc.devRef .tc main_arg9) := Gen.V1_of m c main_arg9 (by decide)
    _ = m ((c : Thread nD τ).loc main_arg9) := rfl

/-! ## The three layers -/

/-- After region 0: the projection of the features. -/
theorem proj0_eq : Wo0 m c (Proc.devRef .tc main_v34) = Gcn.proj (m ((c : Thread nD τ).loc main_arg0)) (m ((c : Thread nD τ).loc main_arg3)) := by
  refine (Wo0_arr m c 3).trans ((final0 (Ri0 m) c).trans ?_)
  show Gcn.linG (Wi0 m c (Proc.devRef .tc main_arg0)) (Wi0 m c (Proc.devRef .tc main_arg3)) (Wi0 m c (Proc.devRef .tc main_v33)) = _
  rw [Wi0_arg0, Wi0_arg3]
  exact Gcn.linG_zero _ _ _ (Wi0_v33 m c)

/-- After region 1: the first hidden state. -/
theorem hidden1_eq : Wo1 m c (Proc.devRef .tc main_v49) = Gcn.layer (m ((c : Thread nD τ).loc main_arg1)) (m ((c : Thread nD τ).loc main_arg2)) (m ((c : Thread nD τ).loc main_arg0)) (m ((c : Thread nD τ).loc main_arg3)) (m ((c : Thread nD τ).loc main_arg4)) := by
  refine (Wo1_arr m c 2).trans ((final1 (Ri1 m) c).trans ?_)
  show Gcn.actG (StableHlo.after hostOps1 (Wo0 m c) (Proc.devRef .tc main_v47)) (StableHlo.after hostOps1 (Wo0 m c) (Proc.devRef .tc main_v48)) = _
  rw [stretch1_agg (Wo0 m c) (m ((c : Thread nD τ).loc main_arg1)) (m ((c : Thread nD τ).loc main_arg2)) ((Wo0_v5 m c).trans (Wi0_v5 m c)) ((Wo0_v6 m c).trans (Wi0_v6 m c)) ((Wo0_v31 m c).trans (Wi0_v31 m c)),
    stretch1_row, proj0_eq, Wo0_arg4]
  exact Gcn.actG_row _ (m ((c : Thread nD τ).loc main_arg4)) _ (rowOf_apply _)

/-- After region 2: the projection of the first hidden state. -/
theorem proj2_eq : Wo2 m c (Proc.devRef .tc main_v52) = Gcn.proj (Gcn.layer (m ((c : Thread nD τ).loc main_arg1)) (m ((c : Thread nD τ).loc main_arg2)) (m ((c : Thread nD τ).loc main_arg0)) (m ((c : Thread nD τ).loc main_arg3)) (m ((c : Thread nD τ).loc main_arg4))) (m ((c : Thread nD τ).loc main_arg5)) := by
  refine (Wo2_arr m c 3).trans ((final2 (Ri2 m) c).trans ?_)
  show Gcn.linG (Wi2 m c (Proc.devRef .tc main_v49)) (Wi2 m c (Proc.devRef .tc main_arg5)) (StableHlo.after hostOps2 (Wo1 m c) (Proc.devRef .tc main_v51)) = _
  rw [Wi2_v49, Wi2_arg5, hidden1_eq]
  exact Gcn.linG_zero _ _ _ (stretch2_zero (Wo1 m c))

/-- After region 3: the second hidden state. -/
theorem hidden2_eq : Wo3 m c (Proc.devRef .tc main_v67)
    = Gcn.layer (m ((c : Thread nD τ).loc main_arg1)) (m ((c : Thread nD τ).loc main_arg2)) (Gcn.layer (m ((c : Thread nD τ).loc main_arg1)) (m ((c : Thread nD τ).loc main_arg2)) (m ((c : Thread nD τ).loc main_arg0)) (m ((c : Thread nD τ).loc main_arg3)) (m ((c : Thread nD τ).loc main_arg4))) (m ((c : Thread nD τ).loc main_arg5)) (m ((c : Thread nD τ).loc main_arg6)) := by
  refine (Wo3_arr m c 2).trans ((final3 (Ri3 m) c).trans ?_)
  show Gcn.actG (StableHlo.after hostOps3 (Wo2 m c) (Proc.devRef .tc main_v65)) (StableHlo.after hostOps3 (Wo2 m c) (Proc.devRef .tc main_v66)) = _
  rw [stretch3_agg (Wo2 m c) (m ((c : Thread nD τ).loc main_arg1)) (m ((c : Thread nD τ).loc main_arg2)) ((Wo2_v5 m c).trans (Wi0_v5 m c)) ((Wo2_v6 m c).trans (Wi0_v6 m c)) ((Wo2_v31 m c).trans (Wi0_v31 m c)),
    stretch3_row, proj2_eq, Wo2_arg6]
  exact Gcn.actG_row _ (m ((c : Thread nD τ).loc main_arg6)) _ (rowOf_apply _)

/-- After region 4: the projection of the second hidden state. -/
theorem proj4_eq : Wo4 m c (Proc.devRef .tc main_v70)
    = Gcn.proj (Gcn.layer (m ((c : Thread nD τ).loc main_arg1)) (m ((c : Thread nD τ).loc main_arg2)) (Gcn.layer (m ((c : Thread nD τ).loc main_arg1)) (m ((c : Thread nD τ).loc main_arg2)) (m ((c : Thread nD τ).loc main_arg0)) (m ((c : Thread nD τ).loc main_arg3)) (m ((c : Thread nD τ).loc main_arg4))) (m ((c : Thread nD τ).loc main_arg5)) (m ((c : Thread nD τ).loc main_arg6))) (m ((c : Thread nD τ).loc main_arg7)) := by
  refine (Wo4_arr m c 3).trans ((final4 (Ri4 m) c).trans ?_)
  show Gcn.linG (Wi4 m c (Proc.devRef .tc main_v67)) (Wi4 m c (Proc.devRef .tc main_arg7)) (StableHlo.after hostOps4 (Wo3 m c) (Proc.devRef .tc main_v69)) = _
  rw [Wi4_v67, Wi4_arg7, hidden2_eq]
  exact Gcn.linG_zero _ _ _ (stretch4_zero (Wo3 m c))

/-- After region 5: the third hidden state. -/
theorem hidden3_eq : Wo5 m c (Proc.devRef .tc main_v85)
    = Gcn.layer (m ((c : Thread nD τ).loc main_arg1)) (m ((c : Thread nD τ).loc main_arg2)) (Gcn.layer (m ((c : Thread nD τ).loc main_arg1)) (m ((c : Thread nD τ).loc main_arg2)) (Gcn.layer (m ((c : Thread nD τ).loc main_arg1)) (m ((c : Thread nD τ).loc main_arg2)) (m ((c : Thread nD τ).loc main_arg0)) (m ((c : Thread nD τ).loc main_arg3)) (m ((c : Thread nD τ).loc main_arg4))) (m ((c : Thread nD τ).loc main_arg5)) (m ((c : Thread nD τ).loc main_arg6))) (m ((c : Thread nD τ).loc main_arg7)) (m ((c : Thread nD τ).loc main_arg8)) := by
  refine (Wo5_arr m c 2).trans ((final5 (Ri5 m) c).trans ?_)
  show Gcn.actG (StableHlo.after hostOps5 (Wo4 m c) (Proc.devRef .tc main_v83)) (StableHlo.after hostOps5 (Wo4 m c) (Proc.devRef .tc main_v84)) = _
  rw [stretch5_agg (Wo4 m c) (m ((c : Thread nD τ).loc main_arg1)) (m ((c : Thread nD τ).loc main_arg2)) ((Wo4_v5 m c).trans (Wi0_v5 m c)) ((Wo4_v6 m c).trans (Wi0_v6 m c)) ((Wo4_v31 m c).trans (Wi0_v31 m c)),
    stretch5_row, proj4_eq, Wo4_arg8]
  exact Gcn.actG_row _ (m ((c : Thread nD τ).loc main_arg8)) _ (rowOf_apply _)

/-! ## The result -/

/-- THE RESULT ARRAY after the program is the network of the argument arrays. -/
theorem result_eq : Wo6 m c (Proc.devRef .tc main_v88)
    = Gcn.net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (Wo6_arr m c 3).trans ((final6 (Ri6 m) c).trans ?_)
  show Gcn.linG256 (StableHlo.after hostOps6 (Wo5 m c) (Proc.devRef .tc main_v86)) (Wi6 m c (Proc.devRef .tc main_arg9))
      (StableHlo.after hostOps6 (Wo5 m c) (Proc.devRef .tc main_v87)) = _
  rw [stretch6_cat, stretch6_row, Wi6_arg9, Wo5_arg0, Wo5_v49, Wo5_v67, Wo5_arg10, hidden1_eq, hidden2_eq, hidden3_eq]
  exact Gcn.linG256_row _ _ (m ((c : Thread nD τ).loc main_arg10)) _ (rowOf_apply _)

end Chain

end Cert.KernelIdeal.Val

end
-- ==== Proof.lean ====
/-
  The five claims about a three-layer graph convolution network (symmetric-normalised adjacency with self loops, a clamp
  at zero after each layer, the features and the three hidden states concatenated and projected once more) written as a
  program of seven tiled kernels between host gathers and scatter-adds, against the plain array program.

  FRAMES.  Each kernel program is sixteen items — host stretches and kernel regions in turn.  Every region's body loads
  its blocks whole, computes, and stores one whole block; it runs at every grid point without a fault, and the launch
  theorem for a list of regions carries the unscoped buffers from item to item.  No item writes an argument array
  (Proof/Bits/Run.lean for the word-level program, Proof/Ideal/Run.lean for the idealized one: the same argument at
  either float instance).  The array program's frame is its run with the result dropped.

  PRESERVES.  The idealization rewrote no operation.

  ALGEBRAIC.  On the extended reals both programs end at ONE function of the argument arrays (Proof/Spec.lean).  The
  array program is that function by unfolding names.  In the kernel program a change of float format is the identity, a
  block product into a zero accumulator is the sum over the contracted index, the deferred bias of a projection is a row
  of zeros and adding zero changes nothing (also at the infinities), and a row-tiled region computes each output row from
  the same input row, so the twenty blocks of a region are the rows of one whole-array function (Proof/Ideal/Value*.lean);
  the gathers and scatter-adds between the regions are the very operations the array program applies, on the same index
  vectors and the same edge normalisation, which are computed once and never overwritten (Proof/Ideal/Chain.lean).  No law
  used needs a finite operand, so the precondition is not opened.
-/
import proofs.«163322_j18580028523179_1_alg».proof.Defs
import proofs.«163322_j18580028523179_1_alg».proof.Proof.Gen.Kernel
import proofs.«163322_j18580028523179_1_alg».proof.Proof.Gen.KernelIdeal
import proofs.«163322_j18580028523179_1_alg».proof.Proof.Gen.ReferenceIdeal
import proofs.«163322_j18580028523179_1_alg».proof.Proof.Gen.Pre_finite_inputs
import proofs.«163322_j18580028523179_1_alg».proof.Proof.Gen.ReferenceIdeal.Run
import proofs.«163322_j18580028523179_1_alg».proof.Proof.Gen.ReferenceIdeal.Read
import proofs.«163322_j18580028523179_1_alg».proof.Proof.Spec
import proofs.«163322_j18580028523179_1_alg».proof.Proof.Bits.Run
import proofs.«163322_j18580028523179_1_alg».proof.Proof.Ideal.Run
import proofs.«163322_j18580028523179_1_alg».proof.Proof.Ideal.Chain
import Idealize.ShloMosaic.Adequacy
import Idealize.ShloMosaic.Init

noncomputable section

namespace Cert.Proof

open Idealize.ShloMosaic Idealize.SL.Sem

/-- The word-level kernel program runs and leaves its arguments as launched. -/
theorem frame_k : Cert.frame_Kernel (hKernel := Cert.Kernel.Gen.facts) (hPre_finite_inputs := Cert.Pre_finite_inputs.Gen.facts) :=
  fun m ρ _ => Cert.Kernel.Regs.frame m ρ

/-- So does the idealized kernel program. -/
theorem frame_ki : Cert.frame_KernelIdeal (hKernelIdeal := Cert.KernelIdeal.Gen.facts) (hPre_finite_inputs := Cert.Pre_finite_inputs.Gen.facts) :=
  fun m ρ _ => Cert.KernelIdeal.Regs.frame m ρ

/-- The array program's frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- On the extended reals both programs end at the network of the argument arrays. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Gcn.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · refine (θ_run Cert.KernelIdeal.defs _ _).mono (fun r h c => ⟨?_, (h c _ (Cert.KernelIdeal.Regs.mem_uc Cert.KernelIdeal.main_arg0 (by decide))).trans (Cert.KernelIdeal.Regs.Wo6_main_arg0 m c),
      (h c _ (Cert.KernelIdeal.Regs.mem_uc Cert.KernelIdeal.main_arg1 (by decide))).trans (Cert.KernelIdeal.Regs.Wo6_main_arg1 m c),
      (h c _ (Cert.KernelIdeal.Regs.mem_uc Cert.KernelIdeal.main_arg2 (by decide))).trans (Cert.KernelIdeal.Regs.Wo6_main_arg2 m c),
      (h c _ (Cert.KernelIdeal.Regs.mem_uc Cert.KernelIdeal.main_arg3 (by decide))).trans (Cert.KernelIdeal.Regs.Wo6_main_arg3 m c),
      (h c _ (Cert.KernelIdeal.Regs.mem_uc Cert.KernelIdeal.main_arg4 (by decide))).trans (Cert.KernelIdeal.Regs.Wo6_main_arg4 m c),
      (h c _ (Cert.KernelIdeal.Regs.mem_uc Cert.KernelIdeal.main_arg5 (by decide))).trans (Cert.KernelIdeal.Regs.Wo6_main_arg5 m c),
      (h c _ (Cert.KernelIdeal.Regs.mem_uc Cert.KernelIdeal.main_arg6 (by decide))).trans (Cert.KernelIdeal.Regs.Wo6_main_arg6 m c),
      (h c _ (Cert.KernelIdeal.Regs.mem_uc Cert.KernelIdeal.main_arg7 (by decide))).trans (Cert.KernelIdeal.Regs.Wo6_main_arg7 m c),
      (h c _ (Cert.KernelIdeal.Regs.mem_uc Cert.KernelIdeal.main_arg8 (by decide))).trans (Cert.KernelIdeal.Regs.Wo6_main_arg8 m c),
      (h c _ (Cert.KernelIdeal.Regs.mem_uc Cert.KernelIdeal.main_arg9 (by decide))).trans (Cert.KernelIdeal.Regs.Wo6_main_arg9 m c),
      (h c _ (Cert.KernelIdeal.Regs.mem_uc Cert.KernelIdeal.main_arg10 (by decide))).trans (Cert.KernelIdeal.Regs.Wo6_main_arg10 m c)⟩)
      (Cert.KernelIdeal.Regs.run m ρ)
    exact (h c _ (Cert.KernelIdeal.Regs.mem_uc Cert.KernelIdeal.main_v88 (by decide))).trans (Cert.KernelIdeal.Val.result_eq m c)
  · refine (θ_run Cert.ReferenceIdeal.defs _ _).mono (fun _ h c => ⟨?_, (h c).2⟩) (Cert.ReferenceIdeal.Value.run (F := Ideal) m' ρ')
    rw [(h c).1, Cert.ReferenceIdeal.Read.val_main_v146_eq, Cert.Gcn.ref_eq, (hagree c).1, (hagree c).2.1, (hagree c).2.2.1, (hagree c).2.2.2.1,
      (hagree c).2.2.2.2.1, (hagree c).2.2.2.2.2.1, (hagree c).2.2.2.2.2.2.1, (hagree c).2.2.2.2.2.2.2.1, (hagree c).2.2.2.2.2.2.2.2.1,
      (hagree c).2.2.2.2.2.2.2.2.2.1, (hagree c).2.2.2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
